-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v173)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S16x128 : Shape := ⟨2, ![16, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S800000 .f32) (main_arg4 : FVec F S16x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S16x128 : Shape := ⟨2, ![16, 128]⟩
abbrev S128 : Shape := ⟨1, ![128]⟩
abbrev S16x16 : Shape := ⟨2, ![16, 16]⟩
abbrev S_ : Shape := ⟨0, ![]⟩
abbrev S128x16 : Shape := ⟨2, ![128, 16]⟩
abbrev S128x128 : Shape := ⟨2, ![128, 128]⟩
abbrev S5000x128 : Shape := ⟨2, ![5000, 128]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 253
  | .vmem => 17
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S16x128, .f32⟩
  | 5 => ⟨S128, .f32⟩
  | 6 => ⟨S128, .f32⟩
  | 7 => ⟨S16x16, .f32⟩
  | 8 => ⟨S16x16, .f32⟩
  | 9 => ⟨S16x16, .f32⟩
  | 10 => ⟨S16x16, .f32⟩
  | 11 => ⟨S16x16, .f32⟩
  | 12 => ⟨S16x16, .f32⟩
  | 13 => ⟨S16x16, .f32⟩
  | 14 => ⟨S16x16, .f32⟩
  | 15 => ⟨S_, .f32⟩
  | 16 => ⟨S16x16, .f32⟩
  | 17 => ⟨S16x16, .f32⟩
  | 18 => ⟨S_, .f32⟩
  | 19 => ⟨S16x16, .f32⟩
  | 20 => ⟨S16x16, .f32⟩
  | 21 => ⟨S_, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S_, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S128x16, .f32⟩
  | 40 => ⟨S_, .f32⟩
  | 41 => ⟨S16x16, .f32⟩
  | 42 => ⟨S16x16, .f32⟩
  | 43 => ⟨S_, .f32⟩
  | 44 => ⟨S16x16, .f32⟩
  | 45 => ⟨S16x16, .f32⟩
  | 46 => ⟨S_, .f32⟩
  | 47 => ⟨S16x16, .f32⟩
  | 48 => ⟨S16x16, .f32⟩
  | 49 => ⟨S_, .f32⟩
  | 50 => ⟨S16x16, .f32⟩
  | 51 => ⟨S16x16, .f32⟩
  | 52 => ⟨S_, .f32⟩
  | 53 => ⟨S16x16, .f32⟩
  | 54 => ⟨S16x16, .f32⟩
  | 55 => ⟨S_, .f32⟩
  | 56 => ⟨S16x16, .f32⟩
  | 57 => ⟨S16x16, .f32⟩
  | 58 => ⟨S_, .f32⟩
  | 59 => ⟨S16x16, .f32⟩
  | 60 => ⟨S16x16, .f32⟩
  | 61 => ⟨S_, .f32⟩
  | 62 => ⟨S16x16, .f32⟩
  | 63 => ⟨S16x16, .f32⟩
  | 64 => ⟨S128x16, .f32⟩
  | 65 => ⟨S_, .f32⟩
  | 66 => ⟨S16x16, .f32⟩
  | 67 => ⟨S16x16, .f32⟩
  | 68 => ⟨S_, .f32⟩
  | 69 => ⟨S16x16, .f32⟩
  | 70 => ⟨S16x16, .f32⟩
  | 71 => ⟨S_, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S_, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S_, .f32⟩
  | 84 => ⟨S16x16, .f32⟩
  | 85 => ⟨S16x16, .f32⟩
  | 86 => ⟨S_, .f32⟩
  | 87 => ⟨S16x16, .f32⟩
  | 88 => ⟨S16x16, .f32⟩
  | 89 => ⟨S128x16, .f32⟩
  | 90 => ⟨S_, .f32⟩
  | 91 => ⟨S16x16, .f32⟩
  | 92 => ⟨S16x16, .f32⟩
  | 93 => ⟨S_, .f32⟩
  | 94 => ⟨S16x16, .f32⟩
  | 95 => ⟨S16x16, .f32⟩
  | 96 => ⟨S_, .f32⟩
  | 97 => ⟨S16x16, .f32⟩
  | 98 => ⟨S16x16, .f32⟩
  | 99 => ⟨S_, .f32⟩
  | 100 => ⟨S16x16, .f32⟩
  | 101 => ⟨S16x16, .f32⟩
  | 102 => ⟨S_, .f32⟩
  | 103 => ⟨S16x16, .f32⟩
  | 104 => ⟨S16x16, .f32⟩
  | 105 => ⟨S_, .f32⟩
  | 106 => ⟨S16x16, .f32⟩
  | 107 => ⟨S16x16, .f32⟩
  | 108 => ⟨S_, .f32⟩
  | 109 => ⟨S16x16, .f32⟩
  | 110 => ⟨S16x16, .f32⟩
  | 111 => ⟨S_, .f32⟩
  | 112 => ⟨S16x16, .f32⟩
  | 113 => ⟨S16x16, .f32⟩
  | 114 => ⟨S128x16, .f32⟩
  | 115 => ⟨S_, .f32⟩
  | 116 => ⟨S16x16, .f32⟩
  | 117 => ⟨S16x16, .f32⟩
  | 118 => ⟨S_, .f32⟩
  | 119 => ⟨S16x16, .f32⟩
  | 120 => ⟨S16x16, .f32⟩
  | 121 => ⟨S_, .f32⟩
  | 122 => ⟨S16x16, .f32⟩
  | 123 => ⟨S16x16, .f32⟩
  | 124 => ⟨S_, .f32⟩
  | 125 => ⟨S16x16, .f32⟩
  | 126 => ⟨S16x16, .f32⟩
  | 127 => ⟨S_, .f32⟩
  | _ => ⟨S50000x128, .f32⟩

abbrev hbmTy0_1 (i : Nat) : BufTy := match i % 128 with
  | 0 => ⟨S16x16, .f32⟩
  | 1 => ⟨S16x16, .f32⟩
  | 2 => ⟨S_, .f32⟩
  | 3 => ⟨S16x16, .f32⟩
  | 4 => ⟨S16x16, .f32⟩
  | 5 => ⟨S_, .f32⟩
  | 6 => ⟨S16x16, .f32⟩
  | 7 => ⟨S16x16, .f32⟩
  | 8 => ⟨S_, .f32⟩
  | 9 => ⟨S16x16, .f32⟩
  | 10 => ⟨S16x16, .f32⟩
  | 11 => ⟨S128x16, .f32⟩
  | 12 => ⟨S_, .f32⟩
  | 13 => ⟨S16x16, .f32⟩
  | 14 => ⟨S16x16, .f32⟩
  | 15 => ⟨S_, .f32⟩
  | 16 => ⟨S16x16, .f32⟩
  | 17 => ⟨S16x16, .f32⟩
  | 18 => ⟨S_, .f32⟩
  | 19 => ⟨S16x16, .f32⟩
  | 20 => ⟨S16x16, .f32⟩
  | 21 => ⟨S_, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S_, .f32⟩
  | 34 => ⟨S16x16, .f32⟩
  | 35 => ⟨S16x16, .f32⟩
  | 36 => ⟨S128x16, .f32⟩
  | 37 => ⟨S_, .f32⟩
  | 38 => ⟨S16x16, .f32⟩
  | 39 => ⟨S16x16, .f32⟩
  | 40 => ⟨S_, .f32⟩
  | 41 => ⟨S16x16, .f32⟩
  | 42 => ⟨S16x16, .f32⟩
  | 43 => ⟨S_, .f32⟩
  | 44 => ⟨S16x16, .f32⟩
  | 45 => ⟨S16x16, .f32⟩
  | 46 => ⟨S_, .f32⟩
  | 47 => ⟨S16x16, .f32⟩
  | 48 => ⟨S16x16, .f32⟩
  | 49 => ⟨S_, .f32⟩
  | 50 => ⟨S16x16, .f32⟩
  | 51 => ⟨S16x16, .f32⟩
  | 52 => ⟨S_, .f32⟩
  | 53 => ⟨S16x16, .f32⟩
  | 54 => ⟨S16x16, .f32⟩
  | 55 => ⟨S_, .f32⟩
  | 56 => ⟨S16x16, .f32⟩
  | 57 => ⟨S16x16, .f32⟩
  | 58 => ⟨S_, .f32⟩
  | 59 => ⟨S16x16, .f32⟩
  | 60 => ⟨S16x16, .f32⟩
  | 61 => ⟨S128x16, .f32⟩
  | 62 => ⟨S_, .f32⟩
  | 63 => ⟨S16x16, .f32⟩
  | 64 => ⟨S16x16, .f32⟩
  | 65 => ⟨S_, .f32⟩
  | 66 => ⟨S16x16, .f32⟩
  | 67 => ⟨S16x16, .f32⟩
  | 68 => ⟨S_, .f32⟩
  | 69 => ⟨S16x16, .f32⟩
  | 70 => ⟨S16x16, .f32⟩
  | 71 => ⟨S_, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S_, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S_, .f32⟩
  | 84 => ⟨S16x16, .f32⟩
  | 85 => ⟨S16x16, .f32⟩
  | 86 => ⟨S128x16, .f32⟩
  | 87 => ⟨S128x128, .f32⟩
  | 88 => ⟨S50000x128, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_v38 : Ref sig .tc := ⟨.hbm, 60, rfl⟩
abbrev main_cst_14 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_15 : Ref sig .tc := ⟨.hbm, 65, rfl⟩
abbrev main_v42 : Ref sig .tc := ⟨.hbm, 66, rfl⟩
abbrev main_v43 : Ref sig .tc := ⟨.hbm, 67, rfl⟩
abbrev main_cst_16 : Ref sig .tc := ⟨.hbm, 68, rfl⟩
abbrev main_v44 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_v47 : Ref sig .tc := ⟨.hbm, 73, rfl⟩
abbrev main_cst_18 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_cst_20 : Ref sig .tc := ⟨.hbm, 80, rfl⟩
abbrev main_v52 : Ref sig .tc := ⟨.hbm, 81, rfl⟩
abbrev main_v53 : Ref sig .tc := ⟨.hbm, 82, rfl⟩
abbrev main_cst_21 : Ref sig .tc := ⟨.hbm, 83, rfl⟩
abbrev main_v54 : Ref sig .tc := ⟨.hbm, 84, rfl⟩
abbrev main_v55 : Ref sig .tc := ⟨.hbm, 85, rfl⟩
abbrev main_cst_22 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_23 : Ref sig .tc := ⟨.hbm, 90, rfl⟩
abbrev main_v59 : Ref sig .tc := ⟨.hbm, 91, rfl⟩
abbrev main_v60 : Ref sig .tc := ⟨.hbm, 92, rfl⟩
abbrev main_cst_24 : Ref sig .tc := ⟨.hbm, 93, rfl⟩
abbrev main_v61 : Ref sig .tc := ⟨.hbm, 94, rfl⟩
abbrev main_v62 : Ref sig .tc := ⟨.hbm, 95, rfl⟩
abbrev main_cst_25 : Ref sig .tc := ⟨.hbm, 96, rfl⟩
abbrev main_v63 : Ref sig .tc := ⟨.hbm, 97, rfl⟩
abbrev main_v64 : Ref sig .tc := ⟨.hbm, 98, rfl⟩
abbrev main_cst_26 : Ref sig .tc := ⟨.hbm, 99, rfl⟩
abbrev main_v65 : Ref sig .tc := ⟨.hbm, 100, rfl⟩
abbrev main_v66 : Ref sig .tc := ⟨.hbm, 101, rfl⟩
abbrev main_cst_27 : Ref sig .tc := ⟨.hbm, 102, rfl⟩
abbrev main_v67 : Ref sig .tc := ⟨.hbm, 103, rfl⟩
abbrev main_v68 : Ref sig .tc := ⟨.hbm, 104, rfl⟩
abbrev main_cst_28 : Ref sig .tc := ⟨.hbm, 105, rfl⟩
abbrev main_v69 : Ref sig .tc := ⟨.hbm, 106, rfl⟩
abbrev main_v70 : Ref sig .tc := ⟨.hbm, 107, rfl⟩
abbrev main_cst_29 : Ref sig .tc := ⟨.hbm, 108, rfl⟩
abbrev main_v71 : Ref sig .tc := ⟨.hbm, 109, rfl⟩
abbrev main_v72 : Ref sig .tc := ⟨.hbm, 110, rfl⟩
abbrev main_cst_30 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_31 : Ref sig .tc := ⟨.hbm, 115, rfl⟩
abbrev main_v76 : Ref sig .tc := ⟨.hbm, 116, rfl⟩
abbrev main_v77 : Ref sig .tc := ⟨.hbm, 117, rfl⟩
abbrev main_cst_32 : Ref sig .tc := ⟨.hbm, 118, rfl⟩
abbrev main_v78 : Ref sig .tc := ⟨.hbm, 119, rfl⟩
abbrev main_v79 : Ref sig .tc := ⟨.hbm, 120, rfl⟩
abbrev main_cst_33 : Ref sig .tc := ⟨.hbm, 121, rfl⟩
abbrev main_v80 : Ref sig .tc := ⟨.hbm, 122, rfl⟩
abbrev main_v81 : Ref sig .tc := ⟨.hbm, 123, rfl⟩
abbrev main_cst_34 : Ref sig .tc := ⟨.hbm, 124, rfl⟩
abbrev main_v82 : Ref sig .tc := ⟨.hbm, 125, rfl⟩
abbrev main_v83 : Ref sig .tc := ⟨.hbm, 126, rfl⟩
abbrev main_cst_35 : Ref sig .tc := ⟨.hbm, 127, rfl⟩
abbrev main_v84 : Ref sig .tc := ⟨.hbm, 128, rfl⟩
abbrev main_v85 : Ref sig .tc := ⟨.hbm, 129, rfl⟩
abbrev main_cst_36 : Ref sig .tc := ⟨.hbm, 130, rfl⟩
abbrev main_v86 : Ref sig .tc := ⟨.hbm, 131, rfl⟩
abbrev main_v87 : Ref sig .tc := ⟨.hbm, 132, rfl⟩
abbrev main_cst_37 : Ref sig .tc := ⟨.hbm, 133, rfl⟩
abbrev main_v88 : Ref sig .tc := ⟨.hbm, 134, rfl⟩
abbrev main_v89 : Ref sig .tc := ⟨.hbm, 135, rfl⟩
abbrev main_cst_38 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_39 : Ref sig .tc := ⟨.hbm, 140, rfl⟩
abbrev main_v93 : Ref sig .tc := ⟨.hbm, 141, rfl⟩
abbrev main_v94 : Ref sig .tc := ⟨.hbm, 142, rfl⟩
abbrev main_cst_40 : Ref sig .tc := ⟨.hbm, 143, rfl⟩
abbrev main_v95 : Ref sig .tc := ⟨.hbm, 144, rfl⟩
abbrev main_v96 : Ref sig .tc := ⟨.hbm, 145, rfl⟩
abbrev main_cst_41 : Ref sig .tc := ⟨.hbm, 146, rfl⟩
abbrev main_v97 : Ref sig .tc := ⟨.hbm, 147, rfl⟩
abbrev main_v98 : Ref sig .tc := ⟨.hbm, 148, rfl⟩
abbrev main_cst_42 : Ref sig .tc := ⟨.hbm, 149, rfl⟩
abbrev main_v99 : Ref sig .tc := ⟨.hbm, 150, rfl⟩
abbrev main_v100 : Ref sig .tc := ⟨.hbm, 151, rfl⟩
abbrev main_cst_43 : Ref sig .tc := ⟨.hbm, 152, rfl⟩
abbrev main_v101 : Ref sig .tc := ⟨.hbm, 153, rfl⟩
abbrev main_v102 : Ref sig .tc := ⟨.hbm, 154, rfl⟩
abbrev main_cst_44 : Ref sig .tc := ⟨.hbm, 155, rfl⟩
abbrev main_v103 : Ref sig .tc := ⟨.hbm, 156, rfl⟩
abbrev main_v104 : Ref sig .tc := ⟨.hbm, 157, rfl⟩
abbrev main_cst_45 : Ref sig .tc := ⟨.hbm, 158, rfl⟩
abbrev main_v105 : Ref sig .tc := ⟨.hbm, 159, rfl⟩
abbrev main_v106 : Ref sig .tc := ⟨.hbm, 160, rfl⟩
abbrev main_cst_46 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_47 : Ref sig .tc := ⟨.hbm, 165, rfl⟩
abbrev main_v110 : Ref sig .tc := ⟨.hbm, 166, rfl⟩
abbrev main_v111 : Ref sig .tc := ⟨.hbm, 167, rfl⟩
abbrev main_cst_48 : Ref sig .tc := ⟨.hbm, 168, rfl⟩
abbrev main_v112 : Ref sig .tc := ⟨.hbm, 169, rfl⟩
abbrev main_v113 : Ref sig .tc := ⟨.hbm, 170, rfl⟩
abbrev main_cst_49 : Ref sig .tc := ⟨.hbm, 171, rfl⟩
abbrev main_v114 : Ref sig .tc := ⟨.hbm, 172, rfl⟩
abbrev main_v115 : Ref sig .tc := ⟨.hbm, 173, rfl⟩
abbrev main_cst_50 : Ref sig .tc := ⟨.hbm, 174, rfl⟩
abbrev main_v116 : Ref sig .tc := ⟨.hbm, 175, rfl⟩
abbrev main_v117 : Ref sig .tc := ⟨.hbm, 176, rfl⟩
abbrev main_cst_51 : Ref sig .tc := ⟨.hbm, 177, rfl⟩
abbrev main_v118 : Ref sig .tc := ⟨.hbm, 178, rfl⟩
abbrev main_v119 : Ref sig .tc := ⟨.hbm, 179, rfl⟩
abbrev main_cst_52 : Ref sig .tc := ⟨.hbm, 180, rfl⟩
abbrev main_v120 : Ref sig .tc := ⟨.hbm, 181, rfl⟩
abbrev main_v121 : Ref sig .tc := ⟨.hbm, 182, rfl⟩
abbrev main_cst_53 : Ref sig .tc := ⟨.hbm, 183, rfl⟩
abbrev main_v122 : Ref sig .tc := ⟨.hbm, 184, rfl⟩
abbrev main_v123 : Ref sig .tc := ⟨.hbm, 185, rfl⟩
abbrev main_cst_54 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_55 : Ref sig .tc := ⟨.hbm, 190, rfl⟩
abbrev main_v127 : Ref sig .tc := ⟨.hbm, 191, rfl⟩
abbrev main_v128 : Ref sig .tc := ⟨.hbm, 192, rfl⟩
abbrev main_cst_56 : Ref sig .tc := ⟨.hbm, 193, rfl⟩
abbrev main_v129 : Ref sig .tc := ⟨.hbm, 194, rfl⟩
abbrev main_v130 : Ref sig .tc := ⟨.hbm, 195, rfl⟩
abbrev main_cst_57 : Ref sig .tc := ⟨.hbm, 196, rfl⟩
abbrev main_v131 : Ref sig .tc := ⟨.hbm, 197, rfl⟩
abbrev main_v132 : Ref sig .tc := ⟨.hbm, 198, rfl⟩
abbrev main_cst_58 : Ref sig .tc := ⟨.hbm, 199, rfl⟩
abbrev main_v133 : Ref sig .tc := ⟨.hbm, 200, rfl⟩
abbrev main_v134 : Ref sig .tc := ⟨.hbm, 201, rfl⟩
abbrev main_cst_59 : Ref sig .tc := ⟨.hbm, 202, rfl⟩
abbrev main_v135 : Ref sig .tc := ⟨.hbm, 203, rfl⟩
abbrev main_v136 : Ref sig .tc := ⟨.hbm, 204, rfl⟩
abbrev main_cst_60 : Ref sig .tc := ⟨.hbm, 205, rfl⟩
abbrev main_v137 : Ref sig .tc := ⟨.hbm, 206, rfl⟩
abbrev main_v138 : Ref sig .tc := ⟨.hbm, 207, rfl⟩
abbrev main_cst_61 : Ref sig .tc := ⟨.hbm, 208, rfl⟩
abbrev main_v139 : Ref sig .tc := ⟨.hbm, 209, rfl⟩
abbrev main_v140 : Ref sig .tc := ⟨.hbm, 210, rfl⟩
abbrev main_cst_62 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_c : Ref sig .tc := ⟨.hbm, 218, rfl⟩
abbrev main_v147 : Ref sig .tc := ⟨.hbm, 219, rfl⟩
abbrev main_v148 : Ref sig .tc := ⟨.hbm, 220, rfl⟩
abbrev main_c_63 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_64 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159_0 : Ref sig .tc := ⟨.hbm, 233, rfl⟩
abbrev main_v159_1 : Ref sig .tc := ⟨.hbm, 234, rfl⟩
abbrev main_cst_65 : Ref sig .tc := ⟨.hbm, 235, rfl⟩
abbrev main_v160 : Ref sig .tc := ⟨.hbm, 236, rfl⟩
abbrev main_v161 : Ref sig .tc := ⟨.hbm, 237, rfl⟩
abbrev main_cst_66 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_67 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_68 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S16x128_S16x16_0_0 : S16x128.Slices ![0, 0] S16x16
  slices_S16x128_S16x16_0_16 : S16x128.Slices ![0, 16] S16x16
  slices_S16x128_S16x16_0_32 : S16x128.Slices ![0, 32] S16x16
  slices_S16x128_S16x16_0_48 : S16x128.Slices ![0, 48] S16x16
  slices_S16x128_S16x16_0_64 : S16x128.Slices ![0, 64] S16x16
  slices_S16x128_S16x16_0_80 : S16x128.Slices ![0, 80] S16x16
  slices_S16x128_S16x16_0_96 : S16x128.Slices ![0, 96] S16x16
  slices_S16x128_S16x16_0_112 : S16x128.Slices ![0, 112] S16x16
  bcast_S_S16x16 : S_.BroadcastsInDim S16x16 (![] : Fin 0 → Fin S16x16.rank)
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v144) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v145) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v158) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v159_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v159_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v158) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v161) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v170) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v171) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v172) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v173) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S16x128 : Shape := ⟨2, ![16, 128]⟩
abbrev S128 : Shape := ⟨1, ![128]⟩
abbrev S16x16 : Shape := ⟨2, ![16, 16]⟩
abbrev S_ : Shape := ⟨0, ![]⟩
abbrev S128x16 : Shape := ⟨2, ![128, 16]⟩
abbrev S128x128 : Shape := ⟨2, ![128, 128]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 278
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S16x128, .f32⟩
  | 5 => ⟨S128, .f32⟩
  | 6 => ⟨S128, .f32⟩
  | 7 => ⟨S16x16, .f32⟩
  | 8 => ⟨S16x16, .f32⟩
  | 9 => ⟨S16x16, .f32⟩
  | 10 => ⟨S16x16, .f32⟩
  | 11 => ⟨S16x16, .f32⟩
  | 12 => ⟨S16x16, .f32⟩
  | 13 => ⟨S16x16, .f32⟩
  | 14 => ⟨S16x16, .f32⟩
  | 15 => ⟨S_, .f32⟩
  | 16 => ⟨S16x16, .f32⟩
  | 17 => ⟨S16x16, .f32⟩
  | 18 => ⟨S_, .f32⟩
  | 19 => ⟨S16x16, .f32⟩
  | 20 => ⟨S16x16, .f32⟩
  | 21 => ⟨S_, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S_, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S128x16, .f32⟩
  | 40 => ⟨S_, .f32⟩
  | 41 => ⟨S16x16, .f32⟩
  | 42 => ⟨S16x16, .f32⟩
  | 43 => ⟨S_, .f32⟩
  | 44 => ⟨S16x16, .f32⟩
  | 45 => ⟨S16x16, .f32⟩
  | 46 => ⟨S_, .f32⟩
  | 47 => ⟨S16x16, .f32⟩
  | 48 => ⟨S16x16, .f32⟩
  | 49 => ⟨S_, .f32⟩
  | 50 => ⟨S16x16, .f32⟩
  | 51 => ⟨S16x16, .f32⟩
  | 52 => ⟨S_, .f32⟩
  | 53 => ⟨S16x16, .f32⟩
  | 54 => ⟨S16x16, .f32⟩
  | 55 => ⟨S_, .f32⟩
  | 56 => ⟨S16x16, .f32⟩
  | 57 => ⟨S16x16, .f32⟩
  | 58 => ⟨S_, .f32⟩
  | 59 => ⟨S16x16, .f32⟩
  | 60 => ⟨S16x16, .f32⟩
  | 61 => ⟨S_, .f32⟩
  | 62 => ⟨S16x16, .f32⟩
  | 63 => ⟨S16x16, .f32⟩
  | 64 => ⟨S128x16, .f32⟩
  | 65 => ⟨S_, .f32⟩
  | 66 => ⟨S16x16, .f32⟩
  | 67 => ⟨S16x16, .f32⟩
  | 68 => ⟨S_, .f32⟩
  | 69 => ⟨S16x16, .f32⟩
  | 70 => ⟨S16x16, .f32⟩
  | 71 => ⟨S_, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S_, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S_, .f32⟩
  | 84 => ⟨S16x16, .f32⟩
  | 85 => ⟨S16x16, .f32⟩
  | 86 => ⟨S_, .f32⟩
  | 87 => ⟨S16x16, .f32⟩
  | 88 => ⟨S16x16, .f32⟩
  | 89 => ⟨S128x16, .f32⟩
  | 90 => ⟨S_, .f32⟩
  | 91 => ⟨S16x16, .f32⟩
  | 92 => ⟨S16x16, .f32⟩
  | 93 => ⟨S_, .f32⟩
  | 94 => ⟨S16x16, .f32⟩
  | 95 => ⟨S16x16, .f32⟩
  | 96 => ⟨S_, .f32⟩
  | 97 => ⟨S16x16, .f32⟩
  | 98 => ⟨S16x16, .f32⟩
  | 99 => ⟨S_, .f32⟩
  | 100 => ⟨S16x16, .f32⟩
  | 101 => ⟨S16x16, .f32⟩
  | 102 => ⟨S_, .f32⟩
  | 103 => ⟨S16x16, .f32⟩
  | 104 => ⟨S16x16, .f32⟩
  | 105 => ⟨S_, .f32⟩
  | 106 => ⟨S16x16, .f32⟩
  | 107 => ⟨S16x16, .f32⟩
  | 108 => ⟨S_, .f32⟩
  | 109 => ⟨S16x16, .f32⟩
  | 110 => ⟨S16x16, .f32⟩
  | 111 => ⟨S_, .f32⟩
  | 112 => ⟨S16x16, .f32⟩
  | 113 => ⟨S16x16, .f32⟩
  | 114 => ⟨S128x16, .f32⟩
  | 115 => ⟨S_, .f32⟩
  | 116 => ⟨S16x16, .f32⟩
  | 117 => ⟨S16x16, .f32⟩
  | 118 => ⟨S_, .f32⟩
  | 119 => ⟨S16x16, .f32⟩
  | 120 => ⟨S16x16, .f32⟩
  | 121 => ⟨S_, .f32⟩
  | 122 => ⟨S16x16, .f32⟩
  | 123 => ⟨S16x16, .f32⟩
  | 124 => ⟨S_, .f32⟩
  | 125 => ⟨S16x16, .f32⟩
  | 126 => ⟨S16x16, .f32⟩
  | 127 => ⟨S_, .f32⟩
  | _ => ⟨S50000x128, .f32⟩

abbrev hbmTy0_1 (i : Nat) : BufTy := match i % 128 with
  | 0 => ⟨S16x16, .f32⟩
  | 1 => ⟨S16x16, .f32⟩
  | 2 => ⟨S_, .f32⟩
  | 3 => ⟨S16x16, .f32⟩
  | 4 => ⟨S16x16, .f32⟩
  | 5 => ⟨S_, .f32⟩
  | 6 => ⟨S16x16, .f32⟩
  | 7 => ⟨S16x16, .f32⟩
  | 8 => ⟨S_, .f32⟩
  | 9 => ⟨S16x16, .f32⟩
  | 10 => ⟨S16x16, .f32⟩
  | 11 => ⟨S128x16, .f32⟩
  | 12 => ⟨S_, .f32⟩
  | 13 => ⟨S16x16, .f32⟩
  | 14 => ⟨S16x16, .f32⟩
  | 15 => ⟨S_, .f32⟩
  | 16 => ⟨S16x16, .f32⟩
  | 17 => ⟨S16x16, .f32⟩
  | 18 => ⟨S_, .f32⟩
  | 19 => ⟨S16x16, .f32⟩
  | 20 => ⟨S16x16, .f32⟩
  | 21 => ⟨S_, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S_, .f32⟩
  | 34 => ⟨S16x16, .f32⟩
  | 35 => ⟨S16x16, .f32⟩
  | 36 => ⟨S128x16, .f32⟩
  | 37 => ⟨S_, .f32⟩
  | 38 => ⟨S16x16, .f32⟩
  | 39 => ⟨S16x16, .f32⟩
  | 40 => ⟨S_, .f32⟩
  | 41 => ⟨S16x16, .f32⟩
  | 42 => ⟨S16x16, .f32⟩
  | 43 => ⟨S_, .f32⟩
  | 44 => ⟨S16x16, .f32⟩
  | 45 => ⟨S16x16, .f32⟩
  | 46 => ⟨S_, .f32⟩
  | 47 => ⟨S16x16, .f32⟩
  | 48 => ⟨S16x16, .f32⟩
  | 49 => ⟨S_, .f32⟩
  | 50 => ⟨S16x16, .f32⟩
  | 51 => ⟨S16x16, .f32⟩
  | 52 => ⟨S_, .f32⟩
  | 53 => ⟨S16x16, .f32⟩
  | 54 => ⟨S16x16, .f32⟩
  | 55 => ⟨S_, .f32⟩
  | 56 => ⟨S16x16, .f32⟩
  | 57 => ⟨S16x16, .f32⟩
  | 58 => ⟨S_, .f32⟩
  | 59 => ⟨S16x16, .f32⟩
  | 60 => ⟨S16x16, .f32⟩
  | 61 => ⟨S128x16, .f32⟩
  | 62 => ⟨S_, .f32⟩
  | 63 => ⟨S16x16, .f32⟩
  | 64 => ⟨S16x16, .f32⟩
  | 65 => ⟨S_, .f32⟩
  | 66 => ⟨S16x16, .f32⟩
  | 67 => ⟨S16x16, .f32⟩
  | 68 => ⟨S_, .f32⟩
  | 69 => ⟨S16x16, .f32⟩
  | 70 => ⟨S16x16, .f32⟩
  | 71 => ⟨S_, .f32⟩
  | 72 => ⟨S16x16, .f32⟩
  | 73 => ⟨S16x16, .f32⟩
  | 74 => ⟨S_, .f32⟩
  | 75 => ⟨S16x16, .f32⟩
  | 76 => ⟨S16x16, .f32⟩
  | 77 => ⟨S_, .f32⟩
  | 78 => ⟨S16x16, .f32⟩
  | 79 => ⟨S16x16, .f32⟩
  | 80 => ⟨S_, .f32⟩
  | 81 => ⟨S16x16, .f32⟩
  | 82 => ⟨S16x16, .f32⟩
  | 83 => ⟨S_, .f32⟩
  | 84 => ⟨S16x16, .f32⟩
  | 85 => ⟨S16x16, .f32⟩
  | 86 => ⟨S128x16, .f32⟩
  | 87 => ⟨S128x128, .f32⟩
  | 88 => ⟨S50000x128, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_2 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_cst_10 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_v38 : Ref sig .tc := ⟨.hbm, 60, rfl⟩
abbrev main_cst_14 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_15 : Ref sig .tc := ⟨.hbm, 65, rfl⟩
abbrev main_v42 : Ref sig .tc := ⟨.hbm, 66, rfl⟩
abbrev main_v43 : Ref sig .tc := ⟨.hbm, 67, rfl⟩
abbrev main_cst_16 : Ref sig .tc := ⟨.hbm, 68, rfl⟩
abbrev main_v44 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_v47 : Ref sig .tc := ⟨.hbm, 73, rfl⟩
abbrev main_cst_18 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_cst_20 : Ref sig .tc := ⟨.hbm, 80, rfl⟩
abbrev main_v52 : Ref sig .tc := ⟨.hbm, 81, rfl⟩
abbrev main_v53 : Ref sig .tc := ⟨.hbm, 82, rfl⟩
abbrev main_cst_21 : Ref sig .tc := ⟨.hbm, 83, rfl⟩
abbrev main_v54 : Ref sig .tc := ⟨.hbm, 84, rfl⟩
abbrev main_v55 : Ref sig .tc := ⟨.hbm, 85, rfl⟩
abbrev main_cst_22 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_23 : Ref sig .tc := ⟨.hbm, 90, rfl⟩
abbrev main_v59 : Ref sig .tc := ⟨.hbm, 91, rfl⟩
abbrev main_v60 : Ref sig .tc := ⟨.hbm, 92, rfl⟩
abbrev main_cst_24 : Ref sig .tc := ⟨.hbm, 93, rfl⟩
abbrev main_v61 : Ref sig .tc := ⟨.hbm, 94, rfl⟩
abbrev main_v62 : Ref sig .tc := ⟨.hbm, 95, rfl⟩
abbrev main_cst_25 : Ref sig .tc := ⟨.hbm, 96, rfl⟩
abbrev main_v63 : Ref sig .tc := ⟨.hbm, 97, rfl⟩
abbrev main_v64 : Ref sig .tc := ⟨.hbm, 98, rfl⟩
abbrev main_cst_26 : Ref sig .tc := ⟨.hbm, 99, rfl⟩
abbrev main_v65 : Ref sig .tc := ⟨.hbm, 100, rfl⟩
abbrev main_v66 : Ref sig .tc := ⟨.hbm, 101, rfl⟩
abbrev main_cst_27 : Ref sig .tc := ⟨.hbm, 102, rfl⟩
abbrev main_v67 : Ref sig .tc := ⟨.hbm, 103, rfl⟩
abbrev main_v68 : Ref sig .tc := ⟨.hbm, 104, rfl⟩
abbrev main_cst_28 : Ref sig .tc := ⟨.hbm, 105, rfl⟩
abbrev main_v69 : Ref sig .tc := ⟨.hbm, 106, rfl⟩
abbrev main_v70 : Ref sig .tc := ⟨.hbm, 107, rfl⟩
abbrev main_cst_29 : Ref sig .tc := ⟨.hbm, 108, rfl⟩
abbrev main_v71 : Ref sig .tc := ⟨.hbm, 109, rfl⟩
abbrev main_v72 : Ref sig .tc := ⟨.hbm, 110, rfl⟩
abbrev main_cst_30 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_31 : Ref sig .tc := ⟨.hbm, 115, rfl⟩
abbrev main_v76 : Ref sig .tc := ⟨.hbm, 116, rfl⟩
abbrev main_v77 : Ref sig .tc := ⟨.hbm, 117, rfl⟩
abbrev main_cst_32 : Ref sig .tc := ⟨.hbm, 118, rfl⟩
abbrev main_v78 : Ref sig .tc := ⟨.hbm, 119, rfl⟩
abbrev main_v79 : Ref sig .tc := ⟨.hbm, 120, rfl⟩
abbrev main_cst_33 : Ref sig .tc := ⟨.hbm, 121, rfl⟩
abbrev main_v80 : Ref sig .tc := ⟨.hbm, 122, rfl⟩
abbrev main_v81 : Ref sig .tc := ⟨.hbm, 123, rfl⟩
abbrev main_cst_34 : Ref sig .tc := ⟨.hbm, 124, rfl⟩
abbrev main_v82 : Ref sig .tc := ⟨.hbm, 125, rfl⟩
abbrev main_v83 : Ref sig .tc := ⟨.hbm, 126, rfl⟩
abbrev main_cst_35 : Ref sig .tc := ⟨.hbm, 127, rfl⟩
abbrev main_v84 : Ref sig .tc := ⟨.hbm, 128, rfl⟩
abbrev main_v85 : Ref sig .tc := ⟨.hbm, 129, rfl⟩
abbrev main_cst_36 : Ref sig .tc := ⟨.hbm, 130, rfl⟩
abbrev main_v86 : Ref sig .tc := ⟨.hbm, 131, rfl⟩
abbrev main_v87 : Ref sig .tc := ⟨.hbm, 132, rfl⟩
abbrev main_cst_37 : Ref sig .tc := ⟨.hbm, 133, rfl⟩
abbrev main_v88 : Ref sig .tc := ⟨.hbm, 134, rfl⟩
abbrev main_v89 : Ref sig .tc := ⟨.hbm, 135, rfl⟩
abbrev main_cst_38 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_39 : Ref sig .tc := ⟨.hbm, 140, rfl⟩
abbrev main_v93 : Ref sig .tc := ⟨.hbm, 141, rfl⟩
abbrev main_v94 : Ref sig .tc := ⟨.hbm, 142, rfl⟩
abbrev main_cst_40 : Ref sig .tc := ⟨.hbm, 143, rfl⟩
abbrev main_v95 : Ref sig .tc := ⟨.hbm, 144, rfl⟩
abbrev main_v96 : Ref sig .tc := ⟨.hbm, 145, rfl⟩
abbrev main_cst_41 : Ref sig .tc := ⟨.hbm, 146, rfl⟩
abbrev main_v97 : Ref sig .tc := ⟨.hbm, 147, rfl⟩
abbrev main_v98 : Ref sig .tc := ⟨.hbm, 148, rfl⟩
abbrev main_cst_42 : Ref sig .tc := ⟨.hbm, 149, rfl⟩
abbrev main_v99 : Ref sig .tc := ⟨.hbm, 150, rfl⟩
abbrev main_v100 : Ref sig .tc := ⟨.hbm, 151, rfl⟩
abbrev main_cst_43 : Ref sig .tc := ⟨.hbm, 152, rfl⟩
abbrev main_v101 : Ref sig .tc := ⟨.hbm, 153, rfl⟩
abbrev main_v102 : Ref sig .tc := ⟨.hbm, 154, rfl⟩
abbrev main_cst_44 : Ref sig .tc := ⟨.hbm, 155, rfl⟩
abbrev main_v103 : Ref sig .tc := ⟨.hbm, 156, rfl⟩
abbrev main_v104 : Ref sig .tc := ⟨.hbm, 157, rfl⟩
abbrev main_cst_45 : Ref sig .tc := ⟨.hbm, 158, rfl⟩
abbrev main_v105 : Ref sig .tc := ⟨.hbm, 159, rfl⟩
abbrev main_v106 : Ref sig .tc := ⟨.hbm, 160, rfl⟩
abbrev main_cst_46 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_47 : Ref sig .tc := ⟨.hbm, 165, rfl⟩
abbrev main_v110 : Ref sig .tc := ⟨.hbm, 166, rfl⟩
abbrev main_v111 : Ref sig .tc := ⟨.hbm, 167, rfl⟩
abbrev main_cst_48 : Ref sig .tc := ⟨.hbm, 168, rfl⟩
abbrev main_v112 : Ref sig .tc := ⟨.hbm, 169, rfl⟩
abbrev main_v113 : Ref sig .tc := ⟨.hbm, 170, rfl⟩
abbrev main_cst_49 : Ref sig .tc := ⟨.hbm, 171, rfl⟩
abbrev main_v114 : Ref sig .tc := ⟨.hbm, 172, rfl⟩
abbrev main_v115 : Ref sig .tc := ⟨.hbm, 173, rfl⟩
abbrev main_cst_50 : Ref sig .tc := ⟨.hbm, 174, rfl⟩
abbrev main_v116 : Ref sig .tc := ⟨.hbm, 175, rfl⟩
abbrev main_v117 : Ref sig .tc := ⟨.hbm, 176, rfl⟩
abbrev main_cst_51 : Ref sig .tc := ⟨.hbm, 177, rfl⟩
abbrev main_v118 : Ref sig .tc := ⟨.hbm, 178, rfl⟩
abbrev main_v119 : Ref sig .tc := ⟨.hbm, 179, rfl⟩
abbrev main_cst_52 : Ref sig .tc := ⟨.hbm, 180, rfl⟩
abbrev main_v120 : Ref sig .tc := ⟨.hbm, 181, rfl⟩
abbrev main_v121 : Ref sig .tc := ⟨.hbm, 182, rfl⟩
abbrev main_cst_53 : Ref sig .tc := ⟨.hbm, 183, rfl⟩
abbrev main_v122 : Ref sig .tc := ⟨.hbm, 184, rfl⟩
abbrev main_v123 : Ref sig .tc := ⟨.hbm, 185, rfl⟩
abbrev main_cst_54 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_55 : Ref sig .tc := ⟨.hbm, 190, rfl⟩
abbrev main_v127 : Ref sig .tc := ⟨.hbm, 191, rfl⟩
abbrev main_v128 : Ref sig .tc := ⟨.hbm, 192, rfl⟩
abbrev main_cst_56 : Ref sig .tc := ⟨.hbm, 193, rfl⟩
abbrev main_v129 : Ref sig .tc := ⟨.hbm, 194, rfl⟩
abbrev main_v130 : Ref sig .tc := ⟨.hbm, 195, rfl⟩
abbrev main_cst_57 : Ref sig .tc := ⟨.hbm, 196, rfl⟩
abbrev main_v131 : Ref sig .tc := ⟨.hbm, 197, rfl⟩
abbrev main_v132 : Ref sig .tc := ⟨.hbm, 198, rfl⟩
abbrev main_cst_58 : Ref sig .tc := ⟨.hbm, 199, rfl⟩
abbrev main_v133 : Ref sig .tc := ⟨.hbm, 200, rfl⟩
abbrev main_v134 : Ref sig .tc := ⟨.hbm, 201, rfl⟩
abbrev main_cst_59 : Ref sig .tc := ⟨.hbm, 202, rfl⟩
abbrev main_v135 : Ref sig .tc := ⟨.hbm, 203, rfl⟩
abbrev main_v136 : Ref sig .tc := ⟨.hbm, 204, rfl⟩
abbrev main_cst_60 : Ref sig .tc := ⟨.hbm, 205, rfl⟩
abbrev main_v137 : Ref sig .tc := ⟨.hbm, 206, rfl⟩
abbrev main_v138 : Ref sig .tc := ⟨.hbm, 207, rfl⟩
abbrev main_cst_61 : Ref sig .tc := ⟨.hbm, 208, rfl⟩
abbrev main_v139 : Ref sig .tc := ⟨.hbm, 209, rfl⟩
abbrev main_v140 : Ref sig .tc := ⟨.hbm, 210, rfl⟩
abbrev main_cst_62 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_c : Ref sig .tc := ⟨.hbm, 218, rfl⟩
abbrev main_v147 : Ref sig .tc := ⟨.hbm, 219, rfl⟩
abbrev main_v148 : Ref sig .tc := ⟨.hbm, 220, rfl⟩
abbrev main_c_63 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_64 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_65 : Ref sig .tc := ⟨.hbm, 233, rfl⟩
abbrev main_v159 : Ref sig .tc := ⟨.hbm, 234, rfl⟩
abbrev main_cst_66 : Ref sig .tc := ⟨.hbm, 235, rfl⟩
abbrev main_v160 : Ref sig .tc := ⟨.hbm, 236, rfl⟩
abbrev main_v161 : Ref sig .tc := ⟨.hbm, 237, rfl⟩
abbrev main_c_67 : Ref sig .tc := ⟨.hbm, 238, rfl⟩
abbrev main_call0_cst : Ref sig .tc := ⟨.hbm, 239, rfl⟩
abbrev main_call0_v0 : Ref sig .tc := ⟨.hbm, 240, rfl⟩
abbrev main_call0_v1 : Ref sig .tc := ⟨.hbm, 241, rfl⟩
abbrev main_call0_cst_0 : Ref sig .tc := ⟨.hbm, 242, rfl⟩
abbrev main_call0_v2 : Ref sig .tc := ⟨.hbm, 243, rfl⟩
abbrev main_call0_v3 : Ref sig .tc := ⟨.hbm, 244, rfl⟩
abbrev main_call0_v4 : Ref sig .tc := ⟨.hbm, 245, rfl⟩
abbrev main_call0_v5 : Ref sig .tc := ⟨.hbm, 246, rfl⟩
abbrev main_call0_v6 : Ref sig .tc := ⟨.hbm, 247, rfl⟩
abbrev main_call0_v7 : Ref sig .tc := ⟨.hbm, 248, rfl⟩
abbrev main_call0_cst_1 : Ref sig .tc := ⟨.hbm, 249, rfl⟩
abbrev main_call0_v8 : Ref sig .tc := ⟨.hbm, 250, rfl⟩
abbrev main_call0_cst_2 : Ref sig .tc := ⟨.hbm, 251, rfl⟩
abbrev main_call0_v9 : Ref sig .tc := ⟨.hbm, 252, rfl⟩
abbrev main_call0_v10 : Ref sig .tc := ⟨.hbm, 253, rfl⟩
abbrev main_call0_v11 : Ref sig .tc := ⟨.hbm, 254, rfl⟩
abbrev main_call0_cst_3 : Ref sig .tc := ⟨.hbm, 255, rfl⟩
abbrev main_call0_v12 : Ref sig .tc := ⟨.hbm, 256, rfl⟩
abbrev main_call0_cst_4 : Ref sig .tc := ⟨.hbm, 257, rfl⟩
abbrev main_call0_call0_v0 : Ref sig .tc := ⟨.hbm, 258, rfl⟩
abbrev main_call0_call0_v1 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_68 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩

abbrev nD : Nat := 1
abbrev τ : Topo := Topo.v7x

variable {F : FTy → Type} [FloatOps F]

class Facts₀ : Prop where
  slices_S16x128_S16x16_0_0 : S16x128.Slices ![0, 0] S16x16
  slices_S16x128_S16x16_0_16 : S16x128.Slices ![0, 16] S16x16
  slices_S16x128_S16x16_0_32 : S16x128.Slices ![0, 32] S16x16
  slices_S16x128_S16x16_0_48 : S16x128.Slices ![0, 48] S16x16
  slices_S16x128_S16x16_0_64 : S16x128.Slices ![0, 64] S16x16
  slices_S16x128_S16x16_0_80 : S16x128.Slices ![0, 80] S16x16
  slices_S16x128_S16x16_0_96 : S16x128.Slices ![0, 96] S16x16
  slices_S16x128_S16x16_0_112 : S16x128.Slices ![0, 112] S16x16
  bcast_S_S16x16 : S_.BroadcastsInDim S16x16 (![] : Fin 0 → Fin S16x16.rank)
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BRegion0.lean ====
/-
  The first kernel region: the dense product support = input · hamilton, ten row blocks of 5000.
  At each grid point the body reads the point's 5000 rows of the input and the whole 128 by 128
  matrix, and overwrites the point's 5000 rows of the result with their product (accumulated from
  zero). Stated at a PARAMETER `V`: the TensorCore's buffer contents when the region is entered.
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Block `t` of window `w`'s array, as the region finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window: its staging buffer holds the point's rows whenever the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The matrix window (one block, fetched once): its staging buffer holds the matrix at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads and stores through. -/
abbrev rRows : Rect S5000x128 := Rect.unit (s := S5000x128) ![0, 0] S5000x128.size inb_S5000x128_S5000x128_0_0
abbrev rMat : Rect S128x128 := Rect.unit (s := S128x128) ![0, 0] S128x128.size inb_S128x128_S128x128_0_0

/-- What the body leaves in the result window's buffer: the product of the rows it loaded with the matrix it loaded. -/
def prod0 (x : Vec F S5000x128 .f32) (w : Vec F S128x128 .f32) : Vec F S5000x128 .f32 :=
  View.canon [⟨rRows, k0_pay1 (View.ld x rRows) (View.ld w rMat)⟩]

/-- The one store covers the buffer. -/
theorem cover0 (p : Vec F S5000x128 .f32) (y : S5000x128.Idx) :
    ∃ pc ∈ ([⟨rRows, p⟩] : List (View.Piece (Elt F) S5000x128 .f32)), y ∈ pc.1.set :=
  View.cover_of_tiled [⟨rRows, p⟩] S5000x128.size (by rfl) y

set_option maxHeartbeats 1000000 in
/-- The body on whole staging buffers: the two inputs come back as they were and the result buffer holds the product. -/
theorem sound_kernel0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The region's proof data on core `c`: the arrays as the region finds them; after the body the two input
    buffers hold their blocks and the result buffer the product; the invariant is the scoped rest and the
    generator register, untouched; nothing is owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRegion1Run.lean ====
/-
  The second kernel region: per-column sums and sums of squares, accumulated over ten row blocks of
  5000. Both results are rows [1,128] whose one block is written back only after the last point, so
  their staging buffers carry the running totals from point to point: at the first point the body
  first overwrites both with zeros; at every point it adds the block's column sums to the first and
  the block's column sums of squares to the second. Stated at a PARAMETER `V`: the buffer contents
  when the region is entered.
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Block `t` of window `w`'s array, as the region finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window: its staging buffer holds the point's rows whenever the body runs. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The body's branch: "this is the first grid point", as the printed scalar chain over the coordinate. -/
abbrev first1 (i : grid1.Coords) : Prop := (Scalar.cmpi .ne (Scalar.extui (Scalar.cmpi .eq (BitVec.ofNat 32 (i 0).val) 0#32)) 0#32) = 1#1
/-- It holds at point 0 only (decided over the ten points). -/
theorem first1_iff : ∀ t : Fin cfg1.N, first1 (grid1.coords t) ↔ t.val % 10 = 0 :=
  (by decide +kernel : ∀ t : Fin grid1.N, first1 (grid1.coords t) ↔ t.val % 10 = 0)

/-- One staging buffer of each accumulator, through which its contents are stated. -/
abbrev VS1 : View sig .tc .vmem S1x128 .f32 := (Memref.whole cc1_stg1_0 : Memref sig .tc .vmem S1x128 .f32).view
abbrev VS2 : View sig .tc .vmem S1x128 .f32 := (Memref.whole cc1_stg2_0 : Memref sig .tc .vmem S1x128 .f32).view

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

set_option maxHeartbeats 1000000 in
/-- THE FIRST POINT. From the rows buffer at `x` and the two accumulators at anything, the body runs to its
    return with the rows as they were and each accumulator written with the stores the run meets (the zero
    store, then the sum added to what is read back): the pieces, last first, are found by running the body. -/
noncomputable def run1_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i)
    (x : Vec F S5000x128 .f32) :
    Σ' (L1 : List (View.Piece (Elt F) S1x128 .f32)) (L2 : List (View.Piece (Elt F) S1x128 .f32)),
      ∀ (E : Set ℕ) (K : PUnit → sProp 𝕄),
        iprop(owns (c : Thread nD τ) a1 fullShare x ∗ (∃ d, owns (c : Thread nD τ) a2 fullShare d) ∗ (∃ d, owns (c : Thread nD τ) a3 fullShare d)
            ∗ (iprop(owns (c : Thread nD τ) a1 fullShare x
                ∗ (∃ f, a2.view.loc (c : Thread nD τ) ↦[a2.view.set]{fullShare} a2.view.writes (Elt F) f L1)
                ∗ (∃ f, a3.view.loc (c : Thread nD τ) ↦[a3.view.set]{fullShare} a3.view.writes (Elt F) f L2)) -∗ K ⟨⟩))
          ⊢ wp frame (wpE (defs₀ (F := F)) Variants.none c none) E (cc1__reduce_kernel i a1 h1 a2 h2 a3 h3) K := by
  refine ⟨?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%d2, %f2, -, H2⟩, Hk⟩
    obtain rfl := h1.eq_unread hf0
    sl_exec (disch := first | exact hc)
    sl_step
    iapply Hk
    isplitl [H0]
    · iexists _; isplitr; · ipureintro; exact h1.read_unread _
      iexact H0
    isplitl [H1]
    · iexists _; iexact H1
    iexists _; iexact H2

set_option maxHeartbeats 1000000 in
/-- A LATER POINT. From the rows buffer at `x` and the accumulators at their running contents `s`, `q`, the
    body runs to its return with the rows as they were and each accumulator written with the one store the run
    meets (the block's sum added to what is read). -/
noncomputable def run1_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i)
    (x : Vec F S5000x128 .f32) (s q : Vec F S1x128 .f32) :
    Σ' (L1 : List (View.Piece (Elt F) S1x128 .f32)) (L2 : List (View.Piece (Elt F) S1x128 .f32)),
      ∀ (E : Set ℕ) (K : PUnit → sProp 𝕄),
        iprop(owns (c : Thread nD τ) a1 fullShare x ∗ owns (c : Thread nD τ) a2 fullShare s ∗ owns (c : Thread nD τ) a3 fullShare q
            ∗ (iprop(owns (c : Thread nD τ) a1 fullShare x
                ∗ (∃ f, a2.view.loc (c : Thread nD τ) ↦[a2.view.set]{fullShare} a2.view.writes (Elt F) f L1)
                ∗ (∃ f, a3.view.loc (c : Thread nD τ) ↦[a3.view.set]{fullShare} a3.view.writes (Elt F) f L2)) -∗ K ⟨⟩))
          ⊢ wp frame (wpE (defs₀ (F := F)) Variants.none c none) E (cc1__reduce_kernel i a1 h1 a2 h2 a3 h3) K := by
  refine ⟨?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, Hk⟩
    obtain rfl := h1.eq_unread hf0; obtain rfl := h2.eq_unread hf1; obtain rfl := h3.eq_unread hf2
    sl_exec (disch := first | exact hc)
    sl_step
    iapply Hk
    isplitl [H0]
    · iexists _; isplitr; · ipureintro; exact h1.read_unread _
      iexact H0
    isplitl [H1]
    · iexists _; iexact H1
    iexists _; iexact H2

end Region1

end Cert.Kernel.Hand

end
-- ==== Proof.BRegion1.lean ====
/-
  The second kernel region, continued: what the two accumulators hold after each grid point (the
  running column sums and sums of squares), the region's proof data, and its body obligation — at
  the first point the run that zeroes and adds, at a later point the run that adds to what the
  point before left (the accumulators are not written back in between).
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import proofs.«125587_j10548439679296_1_alg».proof.Proof.BRegion1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- The stores each run meets tile the accumulator's one block, so they cover it. -/
theorem cover1_first_s (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) (y : S1x128.Idx) :
    ∃ pc ∈ (run1_first c i a1 h1 a2 h2 a3 h3 hc x).1, y ∈ pc.1.set :=
  View.cover_of_tiledL (run1_first c i a1 h1 a2 h2 a3 h3 hc x).1 S1x128.size (by sl_kernel_rfl) y
theorem cover1_first_q (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) (y : S1x128.Idx) :
    ∃ pc ∈ (run1_first c i a1 h1 a2 h2 a3 h3 hc x).2.1, y ∈ pc.1.set :=
  View.cover_of_tiledL (run1_first c i a1 h1 a2 h2 a3 h3 hc x).2.1 S1x128.size (by sl_kernel_rfl) y
theorem cover1_later_s (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) (y : S1x128.Idx) :
    ∃ pc ∈ (run1_later c i a1 h1 a2 h2 a3 h3 hc x s q).1, y ∈ pc.1.set :=
  View.cover_of_tiledL (run1_later c i a1 h1 a2 h2 a3 h3 hc x s q).1 S1x128.size (by sl_kernel_rfl) y
theorem cover1_later_q (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) (y : S1x128.Idx) :
    ∃ pc ∈ (run1_later c i a1 h1 a2 h2 a3 h3 hc x s q).2.1, y ∈ pc.1.set :=
  View.cover_of_tiledL (run1_later c i a1 h1 a2 h2 a3 h3 hc x s q).2.1 S1x128.size (by sl_kernel_rfl) y

/-- What each run leaves in each accumulator: its stores read back. -/
def sum_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) : Vec F S1x128 .f32 :=
  VS1.read (Elt F) (VS1.writes (Elt F) VS1.junk (run1_first c i a1 h1 a2 h2 a3 h3 hc x).1)
def sq_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) : Vec F S1x128 .f32 :=
  VS2.read (Elt F) (VS2.writes (Elt F) VS2.junk (run1_first c i a1 h1 a2 h2 a3 h3 hc x).2.1)
def sum_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) : Vec F S1x128 .f32 :=
  VS1.read (Elt F) (VS1.writes (Elt F) VS1.junk (run1_later c i a1 h1 a2 h2 a3 h3 hc x s q).1)
def sq_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) : Vec F S1x128 .f32 :=
  VS2.read (Elt F) (VS2.writes (Elt F) VS2.junk (run1_later c i a1 h1 a2 h2 a3 h3 hc x s q).2.1)

/-- There are ten points, -/
theorem lt_ten1 (t : Fin cfg1.N) : t.val < 10 := lt_of_lt_of_eq t.isLt (show cfg1.N = 10 from N_1)
/-- and only point 0 is the first. -/
theorem later1 (t : Fin cfg1.N) (ht : t.val ≠ 0) : ¬first1 (grid1.coords t) := fun h => by
  have := (first1_iff t).mp h; have := lt_ten1 t; omega

/-- THE RUNNING TOTALS: the pair (column sums, column sums of squares) the accumulators hold after the body at
    position `n`: at 0 what the first run leaves, afterwards what a later run leaves over the pair of `n - 1`. -/
def acc1 (c : Dev nD) : (n : ℕ) → n < cfg1.N → Vec F S1x128 .f32 × Vec F S1x128 .f32
  | 0, hn =>
    (sum_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        ((first1_iff ⟨0, hn⟩).mpr (Nat.zero_mod _)) (blk1 V c 0 ⟨0, hn⟩),
     sq_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        ((first1_iff ⟨0, hn⟩).mpr (Nat.zero_mod _)) (blk1 V c 0 ⟨0, hn⟩))
  | n + 1, hn =>
    (sum_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (later1 ⟨n + 1, hn⟩ (Nat.succ_ne_zero n)) (blk1 V c 0 ⟨n + 1, hn⟩) (acc1 c n (Nat.lt_of_succ_lt hn)).1 (acc1 c n (Nat.lt_of_succ_lt hn)).2,
     sq_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (later1 ⟨n + 1, hn⟩ (Nat.succ_ne_zero n)) (blk1 V c 0 ⟨n + 1, hn⟩) (acc1 c n (Nat.lt_of_succ_lt hn)).1 (acc1 c n (Nat.lt_of_succ_lt hn)).2)

/-- The totals at the first point. -/
theorem acc1_first (c : Dev nD) (t : Fin cfg1.N) (h0 : t.val = 0) :
    acc1 V c t.val t.isLt =
      (sum_first c (grid1.coords t) (ms1_0 t) (hs1_0 t) (ms1_1 t) (hs1_1 t) (ms1_2 t) (hs1_2 t) ((first1_iff t).mpr (by rw [h0])) (blk1 V c 0 t),
       sq_first c (grid1.coords t) (ms1_0 t) (hs1_0 t) (ms1_1 t) (hs1_1 t) (ms1_2 t) (hs1_2 t) ((first1_iff t).mpr (by rw [h0])) (blk1 V c 0 t)) := by
  obtain ⟨n, hn⟩ := t
  cases n with
  | zero => exact rfl
  | succ n => exact absurd h0 (Nat.succ_ne_zero n)

/-- The totals at a later point, over those of the point before. -/
theorem acc1_later (c : Dev nD) (t : Fin cfg1.N) (h0 : t.val ≠ 0) :
    acc1 V c t.val t.isLt =
      (sum_later c (grid1.coords t) (ms1_0 t) (hs1_0 t) (ms1_1 t) (hs1_1 t) (ms1_2 t) (hs1_2 t) (later1 t h0) (blk1 V c 0 t)
          (acc1 V c (t.val - 1) (Nat.lt_of_le_of_lt (Nat.sub_le _ _) t.isLt)).1 (acc1 V c (t.val - 1) (Nat.lt_of_le_of_lt (Nat.sub_le _ _) t.isLt)).2,
       sq_later c (grid1.coords t) (ms1_0 t) (hs1_0 t) (ms1_1 t) (hs1_1 t) (ms1_2 t) (hs1_2 t) (later1 t h0) (blk1 V c 0 t)
          (acc1 V c (t.val - 1) (Nat.lt_of_le_of_lt (Nat.sub_le _ _) t.isLt)).1 (acc1 V c (t.val - 1) (Nat.lt_of_le_of_lt (Nat.sub_le _ _) t.isLt)).2) := by
  obtain ⟨n, hn⟩ := t
  cases n with
  | zero => exact absurd rfl h0
  | succ n => exact rfl

/-- The region's proof data on core `c`: the arrays as the region finds them; after the body the rows buffer
    holds its block and the two accumulators the running totals; the invariant is the scoped rest and the
    generator register, untouched; nothing is owed. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => (acc1 V c t.val t.isLt).1
    | ⟨2, _⟩ => (acc1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]
theorem before1_0 (c : Dev nD) (t : Fin cfg1.N) (d) : (dat1 V c).before 0 t d = blk1 V c 0 t :=
  before1_0_of V (dat1 V c) (A_eq1 V c 0) (after1_0 V c) t d

/-- At a later point each accumulator's buffer holds what the body left at the point before: it is written
    back after the last point only, and its one block never moves. -/
theorem before1_1_later (c : Dev nD) (t : Fin cfg1.N) (h0 : t.val ≠ 0) (d) :
    (dat1 V c).before 1 t d = (acc1 V c (t.val - 1) (Nat.lt_of_le_of_lt (Nat.sub_le _ _) t.isLt)).1 := by
  have hN := lt_ten1 t
  rw [Dat.before_out_kept _ 1 rfl t h0 (Bool.eq_false_iff.mpr fun h => by have := (flush1_1 _).mp h; dsimp only at this; omega)
    (fun _ => rfl) (fun _ _ => rfl)]
  dsimp only [dat1]
theorem before1_2_later (c : Dev nD) (t : Fin cfg1.N) (h0 : t.val ≠ 0) (d) :
    (dat1 V c).before 2 t d = (acc1 V c (t.val - 1) (Nat.lt_of_le_of_lt (Nat.sub_le _ _) t.isLt)).2 := by
  have hN := lt_ten1 t
  rw [Dat.before_out_kept _ 2 rfl t h0 (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [acc1_first V c t h0]
    dsimp only
    unfold sum_first sq_first
    iintro ⟨HΦ, Ho, ⟨%d0, H0⟩, ⟨%d1, H1⟩, ⟨%d2, H2⟩⟩
    iapply ((run1_first c (grid1.coords t) _ _ _ _ _ _ ((first1_iff t).mpr (by rw [h0])) (blk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_first_s c _ _ _ _ _ _ _ _ _)
    · unfold owns; iexists _; isplitr
      swap; · iexact H2
      ipureintro; exact View.read_writes_of_cover _ _ _ _ _ (cover1_first_q c _ _ _ _ _ _ _ _ _)
  · rw [acc1_later V c t h0]
    dsimp only
    simp only [before1_1_later V c t h0, before1_2_later V c t h0]
    unfold sum_later sq_later
    iintro ⟨HΦ, Ho, ⟨%d0, H0⟩, ⟨%d1, H1⟩, ⟨%d2, H2⟩⟩
    iapply ((run1_later c (grid1.coords t) _ _ _ _ _ _ (later1 t h0) (blk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_later_s c _ _ _ _ _ _ _ _ _ _ _)
    · unfold owns; iexists _; isplitr
      swap; · iexact H2
      ipureintro; exact View.read_writes_of_cover _ _ _ _ _ (cover1_later_q c _ _ _ _ _ _ _ _ _ _ _)

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BRegion2.lean ====
/-
  The third kernel region: normalise and squash, ten row blocks of 5000. At each grid point the body
  reads the point's 5000 rows of the aggregated features and four resident rows [1,128] (the column
  means, the reciprocal standard deviations, the scale and the shift), and overwrites the point's
  5000 rows of the result with tanh(((x - mean) * inv) * gamma + beta), each row vector broadcast
  along the rows. Stated at a PARAMETER `V`: the buffer contents when the region is entered.
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Block `t` of window `w`'s array, as the region finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block whenever the body runs (the rows are fetched at every
    point; a resident row is fetched once and its block index never moves). -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

abbrev rRows2 : Rect S5000x128 := Rect.unit (s := S5000x128) ![0, 0] S5000x128.size inb_S5000x128_S5000x128_0_0
abbrev rRow2 : Rect S1x128 := Rect.unit (s := S1x128) ![0, 0] S1x128.size inb_S1x128_S1x128_0_0

/-- What the body leaves in the result window's buffer. -/
def norm2 (x : Vec F S5000x128 .f32) (mu inv ga be : Vec F S1x128 .f32) : Vec F S5000x128 .f32 :=
  View.canon [⟨rRows2, k2_pay1 (View.ld x rRows2) (View.ld mu rRow2) (View.ld inv rRow2) (View.ld ga rRow2) (View.ld be rRow2)⟩]

theorem cover2 (p : Vec F S5000x128 .f32) (y : S5000x128.Idx) :
    ∃ pc ∈ ([⟨rRows2, p⟩] : List (View.Piece (Elt F) S5000x128 .f32)), y ∈ pc.1.set :=
  View.cover_of_tiled [⟨rRows2, p⟩] S5000x128.size (by rfl) y

set_option maxHeartbeats 1000000 in
/-- The body on whole staging buffers: the five inputs come back as they were and the result buffer holds `norm2` of them. -/
theorem sound_kernel2 (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S5000x128 .f32) (h6 : a6.IsWhole)
    (x : Vec F S5000x128 .f32) (mu inv ga be : Vec F S1x128 .f32) (K : PUnit → sProp 𝕄) :
    iprop(owns (c : Thread nD τ) a1 fullShare x ∗ owns (c : Thread nD τ) a2 fullShare mu ∗ owns (c : Thread nD τ) a3 fullShare inv
        ∗ owns (c : Thread nD τ) a4 fullShare ga ∗ owns (c : Thread nD τ) a5 fullShare be ∗ (∃ d, owns (c : Thread nD τ) a6 fullShare d)
        ∗ (iprop(owns (c : Thread nD τ) a1 fullShare x ∗ owns (c : Thread nD τ) a2 fullShare mu ∗ owns (c : Thread nD τ) a3 fullShare inv
            ∗ owns (c : Thread nD τ) a4 fullShare ga ∗ owns (c : Thread nD τ) a5 fullShare be
            ∗ owns (c : Thread nD τ) a6 fullShare (norm2 x mu inv ga be)) -∗ K ⟨⟩))
      ⊢ wp frame (wpE (defs₀ (F := F)) Variants.none c none) E (cc2__normalize_kernel i a1 h1 a2 h2 a3 h3 a4 h4 a5 h5 a6 h6) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The region's proof data on core `c`. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => norm2 (blk2 V c 0 t) (blk2 V c 1 t) (blk2 V c 2 t) (blk2 V c 3 t) (blk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = norm2 (blk2 V c 0 t) (blk2 V c 1 t) (blk2 V c 2 t) (blk2 V c 3 t) (blk2 V c 4 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.BRun.lean ====
/-
  The kernel program's run, whole: @main is three stretches of host operations, each followed by a
  kernel region. The buffer contents at the seven boundaries are a fold from the launch memory — a
  host stretch applies its operations, a region replaces its windows' arrays by what its write-backs
  leave — and the library's launch theorem for a list of segments runs them in order. At the end every
  unscoped buffer of each core holds the last boundary's contents.
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import proofs.«125587_j10548439679296_1_alg».proof.Proof.BRegion0
import proofs.«125587_j10548439679296_1_alg».proof.Proof.BRegion1
import proofs.«125587_j10548439679296_1_alg».proof.Proof.BRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After host stretch 0: its operations applied, in order, to the contents `W0`. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b

/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: its operations applied, in order, to the contents `W2`. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b

/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: its operations applied, in order, to the contents `W4`. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b

/-- After region 2: its windows' arrays at what the write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at the contents `W1`, left at `W2`. Its windows'
    arrays are split out of the unscoped buffers on entry and put back, at what the write-backs leave, on exit; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents `W3`, left at `W4`. Its windows'
    arrays are split out of the unscoped buffers on entry and put back, at what the write-backs leave, on exit; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents `W5`, left at `W6`. Its windows'
    arrays are split out of the unscoped buffers on entry and put back, at what the write-backs leave, on exit; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of the six segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and in every final state each unscoped buffer of each core holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.BFrame.lean ====
/-
  The frame of the kernel program: no host operation writes an argument array and no region writes one
  back (the input array is a region's INPUT window: its array is never written), so at the last
  boundary every argument holds its launch contents.
-/
import proofs.«125587_j10548439679296_1_alg».proof.Proof.Gen.Kernel.Launch
import proofs.«125587_j10548439679296_1_alg».proof.Proof.Gen.Kernel.Skeleton
import proofs.«125587_j10548439679296_1_alg».proof.Proof.Gen.Kernel.Points
import proofs.«125587_j10548439679296_1_alg».proof.Proof.BRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## No host stretch writes an argument -/
theorem W1_main_arg0 (c : Dev nD) : W1 m ρ c (Proc.devRef .tc main_arg0) = W0 m ρ c (Proc.devRef .tc main_arg0) := by
  unfold W1
  exact StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg0 (c : Dev nD) : W3 m ρ c (Proc.devRef .tc main_arg0) = W2 m ρ c (Proc.devRef .tc main_arg0) := by
  unfold W3
  exact StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg0 (c : Dev nD) : W5 m ρ c (Proc.devRef .tc main_arg0) = W4 m ρ c (Proc.devRef .tc main_arg0) := by
  unfold W5
  exact StableHlo.after_of_forall_not_mem (b := Proc.devRef .tc main_arg0) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg1 (c : Dev nD) : W1 m ρ c (Proc.devRef .tc main_arg1) = W0 m ρ c (Proc.devRef .tc main_arg1) := by
  unfold W1
  exact StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg1 (c : Dev nD) : W3 m ρ c (Proc.devRef .tc main_arg1) = W2 m ρ c (Proc.devRef .tc main_arg1) := by
  unfold W3
  exact StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg1 (c : Dev nD) : W5 m ρ c (Proc.devRef .tc main_arg1) = W4 m ρ c (Proc.devRef .tc main_arg1) := by
  unfold W5
  exact StableHlo.after_of_forall_not_mem (b := Proc.devRef .tc main_arg1) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg2 (c : Dev nD) : W1 m ρ c (Proc.devRef .tc main_arg2) = W0 m ρ c (Proc.devRef .tc main_arg2) := by
  unfold W1
  exact StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg2 (c : Dev nD) : W3 m ρ c (Proc.devRef .tc main_arg2) = W2 m ρ c (Proc.devRef .tc main_arg2) := by
  unfold W3
  exact StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg2 (c : Dev nD) : W5 m ρ c (Proc.devRef .tc main_arg2) = W4 m ρ c (Proc.devRef .tc main_arg2) := by
  unfold W5
  exact StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg3 (c : Dev nD) : W1 m ρ c (Proc.devRef .tc main_arg3) = W0 m ρ c (Proc.devRef .tc main_arg3) := by
  unfold W1
  exact StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg3 (c : Dev nD) : W3 m ρ c (Proc.devRef .tc main_arg3) = W2 m ρ c (Proc.devRef .tc main_arg3) := by
  unfold W3
  exact StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg3 (c : Dev nD) : W5 m ρ c (Proc.devRef .tc main_arg3) = W4 m ρ c (Proc.devRef .tc main_arg3) := by
  unfold W5
  exact StableHlo.after_of_forall_not_mem (b := Proc.devRef .tc main_arg3) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg4 (c : Dev nD) : W1 m ρ c (Proc.devRef .tc main_arg4) = W0 m ρ c (Proc.devRef .tc main_arg4) := by
  unfold W1
  exact StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg4 (c : Dev nD) : W3 m ρ c (Proc.devRef .tc main_arg4) = W2 m ρ c (Proc.devRef .tc main_arg4) := by
  unfold W3
  exact StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg4 (c : Dev nD) : W5 m ρ c (Proc.devRef .tc main_arg4) = W4 m ρ c (Proc.devRef .tc main_arg4) := by
  unfold W5
  exact StableHlo.after_of_forall_not_mem (b := Proc.devRef .tc main_arg4) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg5 (c : Dev nD) : W1 m ρ c (Proc.devRef .tc main_arg5) = W0 m ρ c (Proc.devRef .tc main_arg5) := by
  unfold W1
  exact StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg5 (c : Dev nD) : W3 m ρ c (Proc.devRef .tc main_arg5) = W2 m ρ c (Proc.devRef .tc main_arg5) := by
  unfold W3
  exact StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg5 (c : Dev nD) : W5 m ρ c (Proc.devRef .tc main_arg5) = W4 m ρ c (Proc.devRef .tc main_arg5) := by
  unfold W5
  exact StableHlo.after_of_forall_not_mem (b := Proc.devRef .tc main_arg5) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg6 (c : Dev nD) : W1 m ρ c (Proc.devRef .tc main_arg6) = W0 m ρ c (Proc.devRef .tc main_arg6) := by
  unfold W1
  exact StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg6 (c : Dev nD) : W3 m ρ c (Proc.devRef .tc main_arg6) = W2 m ρ c (Proc.devRef .tc main_arg6) := by
  unfold W3
  exact StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg6 (c : Dev nD) : W5 m ρ c (Proc.devRef .tc main_arg6) = W4 m ρ c (Proc.devRef .tc main_arg6) := by
  unfold W5
  exact StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))

/-! ## The arguments at the last boundary -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_main_arg0 m ρ c
    _ = W3 m ρ c (Proc.devRef .tc main_arg0) := W4_of_ne m ρ c main_arg0 (by decide)
    _ = W2 m ρ c (Proc.devRef .tc main_arg0) := W3_main_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_main_arg1 m ρ c
    _ = W3 m ρ c (Proc.devRef .tc main_arg1) := W4_of_ne m ρ c main_arg1 (by decide)
    _ = W2 m ρ c (Proc.devRef .tc main_arg1) := W3_main_arg1 m ρ c
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_main_arg2 m ρ c
    _ = W3 m ρ c (Proc.devRef .tc main_arg2) := W4_of_ne m ρ c main_arg2 (by decide)
    _ = W2 m ρ c (Proc.devRef .tc main_arg2) := W3_main_arg2 m ρ c
    _ = W1 m ρ c (Proc.devRef .tc main_arg2) := W2_of_ne m ρ c main_arg2 (by decide)
    _ = W0 m ρ c (Proc.devRef .tc main_arg2) := W1_main_arg2 m ρ c
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_main_arg3 m ρ c
    _ = W3 m ρ c (Proc.devRef .tc main_arg3) := W4_of_ne m ρ c main_arg3 (by decide)
    _ = W2 m ρ c (Proc.devRef .tc main_arg3) := W3_main_arg3 m ρ c
    _ = W1 m ρ c (Proc.devRef .tc main_arg3) := W2_of_ne m ρ c main_arg3 (by decide)
    _ = W0 m ρ c (Proc.devRef .tc main_arg3) := W1_main_arg3 m ρ c
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_main_arg4 m ρ c
    _ = W3 m ρ c (Proc.devRef .tc main_arg4) := W4_of_ne m ρ c main_arg4 (by decide)
    _ = W2 m ρ c (Proc.devRef .tc main_arg4) := W3_main_arg4 m ρ c
    _ = W1 m ρ c (Proc.devRef .tc main_arg4) := W2_of_ne m ρ c main_arg4 (by decide)
    _ = W0 m ρ c (Proc.devRef .tc main_arg4) := W1_main_arg4 m ρ c
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_main_arg5 m ρ c
    _ = W3 m ρ c (Proc.devRef .tc main_arg5) := W4_of_ne m ρ c main_arg5 (by decide)
    _ = W2 m ρ c (Proc.devRef .tc main_arg5) := W3_main_arg5 m ρ c
    _ = W1 m ρ c (Proc.devRef .tc main_arg5) := W2_of_ne m ρ c main_arg5 (by decide)
    _ = W0 m ρ c (Proc.devRef .tc main_arg5) := W1_main_arg5 m ρ c
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_main_arg6 m ρ c
    _ = W3 m ρ c (Proc.devRef .tc main_arg6) := W4_of_ne m ρ c main_arg6 (by decide)
    _ = W2 m ρ c (Proc.devRef .tc main_arg6) := W3_main_arg6 m ρ c
    _ = W1 m ρ c (Proc.devRef .tc main_arg6) := W2_of_ne m ρ c main_arg6 (by decide)
    _ = W0 m ρ c (Proc.devRef .tc main_arg6) := W1_main_arg6 m ρ c
    _ = m ((c : Thread nD τ).loc main_arg6) := rfl

/-- THE FRAME at any float instance: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩)
    (run_all m ρ)

end Cert.Kernel.Hand

end
-- ==== Proof.KRegion0.lean ====
/-
  The first kernel region: the dense product support = input · hamilton, ten row blocks of 5000.
  At each grid point the body reads the point's 5000 rows of the input and the whole 128 by 128
  matrix, and overwrites the point's 5000 rows of the result with their product (accumulated from
  zero). Stated at a PARAMETER `V`: the TensorCore's buffer contents when the region is entered.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Block `t` of window `w`'s array, as the region finds the array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows window: its staging buffer holds the point's rows whenever the body runs. -/
theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The matrix window (one block, fetched once): its staging buffer holds the matrix at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole-block rectangles the body loads and stores through. -/
abbrev rRows : Rect S5000x128 := Rect.unit (s := S5000x128) ![0, 0] S5000x128.size inb_S5000x128_S5000x128_0_0
abbrev rMat : Rect S128x128 := Rect.unit (s := S128x128) ![0, 0] S128x128.size inb_S128x128_S128x128_0_0

/-- What the body leaves in the result window's buffer: the product of the rows it loaded with the matrix it loaded. -/
def prod0 (x : Vec F S5000x128 .f32) (w : Vec F S128x128 .f32) : Vec F S5000x128 .f32 :=
  View.canon [⟨rRows, k0_pay1 (View.ld x rRows) (View.ld w rMat)⟩]

/-- The one store covers the buffer. -/
theorem cover0 (p : Vec F S5000x128 .f32) (y : S5000x128.Idx) :
    ∃ pc ∈ ([⟨rRows, p⟩] : List (View.Piece (Elt F) S5000x128 .f32)), y ∈ pc.1.set :=
  View.cover_of_tiled [⟨rRows, p⟩] S5000x128.size (by rfl) y

set_option maxHeartbeats 1000000 in
/-- The body on whole staging buffers: the two inputs come back as they were and the result buffer holds the product. -/
theorem sound_kernel0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The region's proof data on core `c`: the arrays as the region finds them; after the body the two input
    buffers hold their blocks and the result buffer the product; the invariant is the scoped rest and the
    generator register, untouched; nothing is owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KRegion1Run.lean ====
/-
  The second kernel region: per-column sums and sums of squares, accumulated over ten row blocks of
  5000. Both results are rows [1,128] whose one block is written back only after the last point, so
  their staging buffers carry the running totals from point to point: at the first point the body
  first overwrites both with zeros; at every point it adds the block's column sums to the first and
  the block's column sums of squares to the second. Stated at a PARAMETER `V`: the buffer contents
  when the region is entered.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Block `t` of window `w`'s array, as the region finds the array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows window: its staging buffer holds the point's rows whenever the body runs. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The body's branch: "this is the first grid point", as the printed scalar chain over the coordinate. -/
abbrev first1 (i : grid1.Coords) : Prop := (Scalar.cmpi .ne (Scalar.extui (Scalar.cmpi .eq (BitVec.ofNat 32 (i 0).val) 0#32)) 0#32) = 1#1
/-- It holds at point 0 only (decided over the ten points). -/
theorem first1_iff : ∀ t : Fin cfg1.N, first1 (grid1.coords t) ↔ t.val % 10 = 0 :=
  (by decide +kernel : ∀ t : Fin grid1.N, first1 (grid1.coords t) ↔ t.val % 10 = 0)

/-- One staging buffer of each accumulator, through which its contents are stated. -/
abbrev VS1 : View sig .tc .vmem S1x128 .f32 := (Memref.whole cc1_stg1_0 : Memref sig .tc .vmem S1x128 .f32).view
abbrev VS2 : View sig .tc .vmem S1x128 .f32 := (Memref.whole cc1_stg2_0 : Memref sig .tc .vmem S1x128 .f32).view

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

set_option maxHeartbeats 1000000 in
/-- THE FIRST POINT. From the rows buffer at `x` and the two accumulators at anything, the body runs to its
    return with the rows as they were and each accumulator written with the stores the run meets (the zero
    store, then the sum added to what is read back): the pieces, last first, are found by running the body. -/
noncomputable def run1_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i)
    (x : Vec F S5000x128 .f32) :
    Σ' (L1 : List (View.Piece (Elt F) S1x128 .f32)) (L2 : List (View.Piece (Elt F) S1x128 .f32)),
      ∀ (E : Set ℕ) (K : PUnit → sProp 𝕄),
        iprop(owns (c : Thread nD τ) a1 fullShare x ∗ (∃ d, owns (c : Thread nD τ) a2 fullShare d) ∗ (∃ d, owns (c : Thread nD τ) a3 fullShare d)
            ∗ (iprop(owns (c : Thread nD τ) a1 fullShare x
                ∗ (∃ f, a2.view.loc (c : Thread nD τ) ↦[a2.view.set]{fullShare} a2.view.writes (Elt F) f L1)
                ∗ (∃ f, a3.view.loc (c : Thread nD τ) ↦[a3.view.set]{fullShare} a3.view.writes (Elt F) f L2)) -∗ K ⟨⟩))
          ⊢ wp frame (wpE (defs₀ (F := F)) Variants.none c none) E (cc1__reduce_kernel i a1 h1 a2 h2 a3 h3) K := by
  refine ⟨?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%d2, %f2, -, H2⟩, Hk⟩
    obtain rfl := h1.eq_unread hf0
    sl_exec (disch := first | exact hc)
    sl_step
    iapply Hk
    isplitl [H0]
    · iexists _; isplitr; · ipureintro; exact h1.read_unread _
      iexact H0
    isplitl [H1]
    · iexists _; iexact H1
    iexists _; iexact H2

set_option maxHeartbeats 1000000 in
/-- A LATER POINT. From the rows buffer at `x` and the accumulators at their running contents `s`, `q`, the
    body runs to its return with the rows as they were and each accumulator written with the one store the run
    meets (the block's sum added to what is read). -/
noncomputable def run1_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i)
    (x : Vec F S5000x128 .f32) (s q : Vec F S1x128 .f32) :
    Σ' (L1 : List (View.Piece (Elt F) S1x128 .f32)) (L2 : List (View.Piece (Elt F) S1x128 .f32)),
      ∀ (E : Set ℕ) (K : PUnit → sProp 𝕄),
        iprop(owns (c : Thread nD τ) a1 fullShare x ∗ owns (c : Thread nD τ) a2 fullShare s ∗ owns (c : Thread nD τ) a3 fullShare q
            ∗ (iprop(owns (c : Thread nD τ) a1 fullShare x
                ∗ (∃ f, a2.view.loc (c : Thread nD τ) ↦[a2.view.set]{fullShare} a2.view.writes (Elt F) f L1)
                ∗ (∃ f, a3.view.loc (c : Thread nD τ) ↦[a3.view.set]{fullShare} a3.view.writes (Elt F) f L2)) -∗ K ⟨⟩))
          ⊢ wp frame (wpE (defs₀ (F := F)) Variants.none c none) E (cc1__reduce_kernel i a1 h1 a2 h2 a3 h3) K := by
  refine ⟨?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, Hk⟩
    obtain rfl := h1.eq_unread hf0; obtain rfl := h2.eq_unread hf1; obtain rfl := h3.eq_unread hf2
    sl_exec (disch := first | exact hc)
    sl_step
    iapply Hk
    isplitl [H0]
    · iexists _; isplitr; · ipureintro; exact h1.read_unread _
      iexact H0
    isplitl [H1]
    · iexists _; iexact H1
    iexists _; iexact H2

end Region1

end Cert.KernelIdeal.Hand

end
-- ==== Proof.KRegion1.lean ====
/-
  The second kernel region, continued: what the two accumulators hold after each grid point (the
  running column sums and sums of squares), the region's proof data, and its body obligation — at
  the first point the run that zeroes and adds, at a later point the run that adds to what the
  point before left (the accumulators are not written back in between).
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import proofs.«125587_j10548439679296_1_alg».proof.Proof.KRegion1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- The stores each run meets tile the accumulator's one block, so they cover it. -/
theorem cover1_first_s (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) (y : S1x128.Idx) :
    ∃ pc ∈ (run1_first c i a1 h1 a2 h2 a3 h3 hc x).1, y ∈ pc.1.set :=
  View.cover_of_tiledL (run1_first c i a1 h1 a2 h2 a3 h3 hc x).1 S1x128.size (by sl_kernel_rfl) y
theorem cover1_first_q (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) (y : S1x128.Idx) :
    ∃ pc ∈ (run1_first c i a1 h1 a2 h2 a3 h3 hc x).2.1, y ∈ pc.1.set :=
  View.cover_of_tiledL (run1_first c i a1 h1 a2 h2 a3 h3 hc x).2.1 S1x128.size (by sl_kernel_rfl) y
theorem cover1_later_s (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) (y : S1x128.Idx) :
    ∃ pc ∈ (run1_later c i a1 h1 a2 h2 a3 h3 hc x s q).1, y ∈ pc.1.set :=
  View.cover_of_tiledL (run1_later c i a1 h1 a2 h2 a3 h3 hc x s q).1 S1x128.size (by sl_kernel_rfl) y
theorem cover1_later_q (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) (y : S1x128.Idx) :
    ∃ pc ∈ (run1_later c i a1 h1 a2 h2 a3 h3 hc x s q).2.1, y ∈ pc.1.set :=
  View.cover_of_tiledL (run1_later c i a1 h1 a2 h2 a3 h3 hc x s q).2.1 S1x128.size (by sl_kernel_rfl) y

/-- What each run leaves in each accumulator: its stores read back. -/
def sum_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) : Vec F S1x128 .f32 :=
  VS1.read (Elt F) (VS1.writes (Elt F) VS1.junk (run1_first c i a1 h1 a2 h2 a3 h3 hc x).1)
def sq_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : first1 i) (x : Vec F S5000x128 .f32) : Vec F S1x128 .f32 :=
  VS2.read (Elt F) (VS2.writes (Elt F) VS2.junk (run1_first c i a1 h1 a2 h2 a3 h3 hc x).2.1)
def sum_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) : Vec F S1x128 .f32 :=
  VS1.read (Elt F) (VS1.writes (Elt F) VS1.junk (run1_later c i a1 h1 a2 h2 a3 h3 hc x s q).1)
def sq_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole) (hc : ¬first1 i) (x : Vec F S5000x128 .f32) (s q : Vec F S1x128 .f32) : Vec F S1x128 .f32 :=
  VS2.read (Elt F) (VS2.writes (Elt F) VS2.junk (run1_later c i a1 h1 a2 h2 a3 h3 hc x s q).2.1)

/-- There are ten points, -/
theorem lt_ten1 (t : Fin cfg1.N) : t.val < 10 := lt_of_lt_of_eq t.isLt (show cfg1.N = 10 from N_1)
/-- and only point 0 is the first. -/
theorem later1 (t : Fin cfg1.N) (ht : t.val ≠ 0) : ¬first1 (grid1.coords t) := fun h => by
  have := (first1_iff t).mp h; have := lt_ten1 t; omega

/-- THE RUNNING TOTALS: the pair (column sums, column sums of squares) the accumulators hold after the body at
    position `n`: at 0 what the first run leaves, afterwards what a later run leaves over the pair of `n - 1`. -/
def acc1 (c : Dev nD) : (n : ℕ) → n < cfg1.N → Vec F S1x128 .f32 × Vec F S1x128 .f32
  | 0, hn =>
    (sum_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        ((first1_iff ⟨0, hn⟩).mpr (Nat.zero_mod _)) (blk1 V c 0 ⟨0, hn⟩),
     sq_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        ((first1_iff ⟨0, hn⟩).mpr (Nat.zero_mod _)) (blk1 V c 0 ⟨0, hn⟩))
  | n + 1, hn =>
    (sum_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (later1 ⟨n + 1, hn⟩ (Nat.succ_ne_zero n)) (blk1 V c 0 ⟨n + 1, hn⟩) (acc1 c n (Nat.lt_of_succ_lt hn)).1 (acc1 c n (Nat.lt_of_succ_lt hn)).2,
     sq_later c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (later1 ⟨n + 1, hn⟩ (Nat.succ_ne_zero n)) (blk1 V c 0 ⟨n + 1, hn⟩) (acc1 c n (Nat.lt_of_succ_lt hn)).1 (acc1 c n (Nat.lt_of_succ_lt hn)).2)

/-- The totals at the first point. -/
theorem acc1_first (c : Dev nD) (t : Fin cfg1.N) (h0 : t.val = 0) :
    acc1 V c t.val t.isLt =
      (sum_first c (grid1.coords t) (ms1_0 t) (hs1_0 t) (ms1_1 t) (hs1_1 t) (ms1_2 t) (hs1_2 t) ((first1_iff t).mpr (by rw [h0])) (blk1 V c 0 t),
       sq_first c (grid1.coords t) (ms1_0 t) (hs1_0 t) (ms1_1 t) (hs1_1 t) (ms1_2 t) (hs1_2 t) ((first1_iff t).mpr (by rw [h0])) (blk1 V c 0 t)) := by
  obtain ⟨n, hn⟩ := t
  cases n with
  | zero => exact rfl
  | succ n => exact absurd h0 (Nat.succ_ne_zero n)

/-- The totals at a later point, over those of the point before. -/
theorem acc1_later (c : Dev nD) (t : Fin cfg1.N) (h0 : t.val ≠ 0) :
    acc1 V c t.val t.isLt =
      (sum_later c (grid1.coords t) (ms1_0 t) (hs1_0 t) (ms1_1 t) (hs1_1 t) (ms1_2 t) (hs1_2 t) (later1 t h0) (blk1 V c 0 t)
          (acc1 V c (t.val - 1) (Nat.lt_of_le_of_lt (Nat.sub_le _ _) t.isLt)).1 (acc1 V c (t.val - 1) (Nat.lt_of_le_of_lt (Nat.sub_le _ _) t.isLt)).2,
       sq_later c (grid1.coords t) (ms1_0 t) (hs1_0 t) (ms1_1 t) (hs1_1 t) (ms1_2 t) (hs1_2 t) (later1 t h0) (blk1 V c 0 t)
          (acc1 V c (t.val - 1) (Nat.lt_of_le_of_lt (Nat.sub_le _ _) t.isLt)).1 (acc1 V c (t.val - 1) (Nat.lt_of_le_of_lt (Nat.sub_le _ _) t.isLt)).2) := by
  obtain ⟨n, hn⟩ := t
  cases n with
  | zero => exact absurd rfl h0
  | succ n => exact rfl

/-- The region's proof data on core `c`: the arrays as the region finds them; after the body the rows buffer
    holds its block and the two accumulators the running totals; the invariant is the scoped rest and the
    generator register, untouched; nothing is owed. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => (acc1 V c t.val t.isLt).1
    | ⟨2, _⟩ => (acc1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2 := by dsimp only [dat1]
theorem before1_0 (c : Dev nD) (t : Fin cfg1.N) (d) : (dat1 V c).before 0 t d = blk1 V c 0 t :=
  before1_0_of V (dat1 V c) (A_eq1 V c 0) (after1_0 V c) t d

/-- At a later point each accumulator's buffer holds what the body left at the point before: it is written
    back after the last point only, and its one block never moves. -/
theorem before1_1_later (c : Dev nD) (t : Fin cfg1.N) (h0 : t.val ≠ 0) (d) :
    (dat1 V c).before 1 t d = (acc1 V c (t.val - 1) (Nat.lt_of_le_of_lt (Nat.sub_le _ _) t.isLt)).1 := by
  have hN := lt_ten1 t
  rw [Dat.before_out_kept _ 1 rfl t h0 (Bool.eq_false_iff.mpr fun h => by have := (flush1_1 _).mp h; dsimp only at this; omega)
    (fun _ => rfl) (fun _ _ => rfl)]
  dsimp only [dat1]
theorem before1_2_later (c : Dev nD) (t : Fin cfg1.N) (h0 : t.val ≠ 0) (d) :
    (dat1 V c).before 2 t d = (acc1 V c (t.val - 1) (Nat.lt_of_le_of_lt (Nat.sub_le _ _) t.isLt)).2 := by
  have hN := lt_ten1 t
  rw [Dat.before_out_kept _ 2 rfl t h0 (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [acc1_first V c t h0]
    dsimp only
    unfold sum_first sq_first
    iintro ⟨HΦ, Ho, ⟨%d0, H0⟩, ⟨%d1, H1⟩, ⟨%d2, H2⟩⟩
    iapply ((run1_first c (grid1.coords t) _ _ _ _ _ _ ((first1_iff t).mpr (by rw [h0])) (blk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_first_s c _ _ _ _ _ _ _ _ _)
    · unfold owns; iexists _; isplitr
      swap; · iexact H2
      ipureintro; exact View.read_writes_of_cover _ _ _ _ _ (cover1_first_q c _ _ _ _ _ _ _ _ _)
  · rw [acc1_later V c t h0]
    dsimp only
    simp only [before1_1_later V c t h0, before1_2_later V c t h0]
    unfold sum_later sq_later
    iintro ⟨HΦ, Ho, ⟨%d0, H0⟩, ⟨%d1, H1⟩, ⟨%d2, H2⟩⟩
    iapply ((run1_later c (grid1.coords t) _ _ _ _ _ _ (later1 t h0) (blk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_later_s c _ _ _ _ _ _ _ _ _ _ _)
    · unfold owns; iexists _; isplitr
      swap; · iexact H2
      ipureintro; exact View.read_writes_of_cover _ _ _ _ _ (cover1_later_q c _ _ _ _ _ _ _ _ _ _ _)

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRegion2.lean ====
/-
  The third kernel region: normalise and squash, ten row blocks of 5000. At each grid point the body
  reads the point's 5000 rows of the aggregated features and four resident rows [1,128] (the column
  means, the reciprocal standard deviations, the scale and the shift), and overwrites the point's
  5000 rows of the result with tanh(((x - mean) * inv) * gamma + beta), each row vector broadcast
  along the rows. Stated at a PARAMETER `V`: the buffer contents when the region is entered.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Block `t` of window `w`'s array, as the region finds the array. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block whenever the body runs (the rows are fetched at every
    point; a resident row is fetched once and its block index never moves). -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

abbrev rRows2 : Rect S5000x128 := Rect.unit (s := S5000x128) ![0, 0] S5000x128.size inb_S5000x128_S5000x128_0_0
abbrev rRow2 : Rect S1x128 := Rect.unit (s := S1x128) ![0, 0] S1x128.size inb_S1x128_S1x128_0_0

/-- What the body leaves in the result window's buffer. -/
def norm2 (x : Vec F S5000x128 .f32) (mu inv ga be : Vec F S1x128 .f32) : Vec F S5000x128 .f32 :=
  View.canon [⟨rRows2, k2_pay1 (View.ld x rRows2) (View.ld mu rRow2) (View.ld inv rRow2) (View.ld ga rRow2) (View.ld be rRow2)⟩]

theorem cover2 (p : Vec F S5000x128 .f32) (y : S5000x128.Idx) :
    ∃ pc ∈ ([⟨rRows2, p⟩] : List (View.Piece (Elt F) S5000x128 .f32)), y ∈ pc.1.set :=
  View.cover_of_tiled [⟨rRows2, p⟩] S5000x128.size (by rfl) y

set_option maxHeartbeats 1000000 in
/-- The body on whole staging buffers: the five inputs come back as they were and the result buffer holds `norm2` of them. -/
theorem sound_kernel2 (c : Dev nD) (E : Set ℕ) (i : grid2.Coords)
    (a1 : Memref sig .tc .vmem S5000x128 .f32) (h1 : a1.IsWhole) (a2 : Memref sig .tc .vmem S1x128 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S5000x128 .f32) (h6 : a6.IsWhole)
    (x : Vec F S5000x128 .f32) (mu inv ga be : Vec F S1x128 .f32) (K : PUnit → sProp 𝕄) :
    iprop(owns (c : Thread nD τ) a1 fullShare x ∗ owns (c : Thread nD τ) a2 fullShare mu ∗ owns (c : Thread nD τ) a3 fullShare inv
        ∗ owns (c : Thread nD τ) a4 fullShare ga ∗ owns (c : Thread nD τ) a5 fullShare be ∗ (∃ d, owns (c : Thread nD τ) a6 fullShare d)
        ∗ (iprop(owns (c : Thread nD τ) a1 fullShare x ∗ owns (c : Thread nD τ) a2 fullShare mu ∗ owns (c : Thread nD τ) a3 fullShare inv
            ∗ owns (c : Thread nD τ) a4 fullShare ga ∗ owns (c : Thread nD τ) a5 fullShare be
            ∗ owns (c : Thread nD τ) a6 fullShare (norm2 x mu inv ga be)) -∗ K ⟨⟩))
      ⊢ wp frame (wpE (defs₀ (F := F)) Variants.none c none) E (cc2__normalize_kernel i a1 h1 a2 h2 a3 h3 a4 h4 a5 h5 a6 h6) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The region's proof data on core `c`. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => norm2 (blk2 V c 0 t) (blk2 V c 1 t) (blk2 V c 2 t) (blk2 V c 3 t) (blk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = norm2 (blk2 V c 0 t) (blk2 V c 1 t) (blk2 V c 2 t) (blk2 V c 3 t) (blk2 V c 4 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KRun.lean ====
/-
  The kernel program's run, whole: @main is three stretches of host operations, each followed by a
  kernel region. The buffer contents at the seven boundaries are a fold from the launch memory — a
  host stretch applies its operations, a region replaces its windows' arrays by what its write-backs
  leave — and the library's launch theorem for a list of segments runs them in order. At the end every
  unscoped buffer of each core holds the last boundary's contents.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import proofs.«125587_j10548439679296_1_alg».proof.Proof.KRegion0
import proofs.«125587_j10548439679296_1_alg».proof.Proof.KRegion1
import proofs.«125587_j10548439679296_1_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After host stretch 0: its operations applied, in order, to the contents `W0`. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b

/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: its operations applied, in order, to the contents `W2`. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b

/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: its operations applied, in order, to the contents `W4`. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b

/-- After region 2: its windows' arrays at what the write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at the contents `W1`, left at `W2`. Its windows'
    arrays are split out of the unscoped buffers on entry and put back, at what the write-backs leave, on exit; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents `W3`, left at `W4`. Its windows'
    arrays are split out of the unscoped buffers on entry and put back, at what the write-backs leave, on exit; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents `W5`, left at `W6`. Its windows'
    arrays are split out of the unscoped buffers on entry and put back, at what the write-backs leave, on exit; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of the six segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of @main on the
    TensorCores terminates, nothing faulting, and in every final state each unscoped buffer of each core holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.KFrame.lean ====
/-
  The frame of the kernel program: no host operation writes an argument array and no region writes one
  back (the input array is a region's INPUT window: its array is never written), so at the last
  boundary every argument holds its launch contents.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import proofs.«125587_j10548439679296_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## No host stretch writes an argument -/
theorem W1_main_arg0 (c : Dev nD) : W1 m ρ c (Proc.devRef .tc main_arg0) = W0 m ρ c (Proc.devRef .tc main_arg0) := by
  unfold W1
  exact StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg0 (c : Dev nD) : W3 m ρ c (Proc.devRef .tc main_arg0) = W2 m ρ c (Proc.devRef .tc main_arg0) := by
  unfold W3
  exact StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg0 (c : Dev nD) : W5 m ρ c (Proc.devRef .tc main_arg0) = W4 m ρ c (Proc.devRef .tc main_arg0) := by
  unfold W5
  exact StableHlo.after_of_forall_not_mem (b := Proc.devRef .tc main_arg0) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg1 (c : Dev nD) : W1 m ρ c (Proc.devRef .tc main_arg1) = W0 m ρ c (Proc.devRef .tc main_arg1) := by
  unfold W1
  exact StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg1 (c : Dev nD) : W3 m ρ c (Proc.devRef .tc main_arg1) = W2 m ρ c (Proc.devRef .tc main_arg1) := by
  unfold W3
  exact StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg1 (c : Dev nD) : W5 m ρ c (Proc.devRef .tc main_arg1) = W4 m ρ c (Proc.devRef .tc main_arg1) := by
  unfold W5
  exact StableHlo.after_of_forall_not_mem (b := Proc.devRef .tc main_arg1) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg2 (c : Dev nD) : W1 m ρ c (Proc.devRef .tc main_arg2) = W0 m ρ c (Proc.devRef .tc main_arg2) := by
  unfold W1
  exact StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg2 (c : Dev nD) : W3 m ρ c (Proc.devRef .tc main_arg2) = W2 m ρ c (Proc.devRef .tc main_arg2) := by
  unfold W3
  exact StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg2 (c : Dev nD) : W5 m ρ c (Proc.devRef .tc main_arg2) = W4 m ρ c (Proc.devRef .tc main_arg2) := by
  unfold W5
  exact StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg3 (c : Dev nD) : W1 m ρ c (Proc.devRef .tc main_arg3) = W0 m ρ c (Proc.devRef .tc main_arg3) := by
  unfold W1
  exact StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg3 (c : Dev nD) : W3 m ρ c (Proc.devRef .tc main_arg3) = W2 m ρ c (Proc.devRef .tc main_arg3) := by
  unfold W3
  exact StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg3 (c : Dev nD) : W5 m ρ c (Proc.devRef .tc main_arg3) = W4 m ρ c (Proc.devRef .tc main_arg3) := by
  unfold W5
  exact StableHlo.after_of_forall_not_mem (b := Proc.devRef .tc main_arg3) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg4 (c : Dev nD) : W1 m ρ c (Proc.devRef .tc main_arg4) = W0 m ρ c (Proc.devRef .tc main_arg4) := by
  unfold W1
  exact StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg4 (c : Dev nD) : W3 m ρ c (Proc.devRef .tc main_arg4) = W2 m ρ c (Proc.devRef .tc main_arg4) := by
  unfold W3
  exact StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg4 (c : Dev nD) : W5 m ρ c (Proc.devRef .tc main_arg4) = W4 m ρ c (Proc.devRef .tc main_arg4) := by
  unfold W5
  exact StableHlo.after_of_forall_not_mem (b := Proc.devRef .tc main_arg4) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg5 (c : Dev nD) : W1 m ρ c (Proc.devRef .tc main_arg5) = W0 m ρ c (Proc.devRef .tc main_arg5) := by
  unfold W1
  exact StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg5 (c : Dev nD) : W3 m ρ c (Proc.devRef .tc main_arg5) = W2 m ρ c (Proc.devRef .tc main_arg5) := by
  unfold W3
  exact StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg5 (c : Dev nD) : W5 m ρ c (Proc.devRef .tc main_arg5) = W4 m ρ c (Proc.devRef .tc main_arg5) := by
  unfold W5
  exact StableHlo.after_of_forall_not_mem (b := Proc.devRef .tc main_arg5) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W1_main_arg6 (c : Dev nD) : W1 m ρ c (Proc.devRef .tc main_arg6) = W0 m ρ c (Proc.devRef .tc main_arg6) := by
  unfold W1
  exact StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W3_main_arg6 (c : Dev nD) : W3 m ρ c (Proc.devRef .tc main_arg6) = W2 m ρ c (Proc.devRef .tc main_arg6) := by
  unfold W3
  exact StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))
theorem W5_main_arg6 (c : Dev nD) : W5 m ρ c (Proc.devRef .tc main_arg6) = W4 m ρ c (Proc.devRef .tc main_arg6) := by
  unfold W5
  exact StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))

/-! ## The arguments at the last boundary -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_main_arg0 m ρ c
    _ = W3 m ρ c (Proc.devRef .tc main_arg0) := W4_of_ne m ρ c main_arg0 (by decide)
    _ = W2 m ρ c (Proc.devRef .tc main_arg0) := W3_main_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_main_arg1 m ρ c
    _ = W3 m ρ c (Proc.devRef .tc main_arg1) := W4_of_ne m ρ c main_arg1 (by decide)
    _ = W2 m ρ c (Proc.devRef .tc main_arg1) := W3_main_arg1 m ρ c
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_main_arg2 m ρ c
    _ = W3 m ρ c (Proc.devRef .tc main_arg2) := W4_of_ne m ρ c main_arg2 (by decide)
    _ = W2 m ρ c (Proc.devRef .tc main_arg2) := W3_main_arg2 m ρ c
    _ = W1 m ρ c (Proc.devRef .tc main_arg2) := W2_of_ne m ρ c main_arg2 (by decide)
    _ = W0 m ρ c (Proc.devRef .tc main_arg2) := W1_main_arg2 m ρ c
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_main_arg3 m ρ c
    _ = W3 m ρ c (Proc.devRef .tc main_arg3) := W4_of_ne m ρ c main_arg3 (by decide)
    _ = W2 m ρ c (Proc.devRef .tc main_arg3) := W3_main_arg3 m ρ c
    _ = W1 m ρ c (Proc.devRef .tc main_arg3) := W2_of_ne m ρ c main_arg3 (by decide)
    _ = W0 m ρ c (Proc.devRef .tc main_arg3) := W1_main_arg3 m ρ c
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_main_arg4 m ρ c
    _ = W3 m ρ c (Proc.devRef .tc main_arg4) := W4_of_ne m ρ c main_arg4 (by decide)
    _ = W2 m ρ c (Proc.devRef .tc main_arg4) := W3_main_arg4 m ρ c
    _ = W1 m ρ c (Proc.devRef .tc main_arg4) := W2_of_ne m ρ c main_arg4 (by decide)
    _ = W0 m ρ c (Proc.devRef .tc main_arg4) := W1_main_arg4 m ρ c
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_main_arg5 m ρ c
    _ = W3 m ρ c (Proc.devRef .tc main_arg5) := W4_of_ne m ρ c main_arg5 (by decide)
    _ = W2 m ρ c (Proc.devRef .tc main_arg5) := W3_main_arg5 m ρ c
    _ = W1 m ρ c (Proc.devRef .tc main_arg5) := W2_of_ne m ρ c main_arg5 (by decide)
    _ = W0 m ρ c (Proc.devRef .tc main_arg5) := W1_main_arg5 m ρ c
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_main_arg6 m ρ c
    _ = W3 m ρ c (Proc.devRef .tc main_arg6) := W4_of_ne m ρ c main_arg6 (by decide)
    _ = W2 m ρ c (Proc.devRef .tc main_arg6) := W3_main_arg6 m ρ c
    _ = W1 m ρ c (Proc.devRef .tc main_arg6) := W2_of_ne m ρ c main_arg6 (by decide)
    _ = W0 m ρ c (Proc.devRef .tc main_arg6) := W1_main_arg6 m ρ c
    _ = m ((c : Thread nD τ).loc main_arg6) := rfl

/-- THE FRAME at any float instance: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩)
    (run_all m ρ)

end Cert.KernelIdeal.Hand

end
-- ==== Proof.RefRunDefs.lean ====
/- The reference computation as pure functions of its arguments' contents: the 128×128 matrix built from
   the 16×128 table of weights, the sparse product by gather and scatter-add, and the batch normalisation
   followed by the hyperbolic tangent. Each is the composition of the program's own operations. -/
import proofs.«125587_j10548439679296_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference as three pure functions

The table of weights is cut into eight blocks of sixteen columns; each block of the 128×128 matrix
is one of them times plus or minus one, stacked eight to a column strip, the eight strips side by side. -/

/-- Columns 0 … 15 of the 16×128 table. -/
def sl0 (w : (⟨S16x128, .f32⟩ : BufTy).Contents (Elt F)) : (⟨S16x16, .f32⟩ : BufTy).Contents (Elt F) :=
  extractStridedSlice S16x16 ![0, 0] w slices_S16x128_S16x16_0_0

/-- Columns 16 … 31 of the 16×128 table. -/
def sl1 (w : (⟨S16x128, .f32⟩ : BufTy).Contents (Elt F)) : (⟨S16x16, .f32⟩ : BufTy).Contents (Elt F) :=
  extractStridedSlice S16x16 ![0, 16] w slices_S16x128_S16x16_0_16

/-- Columns 32 … 47 of the 16×128 table. -/
def sl2 (w : (⟨S16x128, .f32⟩ : BufTy).Contents (Elt F)) : (⟨S16x16, .f32⟩ : BufTy).Contents (Elt F) :=
  extractStridedSlice S16x16 ![0, 32] w slices_S16x128_S16x16_0_32

/-- Columns 48 … 63 of the 16×128 table. -/
def sl3 (w : (⟨S16x128, .f32⟩ : BufTy).Contents (Elt F)) : (⟨S16x16, .f32⟩ : BufTy).Contents (Elt F) :=
  extractStridedSlice S16x16 ![0, 48] w slices_S16x128_S16x16_0_48

/-- Columns 64 … 79 of the 16×128 table. -/
def sl4 (w : (⟨S16x128, .f32⟩ : BufTy).Contents (Elt F)) : (⟨S16x16, .f32⟩ : BufTy).Contents (Elt F) :=
  extractStridedSlice S16x16 ![0, 64] w slices_S16x128_S16x16_0_64

/-- Columns 80 … 95 of the 16×128 table. -/
def sl5 (w : (⟨S16x128, .f32⟩ : BufTy).Contents (Elt F)) : (⟨S16x16, .f32⟩ : BufTy).Contents (Elt F) :=
  extractStridedSlice S16x16 ![0, 80] w slices_S16x128_S16x16_0_80

/-- Columns 96 … 111 of the 16×128 table. -/
def sl6 (w : (⟨S16x128, .f32⟩ : BufTy).Contents (Elt F)) : (⟨S16x16, .f32⟩ : BufTy).Contents (Elt F) :=
  extractStridedSlice S16x16 ![0, 96] w slices_S16x128_S16x16_0_96

/-- Columns 112 … 127 of the 16×128 table. -/
def sl7 (w : (⟨S16x128, .f32⟩ : BufTy).Contents (Elt F)) : (⟨S16x16, .f32⟩ : BufTy).Contents (Elt F) :=
  extractStridedSlice S16x16 ![0, 112] w slices_S16x128_S16x16_0_112

/-- A 16×16 block times the constant one. -/
def pos (x : (⟨S16x16, .f32⟩ : BufTy).Contents (Elt F)) : (⟨S16x16, .f32⟩ : BufTy).Contents (Elt F) :=
  mulf (broadcastInDim S16x16 ![] bcast_S_S16x16 (constant (F := F) S_ .f32 0x3F800000#32)) x

/-- A 16×16 block times the constant minus one. -/
def neg (x : (⟨S16x16, .f32⟩ : BufTy).Contents (Elt F)) : (⟨S16x16, .f32⟩ : BufTy).Contents (Elt F) :=
  mulf (broadcastInDim S16x16 ![] bcast_S_S16x16 (constant (F := F) S_ .f32 0xBF800000#32)) x

/-- Eight 16×16 blocks stacked along the rows. -/
def cat0 (u0 u1 u2 u3 u4 u5 u6 u7 : (⟨S16x16, .f32⟩ : BufTy).Contents (Elt F)) : (⟨S128x16, .f32⟩ : BufTy).Contents (Elt F) :=
  concatenate S128x16 0 [⟨S16x16, u0⟩, ⟨S16x16, u1⟩, ⟨S16x16, u2⟩, ⟨S16x16, u3⟩, ⟨S16x16, u4⟩, ⟨S16x16, u5⟩, ⟨S16x16, u6⟩, ⟨S16x16, u7⟩] concatenates_S16x16_S16x16_S16x16_S16x16_S16x16_S16x16_S16x16_S16x16_S128x16_d0

/-- Eight 128×16 strips side by side. -/
def cat1 (u0 u1 u2 u3 u4 u5 u6 u7 : (⟨S128x16, .f32⟩ : BufTy).Contents (Elt F)) : (⟨S128x128, .f32⟩ : BufTy).Contents (Elt F) :=
  concatenate S128x128 1 [⟨S128x16, u0⟩, ⟨S128x16, u1⟩, ⟨S128x16, u2⟩, ⟨S128x16, u3⟩, ⟨S128x16, u4⟩, ⟨S128x16, u5⟩, ⟨S128x16, u6⟩, ⟨S128x16, u7⟩] concatenates_S128x16_S128x16_S128x16_S128x16_S128x16_S128x16_S128x16_S128x16_S128x128_d1

/-- The 128×128 matrix of the signed, permuted blocks of the table. -/
def ham (w : (⟨S16x128, .f32⟩ : BufTy).Contents (Elt F)) : (⟨S128x128, .f32⟩ : BufTy).Contents (Elt F) :=
  cat1
    (cat0 (pos (sl0 w)) (neg (sl1 w)) (neg (sl2 w)) (neg (sl3 w)) (neg (sl4 w)) (neg (sl5 w)) (neg (sl6 w)) (neg (sl7 w)))
    (cat0 (pos (sl1 w)) (pos (sl0 w)) (neg (sl3 w)) (pos (sl2 w)) (neg (sl5 w)) (pos (sl4 w)) (pos (sl7 w)) (neg (sl6 w)))
    (cat0 (pos (sl2 w)) (pos (sl3 w)) (pos (sl0 w)) (neg (sl1 w)) (neg (sl6 w)) (neg (sl7 w)) (pos (sl4 w)) (pos (sl5 w)))
    (cat0 (pos (sl3 w)) (neg (sl2 w)) (pos (sl1 w)) (pos (sl0 w)) (neg (sl7 w)) (pos (sl6 w)) (neg (sl5 w)) (pos (sl4 w)))
    (cat0 (pos (sl4 w)) (pos (sl5 w)) (pos (sl6 w)) (pos (sl7 w)) (pos (sl0 w)) (neg (sl1 w)) (neg (sl2 w)) (neg (sl3 w)))
    (cat0 (pos (sl5 w)) (neg (sl4 w)) (pos (sl7 w)) (neg (sl6 w)) (pos (sl1 w)) (pos (sl0 w)) (pos (sl3 w)) (neg (sl2 w)))
    (cat0 (pos (sl6 w)) (neg (sl7 w)) (neg (sl4 w)) (pos (sl5 w)) (pos (sl2 w)) (neg (sl3 w)) (pos (sl0 w)) (pos (sl1 w)))
    (cat0 (pos (sl7 w)) (pos (sl6 w)) (neg (sl5 w)) (neg (sl4 w)) (pos (sl3 w)) (pos (sl2 w)) (neg (sl1 w)) (pos (sl0 w)))

/-- Gather the rows `col` of `s` (a negative index counted from the end), scale row `e` by `val e`, and add it into row `row e` of zero. -/
def spmm (s : (⟨S50000x128, .f32⟩ : BufTy).Contents (Elt F)) (row col : (⟨S800000, .i32⟩ : BufTy).Contents (Elt F)) (val : (⟨S800000, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 row) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 s (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))))

/-- The column means: the column sums over the count. -/
def colMean (x : (⟨S50000x128, .f32⟩ : BufTy).Contents (Elt F)) : (⟨S128, .f32⟩ : BufTy).Contents (Elt F) :=
  Host.divf (Host.reduceAdd x (constant (F := F) S_ .f32 0x00000000#32) reducesTo_S50000x128_S128_d0 h_S_) (broadcastInDim S128 ![] bcast_S_S128 (constant (F := F) S_ .f32 0x47435000#32))

/-- The count less the zero degrees of freedom, as a float. -/
def cnt : (⟨S_, .f32⟩ : BufTy).Contents (Elt F) :=
  subf (constant (F := F) S_ .f32 0x47435000#32) (sitofp (F := F) .f32 (constantI S_ 32 0#32))

/-- Each entry less its column's mean. -/
def colDev (x : (⟨S50000x128, .f32⟩ : BufTy).Contents (Elt F)) : (⟨S50000x128, .f32⟩ : BufTy).Contents (Elt F) :=
  subf x (broadcastInDim S50000x128 ![0, 1] bcast_S1x128_S50000x128_0_1 (Host.divf (broadcastInDim S1x128 ![1] bcast_S128_S1x128_1 (Host.reduceAdd x (constant (F := F) S_ .f32 0x00000000#32) reducesTo_S50000x128_S128_d0 h_S_)) (broadcastInDim S1x128 ![] bcast_S_S1x128 (constant (F := F) S_ .f32 0x47435000#32))))

/-- The column variances: the sums of squared deviations over the count, where the count is positive. -/
def colVar (x : (⟨S50000x128, .f32⟩ : BufTy).Contents (Elt F)) : (⟨S128, .f32⟩ : BufTy).Contents (Elt F) :=
  select (broadcastInDim S128 ![] bcast_S_S128 (cmpf .ogt (cnt (F := F)) (constant (F := F) S_ .f32 0x00000000#32))) (Host.divf (Host.reduceAdd (mulf (colDev x) (colDev x)) (constant (F := F) S_ .f32 0x00000000#32) reducesTo_S50000x128_S128_d0 h_S_) (broadcastInDim S128 ![] bcast_S_S128 (cnt (F := F)))) (broadcastInDim S128 ![] bcast_S_S128 (constant (F := F) S_ .f32 0x7FC00000#32))

/-- Normalise each column to mean zero and variance one, scale, shift, and take the hyperbolic tangent. -/
def bnTanh (x : (⟨S50000x128, .f32⟩ : BufTy).Contents (Elt F)) (gamma beta : (⟨S128, .f32⟩ : BufTy).Contents (Elt F)) : (⟨S50000x128, .f32⟩ : BufTy).Contents (Elt F) :=
  Host.tanh (addf (mulf (Host.divf (subf x (broadcastInDim S50000x128 ![0, 1] bcast_S1x128_S50000x128_0_1 (broadcastInDim S1x128 ![1] bcast_S128_S1x128_1 (colMean x)))) (broadcastInDim S50000x128 ![0, 1] bcast_S1x128_S50000x128_0_1 (broadcastInDim S1x128 ![1] bcast_S128_S1x128_1 (Host.sqrt (addf (colVar x) (broadcastInDim S128 ![] bcast_S_S128 (constant (F := F) S_ .f32 0x3727C5AC#32))))))) (broadcastInDim S50000x128 ![0, 1] bcast_S1x128_S50000x128_0_1 (broadcastInDim S1x128 ![1] bcast_S128_S1x128_1 gamma))) (broadcastInDim S50000x128 ![0, 1] bcast_S1x128_S50000x128_0_1 (broadcastInDim S1x128 ![1] bcast_S128_S1x128_1 beta)))

/-- The reference's result as a function of its seven arguments. -/
def out (a0 : (⟨S50000x128, .f32⟩ : BufTy).Contents (Elt F)) (a1 a2 : (⟨S800000, .i32⟩ : BufTy).Contents (Elt F)) (a3 : (⟨S800000, .f32⟩ : BufTy).Contents (Elt F)) (a4 : (⟨S16x128, .f32⟩ : BufTy).Contents (Elt F)) (a5 a6 : (⟨S128, .f32⟩ : BufTy).Contents (Elt F)) : (⟨S50000x128, .f32⟩ : BufTy).Contents (Elt F) :=
  bnTanh (spmm (Host.dotGeneral dot_S50000x128_S128x128_S50000x128_1_0_0_1_n_n none a0 (ham a4)) a1 a2 a3) a5 a6

end Cert.ReferenceIdeal.RefRun

end
-- ==== Proof.RefRunOps.lean ====
/- The reference program as the list of its operations, in program order, and the program equal to that list run in order. -/
import proofs.«125587_j10548439679296_1_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

The operations in program order, cut where the stages of the computation end: the eight column blocks,
the eight strips (eight signed blocks and their stacking each), the matrix, the product, the gather and
scatter-add, the batch statistics with the normalisation. A strip or a stage that straddles two of the
program's windows is cut in two there. The called function's operations stand where it is called. -/

def opsS : List (HloOp τ sig (Elt F)) :=
  [ unary main_arg4 main_v0 ((extractStridedSlice S16x16 ![0, 0] · slices_S16x128_S16x16_0_0) : (⟨S16x128, .f32⟩ : BufTy).Contents (Elt F) → (⟨S16x16, .f32⟩ : BufTy).Contents (Elt F)),
    unary main_arg4 main_v1 ((extractStridedSlice S16x16 ![0, 16] · slices_S16x128_S16x16_0_16) : (⟨S16x128, .f32⟩ : BufTy).Contents (Elt F) → (⟨S16x16, .f32⟩ : BufTy).Contents (Elt F)),
    unary main_arg4 main_v2 ((extractStridedSlice S16x16 ![0, 32] · slices_S16x128_S16x16_0_32) : (⟨S16x128, .f32⟩ : BufTy).Contents (Elt F) → (⟨S16x16, .f32⟩ : BufTy).Contents (Elt F)),
    unary main_arg4 main_v3 ((extractStridedSlice S16x16 ![0, 48] · slices_S16x128_S16x16_0_48) : (⟨S16x128, .f32⟩ : BufTy).Contents (Elt F) → (⟨S16x16, .f32⟩ : BufTy).Contents (Elt F)),
    unary main_arg4 main_v4 ((extractStridedSlice S16x16 ![0, 64] · slices_S16x128_S16x16_0_64) : (⟨S16x128, .f32⟩ : BufTy).Contents (Elt F) → (⟨S16x16, .f32⟩ : BufTy).Contents (Elt F)),
    unary main_arg4 main_v5 ((extractStridedSlice S16x16 ![0, 80] · slices_S16x128_S16x16_0_80) : (⟨S16x128, .f32⟩ : BufTy).Contents (Elt F) → (⟨S16x16, .f32⟩ : BufTy).Contents (Elt F)),
    unary main_arg4 main_v6 ((extractStridedSlice S16x16 ![0, 96] · slices_S16x128_S16x16_0_96) : (⟨S16x128, .f32⟩ : BufTy).Contents (Elt F) → (⟨S16x16, .f32⟩ : BufTy).Contents (Elt F)),
    unary main_arg4 main_v7 ((extractStridedSlice S16x16 ![0, 112] · slices_S16x128_S16x16_0_112) : (⟨S16x128, .f32⟩ : BufTy).Contents (Elt F) → (⟨S16x16, .f32⟩ : BufTy).Contents (Elt F)) ]

def opsB1 : List (HloOp τ sig (Elt F)) :=
  [ nullary main_cst (constant S_ .f32 0x3F800000#32),
    unary main_cst main_v8 (broadcastInDim S16x16 ![] bcast_S_S16x16 : (⟨S_, .f32⟩ : BufTy).Contents (Elt F) → (⟨S16x16, .f32⟩ : BufTy).Contents (Elt F)),
    binary main_v8 main_v0 main_v9 (mulf : (⟨S16x16, .f32⟩ : BufTy).Contents (Elt F) → (⟨S16x16, .f32⟩ : BufTy).Contents (Elt F) → (⟨S16x16, .f32⟩ : BufTy).Contents (Elt F)),
    nullary main_cst_0 (constant S_ .f32 0xBF800000#32),
    unary main_cst_0 main_v10 (broadcastInDim S16x16 ![] bcast_S_S16x16 : (⟨S_, .f32⟩ : BufTy).Contents (Elt F) → (⟨S16x16, .f32⟩ : BufTy).Contents (Elt F)),
    binary main_v10 main_v1 main_v11 (mulf : (⟨S16x16, .f32⟩ : BufTy).Contents (Elt F) → (⟨S16x16, .f32⟩ : BufTy).Contents (Elt F) → (⟨S16x16, .f32⟩ : BufTy).Contents (Elt F)),
    nullary main_cst_1 (constant S_ .f32 0xBF800000#32),
    unary main_cst_1 main_v12 (broadcastInDim S16x16 ![] bcast_S_S16x16 : (⟨S_, .f32⟩ : BufTy).Contents (Elt F) → (⟨S16x16, .f32⟩ : BufTy).Contents (Elt F)),
    binary main_v12 main_v2 main_v13 (mulf : (⟨S16x16, .f32⟩ : BufTy).Contents (Elt F) → (⟨S16x16, .f32⟩ : BufTy).Contents (Elt F) → (⟨S16x16, .f32⟩ : BufTy).Contents (Elt F)),
    nullary main_cst_2 (constant S_ .f32 0xBF800000#32),
    unary main_cst_2 main_v14 (broadcastInDim S16x16 ![] bcast_S_S16x16 : (⟨S_, .f32⟩ : BufTy).Contents (Elt F) → (⟨S16x16, .f32⟩ : BufTy).Contents (Elt F)),
    binary main_v14 main_v3 main_v15 (mulf : (⟨S16x16, .f32⟩ : BufTy).Contents (Elt F) → (⟨S16x16, .f32⟩ : BufTy).Contents (Elt F) → (⟨S16x16, .f32⟩ : BufTy).Contents (Elt F)),
    nullary main_cst_3 (constant S_ .f32 0xBF800000#32),
    unary main_cst_3 main_v16 (broadcastInDim S16x16 ![] bcast_S_S16x16 : (⟨S_, .f32⟩ : BufTy).Contents (Elt F) → (⟨S16x16, .f32⟩ : BufTy).Contents (Elt F)),
    binary main_v16 main_v4 main_v17 (mulf : (⟨S16x16, .f32⟩ : BufTy).Contents (Elt F) → (⟨S16x16, .f32⟩ : BufTy).Contents (Elt F) → (⟨S16x16, .f32⟩ : BufTy).Contents (Elt F)),
    nullary main_cst_4 (constant S_ .f32 0xBF800000#32),
    unary main_cst_4 main_v18 (broadcastInDim S16x16 ![] bcast_S_S16x16 : (⟨S_, .f32⟩ : BufTy).Contents (Elt F) → (⟨S16x16, .f32⟩ : BufTy).Contents (Elt F)),
    binary main_v18 main_v5 main_v19 (mulf : (⟨S16x16, .f32⟩ : BufTy).Contents (Elt F) → (⟨S16x16, .f32⟩ : BufTy).Contents (Elt F) → (⟨S16x16, .f32⟩ : BufTy).Contents (Elt F)),
    nullary main_cst_5 (constant S_ .f32 0xBF800000#32),
    unary main_cst_5 main_v20 (broadcastInDim S16x16 ![] bcast_S_S16x16 : (⟨S_, .f32⟩ : BufTy).Contents (Elt F) → (⟨S16x16, .f32⟩ : BufTy).Contents (Elt F)),
    binary main_v20 main_v6 main_v21 (mulf : (⟨S16x16, .f32⟩ : BufTy).Contents (Elt F) → (⟨S16x16, .f32⟩ : BufTy).Contents (Elt F) → (⟨S16x16, .f32⟩ : BufTy).Contents (Elt F)),
    nullary main_cst_6 (constant S_ .f32 0xBF800000#32),
    unary main_cst_6 main_v22 (broadcastInDim S16x16 ![] bcast_S_S16x16 : (⟨S_, .f32⟩ : BufTy).Contents (Elt F) → (⟨S16x16, .f32⟩ : BufTy).Contents (Elt F)),
    binary main_v22 main_v7 main_v23 (mulf : (⟨S16x16, .f32⟩ : BufTy).Contents (Elt F) → (⟨S16x16, .f32⟩ : BufTy).Contents (Elt F) → (⟨S16x16, .f32⟩ : BufTy).Contents (Elt F)),
    nary ![main_v9, main_v11, main_v13, main_v15, main_v17, main_v19, main_v21, main_v23] main_v24 (fun u => cat0 (F := F) (u 0) (u 1) (u 2) (u 3) (u 4) (u 5) (u 6) (u 7)) ]

def opsB2 : List (HloOp τ sig (Elt F)) :=
  [ nullary main_cst_7 (constant S_ .f32 0x3F800000#32),
    unary main_cst_7 main_v25 (broadcastInDim S16x16 ![] bcast_S_S16x16 : (⟨S_, .f32⟩ : BufTy).Contents (Elt F) → (⟨S16x16, .f32⟩ : BufTy).Contents (Elt F)),
    binary main_v25 main_v1 main_v26 (mulf : (⟨S16x16, .f32⟩ : BufTy).Contents (Elt F) → (⟨S16x16, .f32⟩ : BufTy).Contents (Elt F) → (⟨S16x16, .f32⟩ : BufTy).Contents (Elt F)),
    nullary main_cst_8 (constant S_ .f32 0x3F800000#32),
    unary main_cst_8 main_v27 (broadcastInDim S16x16 ![] bcast_S_S16x16 : (⟨S_, .f32⟩ : BufTy).Contents (Elt F) → (⟨S16x16, .f32⟩ : BufTy).Contents (Elt F)),
    binary main_v27 main_v0 main_v28 (mulf : (⟨S16x16, .f32⟩ : BufTy).Contents (Elt F) → (⟨S16x16, .f32⟩ : BufTy).Contents (Elt F) → (⟨S16x16, .f32⟩ : BufTy).Contents (Elt F)),
    nullary main_cst_9 (constant S_ .f32 0xBF800000#32),
    unary main_cst_9 main_v29 (broadcastInDim S16x16 ![] bcast_S_S16x16 : (⟨S_, .f32⟩ : BufTy).Contents (Elt F) → (⟨S16x16, .f32⟩ : BufTy).Contents (Elt F)),
    binary main_v29 main_v3 main_v30 (mulf : (⟨S16x16, .f32⟩ : BufTy).Contents (Elt F) → (⟨S16x16, .f32⟩ : BufTy).Contents (Elt F) → (⟨S16x16, .f32⟩ : BufTy).Contents (Elt F)),
    nullary main_cst_10 (constant S_ .f32 0x3F800000#32),
    unary main_cst_10 main_v31 (broadcastInDim S16x16 ![] bcast_S_S16x16 : (⟨S_, .f32⟩ : BufTy).Contents (Elt F) → (⟨S16x16, .f32⟩ : BufTy).Contents (Elt F)),
    binary main_v31 main_v2 main_v32 (mulf : (⟨S16x16, .f32⟩ : BufTy).Contents (Elt F) → (⟨S16x16, .f32⟩ : BufTy).Contents (Elt F) → (⟨S16x16, .f32⟩ : BufTy).Contents (Elt F)),
    nullary main_cst_11 (constant S_ .f32 0xBF800000#32),
    unary main_cst_11 main_v33 (broadcastInDim S16x16 ![] bcast_S_S16x16 : (⟨S_, .f32⟩ : BufTy).Contents (Elt F) → (⟨S16x16, .f32⟩ : BufTy).Contents (Elt F)),
    binary main_v33 main_v5 main_v34 (mulf : (⟨S16x16, .f32⟩ : BufTy).Contents (Elt F) → (⟨S16x16, .f32⟩ : BufTy).Contents (Elt F) → (⟨S16x16, .f32⟩ : BufTy).Contents (Elt F)),
    nullary main_cst_12 (constant S_ .f32 0x3F800000#32),
    unary main_cst_12 main_v35 (broadcastInDim S16x16 ![] bcast_S_S16x16 : (⟨S_, .f32⟩ : BufTy).Contents (Elt F) → (⟨S16x16, .f32⟩ : BufTy).Contents (Elt F)),
    binary main_v35 main_v4 main_v36 (mulf : (⟨S16x16, .f32⟩ : BufTy).Contents (Elt F) → (⟨S16x16, .f32⟩ : BufTy).Contents (Elt F) → (⟨S16x16, .f32⟩ : BufTy).Contents (Elt F)),
    nullary main_cst_13 (constant S_ .f32 0x3F800000#32),
    unary main_cst_13 main_v37 (broadcastInDim S16x16 ![] bcast_S_S16x16 : (⟨S_, .f32⟩ : BufTy).Contents (Elt F) → (⟨S16x16, .f32⟩ : BufTy).Contents (Elt F)),
    binary main_v37 main_v7 main_v38 (mulf : (⟨S16x16, .f32⟩ : BufTy).Contents (Elt F) → (⟨S16x16, .f32⟩ : BufTy).Contents (Elt F) → (⟨S16x16, .f32⟩ : BufTy).Contents (Elt F)),
    nullary main_cst_14 (constant S_ .f32 0xBF800000#32),
    unary main_cst_14 main_v39 (broadcastInDim S16x16 ![] bcast_S_S16x16 : (⟨S_, .f32⟩ : BufTy).Contents (Elt F) → (⟨S16x16, .f32⟩ : BufTy).Contents (Elt F)),
    binary main_v39 main_v6 main_v40 (mulf : (⟨S16x16, .f32⟩ : BufTy).Contents (Elt F) → (⟨S16x16, .f32⟩ : BufTy).Contents (Elt F) → (⟨S16x16, .f32⟩ : BufTy).Contents (Elt F)),
    nary ![main_v26, main_v28, main_v30, main_v32, main_v34, main_v36, main_v38, main_v40] main_v41 (fun u => cat0 (F := F) (u 0) (u 1) (u 2) (u 3) (u 4) (u 5) (u 6) (u 7)) ]

def opsB3a : List (HloOp τ sig (Elt F)) :=
  [ nullary main_cst_15 (constant S_ .f32 0x3F800000#32),
    unary main_cst_15 main_v42 (broadcastInDim S16x16 ![] bcast_S_S16x16 : (⟨S_, .f32⟩ : BufTy).Contents (Elt F) → (⟨S16x16, .f32⟩ : BufTy).Contents (Elt F)) ]

def opsB3b : List (HloOp τ sig (Elt F)) :=
  [ binary main_v42 main_v2 main_v43 (mulf : (⟨S16x16, .f32⟩ : BufTy).Contents (Elt F) → (⟨S16x16, .f32⟩ : BufTy).Contents (Elt F) → (⟨S16x16, .f32⟩ : BufTy).Contents (Elt F)),
    nullary main_cst_16 (constant S_ .f32 0x3F800000#32),
    unary main_cst_16 main_v44 (broadcastInDim S16x16 ![] bcast_S_S16x16 : (⟨S_, .f32⟩ : BufTy).Contents (Elt F) → (⟨S16x16, .f32⟩ : BufTy).Contents (Elt F)),
    binary main_v44 main_v3 main_v45 (mulf : (⟨S16x16, .f32⟩ : BufTy).Contents (Elt F) → (⟨S16x16, .f32⟩ : BufTy).Contents (Elt F) → (⟨S16x16, .f32⟩ : BufTy).Contents (Elt F)),
    nullary main_cst_17 (constant S_ .f32 0x3F800000#32),
    unary main_cst_17 main_v46 (broadcastInDim S16x16 ![] bcast_S_S16x16 : (⟨S_, .f32⟩ : BufTy).Contents (Elt F) → (⟨S16x16, .f32⟩ : BufTy).Contents (Elt F)),
    binary main_v46 main_v0 main_v47 (mulf : (⟨S16x16, .f32⟩ : BufTy).Contents (Elt F) → (⟨S16x16, .f32⟩ : BufTy).Contents (Elt F) → (⟨S16x16, .f32⟩ : BufTy).Contents (Elt F)),
    nullary main_cst_18 (constant S_ .f32 0xBF800000#32),
    unary main_cst_18 main_v48 (broadcastInDim S16x16 ![] bcast_S_S16x16 : (⟨S_, .f32⟩ : BufTy).Contents (Elt F) → (⟨S16x16, .f32⟩ : BufTy).Contents (Elt F)),
    binary main_v48 main_v1 main_v49 (mulf : (⟨S16x16, .f32⟩ : BufTy).Contents (Elt F) → (⟨S16x16, .f32⟩ : BufTy).Contents (Elt F) → (⟨S16x16, .f32⟩ : BufTy).Contents (Elt F)),
    nullary main_cst_19 (constant S_ .f32 0xBF800000#32),
    unary main_cst_19 main_v50 (broadcastInDim S16x16 ![] bcast_S_S16x16 : (⟨S_, .f32⟩ : BufTy).Contents (Elt F) → (⟨S16x16, .f32⟩ : BufTy).Contents (Elt F)),
    binary main_v50 main_v6 main_v51 (mulf : (⟨S16x16, .f32⟩ : BufTy).Contents (Elt F) → (⟨S16x16, .f32⟩ : BufTy).Contents (Elt F) → (⟨S16x16, .f32⟩ : BufTy).Contents (Elt F)),
    nullary main_cst_20 (constant S_ .f32 0xBF800000#32),
    unary main_cst_20 main_v52 (broadcastInDim S16x16 ![] bcast_S_S16x16 : (⟨S_, .f32⟩ : BufTy).Contents (Elt F) → (⟨S16x16, .f32⟩ : BufTy).Contents (Elt F)),
    binary main_v52 main_v7 main_v53 (mulf : (⟨S16x16, .f32⟩ : BufTy).Contents (Elt F) → (⟨S16x16, .f32⟩ : BufTy).Contents (Elt F) → (⟨S16x16, .f32⟩ : BufTy).Contents (Elt F)),
    nullary main_cst_21 (constant S_ .f32 0x3F800000#32),
    unary main_cst_21 main_v54 (broadcastInDim S16x16 ![] bcast_S_S16x16 : (⟨S_, .f32⟩ : BufTy).Contents (Elt F) → (⟨S16x16, .f32⟩ : BufTy).Contents (Elt F)),
    binary main_v54 main_v4 main_v55 (mulf : (⟨S16x16, .f32⟩ : BufTy).Contents (Elt F) → (⟨S16x16, .f32⟩ : BufTy).Contents (Elt F) → (⟨S16x16, .f32⟩ : BufTy).Contents (Elt F)),
    nullary main_cst_22 (constant S_ .f32 0x3F800000#32),
    unary main_cst_22 main_v56 (broadcastInDim S16x16 ![] bcast_S_S16x16 : (⟨S_, .f32⟩ : BufTy).Contents (Elt F) → (⟨S16x16, .f32⟩ : BufTy).Contents (Elt F)),
    binary main_v56 main_v5 main_v57 (mulf : (⟨S16x16, .f32⟩ : BufTy).Contents (Elt F) → (⟨S16x16, .f32⟩ : BufTy).Contents (Elt F) → (⟨S16x16, .f32⟩ : BufTy).Contents (Elt F)),
    nary ![main_v43, main_v45, main_v47, main_v49, main_v51, main_v53, main_v55, main_v57] main_v58 (fun u => cat0 (F := F) (u 0) (u 1) (u 2) (u 3) (u 4) (u 5) (u 6) (u 7)) ]

def opsB4 : List (HloOp τ sig (Elt F)) :=
  [ nullary main_cst_23 (constant S_ .f32 0x3F800000#32),
    unary main_cst_23 main_v59 (broadcastInDim S16x16 ![] bcast_S_S16x16 : (⟨S_, .f32⟩ : BufTy).Contents (Elt F) → (⟨S16x16, .f32⟩ : BufTy).Contents (Elt F)),
    binary main_v59 main_v3 main_v60 (mulf : (⟨S16x16, .f32⟩ : BufTy).Contents (Elt F) → (⟨S16x16, .f32⟩ : BufTy).Contents (Elt F) → (⟨S16x16, .f32⟩ : BufTy).Contents (Elt F)),
    nullary main_cst_24 (constant S_ .f32 0xBF800000#32),
    unary main_cst_24 main_v61 (broadcastInDim S16x16 ![] bcast_S_S16x16 : (⟨S_, .f32⟩ : BufTy).Contents (Elt F) → (⟨S16x16, .f32⟩ : BufTy).Contents (Elt F)),
    binary main_v61 main_v2 main_v62 (mulf : (⟨S16x16, .f32⟩ : BufTy).Contents (Elt F) → (⟨S16x16, .f32⟩ : BufTy).Contents (Elt F) → (⟨S16x16, .f32⟩ : BufTy).Contents (Elt F)),
    nullary main_cst_25 (constant S_ .f32 0x3F800000#32),
    unary main_cst_25 main_v63 (broadcastInDim S16x16 ![] bcast_S_S16x16 : (⟨S_, .f32⟩ : BufTy).Contents (Elt F) → (⟨S16x16, .f32⟩ : BufTy).Contents (Elt F)),
    binary main_v63 main_v1 main_v64 (mulf : (⟨S16x16, .f32⟩ : BufTy).Contents (Elt F) → (⟨S16x16, .f32⟩ : BufTy).Contents (Elt F) → (⟨S16x16, .f32⟩ : BufTy).Contents (Elt F)),
    nullary main_cst_26 (constant S_ .f32 0x3F800000#32),
    unary main_cst_26 main_v65 (broadcastInDim S16x16 ![] bcast_S_S16x16 : (⟨S_, .f32⟩ : BufTy).Contents (Elt F) → (⟨S16x16, .f32⟩ : BufTy).Contents (Elt F)),
    binary main_v65 main_v0 main_v66 (mulf : (⟨S16x16, .f32⟩ : BufTy).Contents (Elt F) → (⟨S16x16, .f32⟩ : BufTy).Contents (Elt F) → (⟨S16x16, .f32⟩ : BufTy).Contents (Elt F)),
    nullary main_cst_27 (constant S_ .f32 0xBF800000#32),
    unary main_cst_27 main_v67 (broadcastInDim S16x16 ![] bcast_S_S16x16 : (⟨S_, .f32⟩ : BufTy).Contents (Elt F) → (⟨S16x16, .f32⟩ : BufTy).Contents (Elt F)),
    binary main_v67 main_v7 main_v68 (mulf : (⟨S16x16, .f32⟩ : BufTy).Contents (Elt F) → (⟨S16x16, .f32⟩ : BufTy).Contents (Elt F) → (⟨S16x16, .f32⟩ : BufTy).Contents (Elt F)),
    nullary main_cst_28 (constant S_ .f32 0x3F800000#32),
    unary main_cst_28 main_v69 (broadcastInDim S16x16 ![] bcast_S_S16x16 : (⟨S_, .f32⟩ : BufTy).Contents (Elt F) → (⟨S16x16, .f32⟩ : BufTy).Contents (Elt F)),
    binary main_v69 main_v6 main_v70 (mulf : (⟨S16x16, .f32⟩ : BufTy).Contents (Elt F) → (⟨S16x16, .f32⟩ : BufTy).Contents (Elt F) → (⟨S16x16, .f32⟩ : BufTy).Contents (Elt F)),
    nullary main_cst_29 (constant S_ .f32 0xBF800000#32),
    unary main_cst_29 main_v71 (broadcastInDim S16x16 ![] bcast_S_S16x16 : (⟨S_, .f32⟩ : BufTy).Contents (Elt F) → (⟨S16x16, .f32⟩ : BufTy).Contents (Elt F)),
    binary main_v71 main_v5 main_v72 (mulf : (⟨S16x16, .f32⟩ : BufTy).Contents (Elt F) → (⟨S16x16, .f32⟩ : BufTy).Contents (Elt F) → (⟨S16x16, .f32⟩ : BufTy).Contents (Elt F)),
    nullary main_cst_30 (constant S_ .f32 0x3F800000#32),
    unary main_cst_30 main_v73 (broadcastInDim S16x16 ![] bcast_S_S16x16 : (⟨S_, .f32⟩ : BufTy).Contents (Elt F) → (⟨S16x16, .f32⟩ : BufTy).Contents (Elt F)),
    binary main_v73 main_v4 main_v74 (mulf : (⟨S16x16, .f32⟩ : BufTy).Contents (Elt F) → (⟨S16x16, .f32⟩ : BufTy).Contents (Elt F) → (⟨S16x16, .f32⟩ : BufTy).Contents (Elt F)),
    nary ![main_v60, main_v62, main_v64, main_v66, main_v68, main_v70, main_v72, main_v74] main_v75 (fun u => cat0 (F := F) (u 0) (u 1) (u 2) (u 3) (u 4) (u 5) (u 6) (u 7)) ]

def opsB5a : List (HloOp τ sig (Elt F)) :=
  [ nullary main_cst_31 (constant S_ .f32 0x3F800000#32),
    unary main_cst_31 main_v76 (broadcastInDim S16x16 ![] bcast_S_S16x16 : (⟨S_, .f32⟩ : BufTy).Contents (Elt F) → (⟨S16x16, .f32⟩ : BufTy).Contents (Elt F)),
    binary main_v76 main_v4 main_v77 (mulf : (⟨S16x16, .f32⟩ : BufTy).Contents (Elt F) → (⟨S16x16, .f32⟩ : BufTy).Contents (Elt F) → (⟨S16x16, .f32⟩ : BufTy).Contents (Elt F)),
    nullary main_cst_32 (constant S_ .f32 0x3F800000#32),
    unary main_cst_32 main_v78 (broadcastInDim S16x16 ![] bcast_S_S16x16 : (⟨S_, .f32⟩ : BufTy).Contents (Elt F) → (⟨S16x16, .f32⟩ : BufTy).Contents (Elt F)),
    binary main_v78 main_v5 main_v79 (mulf : (⟨S16x16, .f32⟩ : BufTy).Contents (Elt F) → (⟨S16x16, .f32⟩ : BufTy).Contents (Elt F) → (⟨S16x16, .f32⟩ : BufTy).Contents (Elt F)),
    nullary main_cst_33 (constant S_ .f32 0x3F800000#32),
    unary main_cst_33 main_v80 (broadcastInDim S16x16 ![] bcast_S_S16x16 : (⟨S_, .f32⟩ : BufTy).Contents (Elt F) → (⟨S16x16, .f32⟩ : BufTy).Contents (Elt F)),
    binary main_v80 main_v6 main_v81 (mulf : (⟨S16x16, .f32⟩ : BufTy).Contents (Elt F) → (⟨S16x16, .f32⟩ : BufTy).Contents (Elt F) → (⟨S16x16, .f32⟩ : BufTy).Contents (Elt F)),
    nullary main_cst_34 (constant S_ .f32 0x3F800000#32),
    unary main_cst_34 main_v82 (broadcastInDim S16x16 ![] bcast_S_S16x16 : (⟨S_, .f32⟩ : BufTy).Contents (Elt F) → (⟨S16x16, .f32⟩ : BufTy).Contents (Elt F)),
    binary main_v82 main_v7 main_v83 (mulf : (⟨S16x16, .f32⟩ : BufTy).Contents (Elt F) → (⟨S16x16, .f32⟩ : BufTy).Contents (Elt F) → (⟨S16x16, .f32⟩ : BufTy).Contents (Elt F)) ]

def opsB5b : List (HloOp τ sig (Elt F)) :=
  [ nullary main_cst_35 (constant S_ .f32 0x3F800000#32),
    unary main_cst_35 main_v84 (broadcastInDim S16x16 ![] bcast_S_S16x16 : (⟨S_, .f32⟩ : BufTy).Contents (Elt F) → (⟨S16x16, .f32⟩ : BufTy).Contents (Elt F)),
    binary main_v84 main_v0 main_v85 (mulf : (⟨S16x16, .f32⟩ : BufTy).Contents (Elt F) → (⟨S16x16, .f32⟩ : BufTy).Contents (Elt F) → (⟨S16x16, .f32⟩ : BufTy).Contents (Elt F)),
    nullary main_cst_36 (constant S_ .f32 0xBF800000#32),
    unary main_cst_36 main_v86 (broadcastInDim S16x16 ![] bcast_S_S16x16 : (⟨S_, .f32⟩ : BufTy).Contents (Elt F) → (⟨S16x16, .f32⟩ : BufTy).Contents (Elt F)),
    binary main_v86 main_v1 main_v87 (mulf : (⟨S16x16, .f32⟩ : BufTy).Contents (Elt F) → (⟨S16x16, .f32⟩ : BufTy).Contents (Elt F) → (⟨S16x16, .f32⟩ : BufTy).Contents (Elt F)),
    nullary main_cst_37 (constant S_ .f32 0xBF800000#32),
    unary main_cst_37 main_v88 (broadcastInDim S16x16 ![] bcast_S_S16x16 : (⟨S_, .f32⟩ : BufTy).Contents (Elt F) → (⟨S16x16, .f32⟩ : BufTy).Contents (Elt F)),
    binary main_v88 main_v2 main_v89 (mulf : (⟨S16x16, .f32⟩ : BufTy).Contents (Elt F) → (⟨S16x16, .f32⟩ : BufTy).Contents (Elt F) → (⟨S16x16, .f32⟩ : BufTy).Contents (Elt F)),
    nullary main_cst_38 (constant S_ .f32 0xBF800000#32),
    unary main_cst_38 main_v90 (broadcastInDim S16x16 ![] bcast_S_S16x16 : (⟨S_, .f32⟩ : BufTy).Contents (Elt F) → (⟨S16x16, .f32⟩ : BufTy).Contents (Elt F)),
    binary main_v90 main_v3 main_v91 (mulf : (⟨S16x16, .f32⟩ : BufTy).Contents (Elt F) → (⟨S16x16, .f32⟩ : BufTy).Contents (Elt F) → (⟨S16x16, .f32⟩ : BufTy).Contents (Elt F)),
    nary ![main_v77, main_v79, main_v81, main_v83, main_v85, main_v87, main_v89, main_v91] main_v92 (fun u => cat0 (F := F) (u 0) (u 1) (u 2) (u 3) (u 4) (u 5) (u 6) (u 7)) ]

def opsB6 : List (HloOp τ sig (Elt F)) :=
  [ nullary main_cst_39 (constant S_ .f32 0x3F800000#32),
    unary main_cst_39 main_v93 (broadcastInDim S16x16 ![] bcast_S_S16x16 : (⟨S_, .f32⟩ : BufTy).Contents (Elt F) → (⟨S16x16, .f32⟩ : BufTy).Contents (Elt F)),
    binary main_v93 main_v5 main_v94 (mulf : (⟨S16x16, .f32⟩ : BufTy).Contents (Elt F) → (⟨S16x16, .f32⟩ : BufTy).Contents (Elt F) → (⟨S16x16, .f32⟩ : BufTy).Contents (Elt F)),
    nullary main_cst_40 (constant S_ .f32 0xBF800000#32),
    unary main_cst_40 main_v95 (broadcastInDim S16x16 ![] bcast_S_S16x16 : (⟨S_, .f32⟩ : BufTy).Contents (Elt F) → (⟨S16x16, .f32⟩ : BufTy).Contents (Elt F)),
    binary main_v95 main_v4 main_v96 (mulf : (⟨S16x16, .f32⟩ : BufTy).Contents (Elt F) → (⟨S16x16, .f32⟩ : BufTy).Contents (Elt F) → (⟨S16x16, .f32⟩ : BufTy).Contents (Elt F)),
    nullary main_cst_41 (constant S_ .f32 0x3F800000#32),
    unary main_cst_41 main_v97 (broadcastInDim S16x16 ![] bcast_S_S16x16 : (⟨S_, .f32⟩ : BufTy).Contents (Elt F) → (⟨S16x16, .f32⟩ : BufTy).Contents (Elt F)),
    binary main_v97 main_v7 main_v98 (mulf : (⟨S16x16, .f32⟩ : BufTy).Contents (Elt F) → (⟨S16x16, .f32⟩ : BufTy).Contents (Elt F) → (⟨S16x16, .f32⟩ : BufTy).Contents (Elt F)),
    nullary main_cst_42 (constant S_ .f32 0xBF800000#32),
    unary main_cst_42 main_v99 (broadcastInDim S16x16 ![] bcast_S_S16x16 : (⟨S_, .f32⟩ : BufTy).Contents (Elt F) → (⟨S16x16, .f32⟩ : BufTy).Contents (Elt F)),
    binary main_v99 main_v6 main_v100 (mulf : (⟨S16x16, .f32⟩ : BufTy).Contents (Elt F) → (⟨S16x16, .f32⟩ : BufTy).Contents (Elt F) → (⟨S16x16, .f32⟩ : BufTy).Contents (Elt F)),
    nullary main_cst_43 (constant S_ .f32 0x3F800000#32),
    unary main_cst_43 main_v101 (broadcastInDim S16x16 ![] bcast_S_S16x16 : (⟨S_, .f32⟩ : BufTy).Contents (Elt F) → (⟨S16x16, .f32⟩ : BufTy).Contents (Elt F)),
    binary main_v101 main_v1 main_v102 (mulf : (⟨S16x16, .f32⟩ : BufTy).Contents (Elt F) → (⟨S16x16, .f32⟩ : BufTy).Contents (Elt F) → (⟨S16x16, .f32⟩ : BufTy).Contents (Elt F)),
    nullary main_cst_44 (constant S_ .f32 0x3F800000#32),
    unary main_cst_44 main_v103 (broadcastInDim S16x16 ![] bcast_S_S16x16 : (⟨S_, .f32⟩ : BufTy).Contents (Elt F) → (⟨S16x16, .f32⟩ : BufTy).Contents (Elt F)),
    binary main_v103 main_v0 main_v104 (mulf : (⟨S16x16, .f32⟩ : BufTy).Contents (Elt F) → (⟨S16x16, .f32⟩ : BufTy).Contents (Elt F) → (⟨S16x16, .f32⟩ : BufTy).Contents (Elt F)),
    nullary main_cst_45 (constant S_ .f32 0x3F800000#32),
    unary main_cst_45 main_v105 (broadcastInDim S16x16 ![] bcast_S_S16x16 : (⟨S_, .f32⟩ : BufTy).Contents (Elt F) → (⟨S16x16, .f32⟩ : BufTy).Contents (Elt F)),
    binary main_v105 main_v3 main_v106 (mulf : (⟨S16x16, .f32⟩ : BufTy).Contents (Elt F) → (⟨S16x16, .f32⟩ : BufTy).Contents (Elt F) → (⟨S16x16, .f32⟩ : BufTy).Contents (Elt F)),
    nullary main_cst_46 (constant S_ .f32 0xBF800000#32),
    unary main_cst_46 main_v107 (broadcastInDim S16x16 ![] bcast_S_S16x16 : (⟨S_, .f32⟩ : BufTy).Contents (Elt F) → (⟨S16x16, .f32⟩ : BufTy).Contents (Elt F)),
    binary main_v107 main_v2 main_v108 (mulf : (⟨S16x16, .f32⟩ : BufTy).Contents (Elt F) → (⟨S16x16, .f32⟩ : BufTy).Contents (Elt F) → (⟨S16x16, .f32⟩ : BufTy).Contents (Elt F)),
    nary ![main_v94, main_v96, main_v98, main_v100, main_v102, main_v104, main_v106, main_v108] main_v109 (fun u => cat0 (F := F) (u 0) (u 1) (u 2) (u 3) (u 4) (u 5) (u 6) (u 7)) ]

def opsB7a : List (HloOp τ sig (Elt F)) :=
  [ nullary main_cst_47 (constant S_ .f32 0x3F800000#32),
    unary main_cst_47 main_v110 (broadcastInDim S16x16 ![] bcast_S_S16x16 : (⟨S_, .f32⟩ : BufTy).Contents (Elt F) → (⟨S16x16, .f32⟩ : BufTy).Contents (Elt F)),
    binary main_v110 main_v6 main_v111 (mulf : (⟨S16x16, .f32⟩ : BufTy).Contents (Elt F) → (⟨S16x16, .f32⟩ : BufTy).Contents (Elt F) → (⟨S16x16, .f32⟩ : BufTy).Contents (Elt F)),
    nullary main_cst_48 (constant S_ .f32 0xBF800000#32),
    unary main_cst_48 main_v112 (broadcastInDim S16x16 ![] bcast_S_S16x16 : (⟨S_, .f32⟩ : BufTy).Contents (Elt F) → (⟨S16x16, .f32⟩ : BufTy).Contents (Elt F)),
    binary main_v112 main_v7 main_v113 (mulf : (⟨S16x16, .f32⟩ : BufTy).Contents (Elt F) → (⟨S16x16, .f32⟩ : BufTy).Contents (Elt F) → (⟨S16x16, .f32⟩ : BufTy).Contents (Elt F)),
    nullary main_cst_49 (constant S_ .f32 0xBF800000#32),
    unary main_cst_49 main_v114 (broadcastInDim S16x16 ![] bcast_S_S16x16 : (⟨S_, .f32⟩ : BufTy).Contents (Elt F) → (⟨S16x16, .f32⟩ : BufTy).Contents (Elt F)),
    binary main_v114 main_v4 main_v115 (mulf : (⟨S16x16, .f32⟩ : BufTy).Contents (Elt F) → (⟨S16x16, .f32⟩ : BufTy).Contents (Elt F) → (⟨S16x16, .f32⟩ : BufTy).Contents (Elt F)),
    nullary main_cst_50 (constant S_ .f32 0x3F800000#32),
    unary main_cst_50 main_v116 (broadcastInDim S16x16 ![] bcast_S_S16x16 : (⟨S_, .f32⟩ : BufTy).Contents (Elt F) → (⟨S16x16, .f32⟩ : BufTy).Contents (Elt F)),
    binary main_v116 main_v5 main_v117 (mulf : (⟨S16x16, .f32⟩ : BufTy).Contents (Elt F) → (⟨S16x16, .f32⟩ : BufTy).Contents (Elt F) → (⟨S16x16, .f32⟩ : BufTy).Contents (Elt F)),
    nullary main_cst_51 (constant S_ .f32 0x3F800000#32),
    unary main_cst_51 main_v118 (broadcastInDim S16x16 ![] bcast_S_S16x16 : (⟨S_, .f32⟩ : BufTy).Contents (Elt F) → (⟨S16x16, .f32⟩ : BufTy).Contents (Elt F)),
    binary main_v118 main_v2 main_v119 (mulf : (⟨S16x16, .f32⟩ : BufTy).Contents (Elt F) → (⟨S16x16, .f32⟩ : BufTy).Contents (Elt F) → (⟨S16x16, .f32⟩ : BufTy).Contents (Elt F)),
    nullary main_cst_52 (constant S_ .f32 0xBF800000#32),
    unary main_cst_52 main_v120 (broadcastInDim S16x16 ![] bcast_S_S16x16 : (⟨S_, .f32⟩ : BufTy).Contents (Elt F) → (⟨S16x16, .f32⟩ : BufTy).Contents (Elt F)),
    binary main_v120 main_v3 main_v121 (mulf : (⟨S16x16, .f32⟩ : BufTy).Contents (Elt F) → (⟨S16x16, .f32⟩ : BufTy).Contents (Elt F) → (⟨S16x16, .f32⟩ : BufTy).Contents (Elt F)),
    nullary main_cst_53 (constant S_ .f32 0x3F800000#32),
    unary main_cst_53 main_v122 (broadcastInDim S16x16 ![] bcast_S_S16x16 : (⟨S_, .f32⟩ : BufTy).Contents (Elt F) → (⟨S16x16, .f32⟩ : BufTy).Contents (Elt F)),
    binary main_v122 main_v0 main_v123 (mulf : (⟨S16x16, .f32⟩ : BufTy).Contents (Elt F) → (⟨S16x16, .f32⟩ : BufTy).Contents (Elt F) → (⟨S16x16, .f32⟩ : BufTy).Contents (Elt F)),
    nullary main_cst_54 (constant S_ .f32 0x3F800000#32) ]

def opsB7b : List (HloOp τ sig (Elt F)) :=
  [ unary main_cst_54 main_v124 (broadcastInDim S16x16 ![] bcast_S_S16x16 : (⟨S_, .f32⟩ : BufTy).Contents (Elt F) → (⟨S16x16, .f32⟩ : BufTy).Contents (Elt F)),
    binary main_v124 main_v1 main_v125 (mulf : (⟨S16x16, .f32⟩ : BufTy).Contents (Elt F) → (⟨S16x16, .f32⟩ : BufTy).Contents (Elt F) → (⟨S16x16, .f32⟩ : BufTy).Contents (Elt F)),
    nary ![main_v111, main_v113, main_v115, main_v117, main_v119, main_v121, main_v123, main_v125] main_v126 (fun u => cat0 (F := F) (u 0) (u 1) (u 2) (u 3) (u 4) (u 5) (u 6) (u 7)) ]

def opsB8 : List (HloOp τ sig (Elt F)) :=
  [ nullary main_cst_55 (constant S_ .f32 0x3F800000#32),
    unary main_cst_55 main_v127 (broadcastInDim S16x16 ![] bcast_S_S16x16 : (⟨S_, .f32⟩ : BufTy).Contents (Elt F) → (⟨S16x16, .f32⟩ : BufTy).Contents (Elt F)),
    binary main_v127 main_v7 main_v128 (mulf : (⟨S16x16, .f32⟩ : BufTy).Contents (Elt F) → (⟨S16x16, .f32⟩ : BufTy).Contents (Elt F) → (⟨S16x16, .f32⟩ : BufTy).Contents (Elt F)),
    nullary main_cst_56 (constant S_ .f32 0x3F800000#32),
    unary main_cst_56 main_v129 (broadcastInDim S16x16 ![] bcast_S_S16x16 : (⟨S_, .f32⟩ : BufTy).Contents (Elt F) → (⟨S16x16, .f32⟩ : BufTy).Contents (Elt F)),
    binary main_v129 main_v6 main_v130 (mulf : (⟨S16x16, .f32⟩ : BufTy).Contents (Elt F) → (⟨S16x16, .f32⟩ : BufTy).Contents (Elt F) → (⟨S16x16, .f32⟩ : BufTy).Contents (Elt F)),
    nullary main_cst_57 (constant S_ .f32 0xBF800000#32),
    unary main_cst_57 main_v131 (broadcastInDim S16x16 ![] bcast_S_S16x16 : (⟨S_, .f32⟩ : BufTy).Contents (Elt F) → (⟨S16x16, .f32⟩ : BufTy).Contents (Elt F)),
    binary main_v131 main_v5 main_v132 (mulf : (⟨S16x16, .f32⟩ : BufTy).Contents (Elt F) → (⟨S16x16, .f32⟩ : BufTy).Contents (Elt F) → (⟨S16x16, .f32⟩ : BufTy).Contents (Elt F)),
    nullary main_cst_58 (constant S_ .f32 0xBF800000#32),
    unary main_cst_58 main_v133 (broadcastInDim S16x16 ![] bcast_S_S16x16 : (⟨S_, .f32⟩ : BufTy).Contents (Elt F) → (⟨S16x16, .f32⟩ : BufTy).Contents (Elt F)),
    binary main_v133 main_v4 main_v134 (mulf : (⟨S16x16, .f32⟩ : BufTy).Contents (Elt F) → (⟨S16x16, .f32⟩ : BufTy).Contents (Elt F) → (⟨S16x16, .f32⟩ : BufTy).Contents (Elt F)),
    nullary main_cst_59 (constant S_ .f32 0x3F800000#32),
    unary main_cst_59 main_v135 (broadcastInDim S16x16 ![] bcast_S_S16x16 : (⟨S_, .f32⟩ : BufTy).Contents (Elt F) → (⟨S16x16, .f32⟩ : BufTy).Contents (Elt F)),
    binary main_v135 main_v3 main_v136 (mulf : (⟨S16x16, .f32⟩ : BufTy).Contents (Elt F) → (⟨S16x16, .f32⟩ : BufTy).Contents (Elt F) → (⟨S16x16, .f32⟩ : BufTy).Contents (Elt F)),
    nullary main_cst_60 (constant S_ .f32 0x3F800000#32),
    unary main_cst_60 main_v137 (broadcastInDim S16x16 ![] bcast_S_S16x16 : (⟨S_, .f32⟩ : BufTy).Contents (Elt F) → (⟨S16x16, .f32⟩ : BufTy).Contents (Elt F)),
    binary main_v137 main_v2 main_v138 (mulf : (⟨S16x16, .f32⟩ : BufTy).Contents (Elt F) → (⟨S16x16, .f32⟩ : BufTy).Contents (Elt F) → (⟨S16x16, .f32⟩ : BufTy).Contents (Elt F)),
    nullary main_cst_61 (constant S_ .f32 0xBF800000#32),
    unary main_cst_61 main_v139 (broadcastInDim S16x16 ![] bcast_S_S16x16 : (⟨S_, .f32⟩ : BufTy).Contents (Elt F) → (⟨S16x16, .f32⟩ : BufTy).Contents (Elt F)),
    binary main_v139 main_v1 main_v140 (mulf : (⟨S16x16, .f32⟩ : BufTy).Contents (Elt F) → (⟨S16x16, .f32⟩ : BufTy).Contents (Elt F) → (⟨S16x16, .f32⟩ : BufTy).Contents (Elt F)),
    nullary main_cst_62 (constant S_ .f32 0x3F800000#32),
    unary main_cst_62 main_v141 (broadcastInDim S16x16 ![] bcast_S_S16x16 : (⟨S_, .f32⟩ : BufTy).Contents (Elt F) → (⟨S16x16, .f32⟩ : BufTy).Contents (Elt F)),
    binary main_v141 main_v0 main_v142 (mulf : (⟨S16x16, .f32⟩ : BufTy).Contents (Elt F) → (⟨S16x16, .f32⟩ : BufTy).Contents (Elt F) → (⟨S16x16, .f32⟩ : BufTy).Contents (Elt F)),
    nary ![main_v128, main_v130, main_v132, main_v134, main_v136, main_v138, main_v140, main_v142] main_v143 (fun u => cat0 (F := F) (u 0) (u 1) (u 2) (u 3) (u 4) (u 5) (u 6) (u 7)) ]

def opsC : List (HloOp τ sig (Elt F)) :=
  [ nary ![main_v24, main_v41, main_v58, main_v75, main_v92, main_v109, main_v126, main_v143] main_v144 (fun u => cat1 (F := F) (u 0) (u 1) (u 2) (u 3) (u 4) (u 5) (u 6) (u 7)) ]

def opsD : List (HloOp τ sig (Elt F)) :=
  [ binary main_arg0 main_v144 main_v145 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

def opsSp : List (HloOp τ sig (Elt F)) :=
  [ unary main_arg3 main_v146 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v147 (broadcastInDim S800000 ![] bcast_S_S800000 : (⟨S_, .i32⟩ : BufTy).Contents (Elt F) → (⟨S800000, .i32⟩ : BufTy).Contents (Elt F)),
    binary main_arg2 main_v147 main_v148 (cmpi .slt : (⟨S800000, .i32⟩ : BufTy).Contents (Elt F) → (⟨S800000, .i32⟩ : BufTy).Contents (Elt F) → (⟨S800000, .i1⟩ : BufTy).Contents (Elt F)),
    nullary main_c_63 (constantI S_ 32 50000#32),
    unary main_c_63 main_v149 (broadcastInDim S800000 ![] bcast_S_S800000 : (⟨S_, .i32⟩ : BufTy).Contents (Elt F) → (⟨S800000, .i32⟩ : BufTy).Contents (Elt F)),
    binary main_arg2 main_v149 main_v150 (addi : (⟨S800000, .i32⟩ : BufTy).Contents (Elt F) → (⟨S800000, .i32⟩ : BufTy).Contents (Elt F) → (⟨S800000, .i32⟩ : BufTy).Contents (Elt F)),
    ternary main_v148 main_v150 main_arg2 main_v151 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v151 main_v152 (broadcastInDim S800000x1 ![0] bcast_S800000_S800000x1_0 : (⟨S800000, .i32⟩ : BufTy).Contents (Elt F) → (⟨S800000x1, .i32⟩ : BufTy).Contents (Elt F)),
    binary main_v145 main_v152 main_v153 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v146 main_v154 (broadcastInDim S800000x128 ![0, 1] bcast_S800000x1_S800000x128_0_1 : (⟨S800000x1, .f32⟩ : BufTy).Contents (Elt F) → (⟨S800000x128, .f32⟩ : BufTy).Contents (Elt F)),
    binary main_v154 main_v153 main_v155 (mulf : (⟨S800000x128, .f32⟩ : BufTy).Contents (Elt F) → (⟨S800000x128, .f32⟩ : BufTy).Contents (Elt F) → (⟨S800000x128, .f32⟩ : BufTy).Contents (Elt F)),
    nullary main_cst_64 (constant S_ .f32 0x00000000#32),
    unary main_cst_64 main_v156 (broadcastInDim S50000x128 ![] bcast_S_S50000x128 : (⟨S_, .f32⟩ : BufTy).Contents (Elt F) → (⟨S50000x128, .f32⟩ : BufTy).Contents (Elt F)),
    unary main_arg1 main_v157 (broadcastInDim S800000x1 ![0] bcast_S800000_S800000x1_0 : (⟨S800000, .i32⟩ : BufTy).Contents (Elt F) → (⟨S800000x1, .i32⟩ : BufTy).Contents (Elt F)),
    ternary main_v156 main_v157 main_v155 main_v158 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

def opsBna : List (HloOp τ sig (Elt F)) :=
  [ nullary main_cst_65 (constant S_ .f32 0x00000000#32),
    binary main_v158 main_cst_65 main_v159 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_66 (constant S_ .f32 0x47435000#32),
    unary main_cst_66 main_v160 (broadcastInDim S128 ![] bcast_S_S128 : (⟨S_, .f32⟩ : BufTy).Contents (Elt F) → (⟨S128, .f32⟩ : BufTy).Contents (Elt F)),
    binary main_v159 main_v160 main_v161 (Host.divf : (⟨S128, .f32⟩ : BufTy).Contents (Elt F) → (⟨S128, .f32⟩ : BufTy).Contents (Elt F) → (⟨S128, .f32⟩ : BufTy).Contents (Elt F)),
    nullary main_c_67 (constantI S_ 32 0#32),
    TRef.nullary main_call0.cst (constant S_ .f32 0x00000000#32),
    TRef.binary (.of main_v158 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v158 : TRef sig ⟨S50000x128, .f32⟩) main_call0.v4 main_call0.v5 subf,
    TRef.binary main_call0.v5 main_call0.v5 main_call0.v6 mulf,
    TRef.unary (.of main_c_67 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v161 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v158 main_v164 main_v165 (subf : (⟨S50000x128, .f32⟩ : BufTy).Contents (Elt F) → (⟨S50000x128, .f32⟩ : BufTy).Contents (Elt F) → (⟨S50000x128, .f32⟩ : BufTy).Contents (Elt F)),
    nullary main_cst_68 (constant S_ .f32 0x3727C5AC#32),
    unary main_cst_68 main_v166 (broadcastInDim S128 ![] bcast_S_S128 : (⟨S_, .f32⟩ : BufTy).Contents (Elt F) → (⟨S128, .f32⟩ : BufTy).Contents (Elt F)),
    binary main_v162 main_v166 main_v167 (addf : (⟨S128, .f32⟩ : BufTy).Contents (Elt F) → (⟨S128, .f32⟩ : BufTy).Contents (Elt F) → (⟨S128, .f32⟩ : BufTy).Contents (Elt F)),
    unary main_v167 main_v168 (Host.sqrt : (⟨S128, .f32⟩ : BufTy).Contents (Elt F) → (⟨S128, .f32⟩ : BufTy).Contents (Elt F)) ]

def opsBnb : List (HloOp τ sig (Elt F)) :=
  [ unary main_v168 main_v169 (broadcastInDim S1x128 ![1] bcast_S128_S1x128_1 : (⟨S128, .f32⟩ : BufTy).Contents (Elt F) → (⟨S1x128, .f32⟩ : BufTy).Contents (Elt F)),
    unary main_v169 main_v170 (broadcastInDim S50000x128 ![0, 1] bcast_S1x128_S50000x128_0_1 : (⟨S1x128, .f32⟩ : BufTy).Contents (Elt F) → (⟨S50000x128, .f32⟩ : BufTy).Contents (Elt F)),
    binary main_v165 main_v170 main_v171 (Host.divf : (⟨S50000x128, .f32⟩ : BufTy).Contents (Elt F) → (⟨S50000x128, .f32⟩ : BufTy).Contents (Elt F) → (⟨S50000x128, .f32⟩ : BufTy).Contents (Elt F)),
    unary main_arg5 main_v172 (broadcastInDim S1x128 ![1] bcast_S128_S1x128_1 : (⟨S128, .f32⟩ : BufTy).Contents (Elt F) → (⟨S1x128, .f32⟩ : BufTy).Contents (Elt F)),
    unary main_v172 main_v173 (broadcastInDim S50000x128 ![0, 1] bcast_S1x128_S50000x128_0_1 : (⟨S1x128, .f32⟩ : BufTy).Contents (Elt F) → (⟨S50000x128, .f32⟩ : BufTy).Contents (Elt F)),
    binary main_v171 main_v173 main_v174 (mulf : (⟨S50000x128, .f32⟩ : BufTy).Contents (Elt F) → (⟨S50000x128, .f32⟩ : BufTy).Contents (Elt F) → (⟨S50000x128, .f32⟩ : BufTy).Contents (Elt F)),
    unary main_arg6 main_v175 (broadcastInDim S1x128 ![1] bcast_S128_S1x128_1 : (⟨S128, .f32⟩ : BufTy).Contents (Elt F) → (⟨S1x128, .f32⟩ : BufTy).Contents (Elt F)),
    unary main_v175 main_v176 (broadcastInDim S50000x128 ![0, 1] bcast_S1x128_S50000x128_0_1 : (⟨S1x128, .f32⟩ : BufTy).Contents (Elt F) → (⟨S50000x128, .f32⟩ : BufTy).Contents (Elt F)),
    binary main_v174 main_v176 main_v177 (addf : (⟨S50000x128, .f32⟩ : BufTy).Contents (Elt F) → (⟨S50000x128, .f32⟩ : BufTy).Contents (Elt F) → (⟨S50000x128, .f32⟩ : BufTy).Contents (Elt F)),
    unary main_v177 main_v178 (Host.tanh : (⟨S50000x128, .f32⟩ : BufTy).Contents (Elt F) → (⟨S50000x128, .f32⟩ : BufTy).Contents (Elt F)) ]

/-- The five windows of the program, each the stages it runs. -/
abbrev opsP0 : List (HloOp τ sig (Elt F)) := opsS ++ (opsB1 ++ (opsB2 ++ opsB3a))
abbrev opsP1 : List (HloOp τ sig (Elt F)) := opsB3b ++ (opsB4 ++ opsB5a)
abbrev opsP2 : List (HloOp τ sig (Elt F)) := opsB5b ++ (opsB6 ++ opsB7a)
abbrev opsP3 : List (HloOp τ sig (Elt F)) := opsB7b ++ (opsB8 ++ (opsC ++ (opsD ++ (opsSp ++ opsBna))))
abbrev opsP4 : List (HloOp τ sig (Elt F)) := opsBnb

/-- The whole program's operations, in order. -/
abbrev ops : List (HloOp τ sig (Elt F)) := opsP0 ++ (opsP1 ++ (opsP2 ++ (opsP3 ++ opsP4)))

set_option maxRecDepth 8192 in
theorem main_part0_eq (c : Dev nD) : main_part0 (F := F) c = seq opsP0 := rfl
set_option maxRecDepth 8192 in
theorem main_part1_eq (c : Dev nD) : main_part1 (F := F) c = seq opsP1 := rfl
set_option maxRecDepth 8192 in
theorem main_part2_eq (c : Dev nD) : main_part2 (F := F) c = seq opsP2 := rfl
set_option maxRecDepth 8192 in
theorem main_part3_eq (c : Dev nD) : main_part3 (F := F) c = seq opsP3 := rfl
set_option maxRecDepth 8192 in
theorem main_part4_eq (c : Dev nD) : main_part4 (F := F) c = seq opsP4 := rfl
set_option maxRecDepth 8192 in
/-- The program is its operations run in order. -/
theorem main_eq (c : Dev nD) : main (F := F) c = seq ops := by
  simp only [ops, seq_append, ← main_part0_eq c, ← main_part1_eq c, ← main_part2_eq c, ← main_part3_eq c, ← main_part4_eq c]
  rfl

/-- A list of operations each of which is as wanted, after another such list. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

end Cert.ReferenceIdeal.RefRun

end
-- ==== Proof.RefRunVal1.lean ====
/- What the stages of the column blocks and the first four strips leave in the buffers: for each stage the buffers it writes, that every other buffer
   keeps its contents through it, and the contents of the buffers later stages read, as the stage's function of
   what it found. -/
import proofs.«125587_j10548439679296_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Each operation of a literal list writes a buffer of the literal list beside it. -/
local macro "writes_in" : tactic =>
  `(tactic| (simp only [List.Forall, nullary_writes, unary_writes, binary_writes, ternary_writes, nary_writes,
                Finset.singleton_subset_iff, List.mem_toFinset]
             repeat' apply And.intro
             all_goals exact List.mem_map_of_mem (by decide)))

abbrev WS : List (Ref sig .tc) := [main_v0, main_v1, main_v2, main_v3, main_v4, main_v5, main_v6, main_v7]
set_option maxRecDepth 8192 in
theorem writesS : (opsS : List (HloOp τ sig (Elt F))).Forall fun op => op.writes ⊆ (WS.map (Proc.devRef (τ := τ) .tc)).toFinset := by
  unfold opsS
  writes_in
/-- A buffer the stage does not write keeps its contents through it. -/
theorem keepS (V : Valuation τ sig (Elt F)) (r : Ref sig .tc) (h : r ∉ WS) :
    after opsS V (no_index (Proc.devRef .tc r)) = V (Proc.devRef .tc r) :=
  after_of_writes_sub opsS V writesS h
set_option maxRecDepth 8192 in
theorem subS : (opsS : List (HloOp τ sig (Elt F))).Forall fun op => op.bufs ⊆ tcRefs τ sig := by
  unfold opsS
  exact ⟨unary_bufs_sub .., unary_bufs_sub .., unary_bufs_sub .., unary_bufs_sub .., unary_bufs_sub .., unary_bufs_sub .., unary_bufs_sub .., unary_bufs_sub ..⟩

abbrev WB1 : List (Ref sig .tc) := [main_cst, main_v8, main_v9, main_cst_0, main_v10, main_v11, main_cst_1, main_v12, main_v13, main_cst_2, main_v14, main_v15, main_cst_3, main_v16, main_v17, main_cst_4, main_v18, main_v19, main_cst_5, main_v20, main_v21, main_cst_6, main_v22, main_v23, main_v24]
set_option maxRecDepth 8192 in
theorem writesB1 : (opsB1 : List (HloOp τ sig (Elt F))).Forall fun op => op.writes ⊆ (WB1.map (Proc.devRef (τ := τ) .tc)).toFinset := by
  unfold opsB1
  writes_in
/-- A buffer the stage does not write keeps its contents through it. -/
theorem keepB1 (V : Valuation τ sig (Elt F)) (r : Ref sig .tc) (h : r ∉ WB1) :
    after opsB1 V (no_index (Proc.devRef .tc r)) = V (Proc.devRef .tc r) :=
  after_of_writes_sub opsB1 V writesB1 h
set_option maxRecDepth 8192 in
theorem subB1 : (opsB1 : List (HloOp τ sig (Elt F))).Forall fun op => op.bufs ⊆ tcRefs τ sig := by
  unfold opsB1
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

abbrev WB2 : List (Ref sig .tc) := [main_cst_7, main_v25, main_v26, main_cst_8, main_v27, main_v28, main_cst_9, main_v29, main_v30, main_cst_10, main_v31, main_v32, main_cst_11, main_v33, main_v34, main_cst_12, main_v35, main_v36, main_cst_13, main_v37, main_v38, main_cst_14, main_v39, main_v40, main_v41]
set_option maxRecDepth 8192 in
theorem writesB2 : (opsB2 : List (HloOp τ sig (Elt F))).Forall fun op => op.writes ⊆ (WB2.map (Proc.devRef (τ := τ) .tc)).toFinset := by
  unfold opsB2
  writes_in
/-- A buffer the stage does not write keeps its contents through it. -/
theorem keepB2 (V : Valuation τ sig (Elt F)) (r : Ref sig .tc) (h : r ∉ WB2) :
    after opsB2 V (no_index (Proc.devRef .tc r)) = V (Proc.devRef .tc r) :=
  after_of_writes_sub opsB2 V writesB2 h
set_option maxRecDepth 8192 in
theorem subB2 : (opsB2 : List (HloOp τ sig (Elt F))).Forall fun op => op.bufs ⊆ tcRefs τ sig := by
  unfold opsB2
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

abbrev WB3a : List (Ref sig .tc) := [main_cst_15, main_v42]
set_option maxRecDepth 8192 in
theorem writesB3a : (opsB3a : List (HloOp τ sig (Elt F))).Forall fun op => op.writes ⊆ (WB3a.map (Proc.devRef (τ := τ) .tc)).toFinset := by
  unfold opsB3a
  writes_in
/-- A buffer the stage does not write keeps its contents through it. -/
theorem keepB3a (V : Valuation τ sig (Elt F)) (r : Ref sig .tc) (h : r ∉ WB3a) :
    after opsB3a V (no_index (Proc.devRef .tc r)) = V (Proc.devRef .tc r) :=
  after_of_writes_sub opsB3a V writesB3a h
set_option maxRecDepth 8192 in
theorem subB3a : (opsB3a : List (HloOp τ sig (Elt F))).Forall fun op => op.bufs ⊆ tcRefs τ sig := by
  unfold opsB3a
  exact ⟨nullary_bufs_sub .., unary_bufs_sub ..⟩

abbrev WB3b : List (Ref sig .tc) := [main_v43, main_cst_16, main_v44, main_v45, main_cst_17, main_v46, main_v47, main_cst_18, main_v48, main_v49, main_cst_19, main_v50, main_v51, main_cst_20, main_v52, main_v53, main_cst_21, main_v54, main_v55, main_cst_22, main_v56, main_v57, main_v58]
set_option maxRecDepth 8192 in
theorem writesB3b : (opsB3b : List (HloOp τ sig (Elt F))).Forall fun op => op.writes ⊆ (WB3b.map (Proc.devRef (τ := τ) .tc)).toFinset := by
  unfold opsB3b
  writes_in
/-- A buffer the stage does not write keeps its contents through it. -/
theorem keepB3b (V : Valuation τ sig (Elt F)) (r : Ref sig .tc) (h : r ∉ WB3b) :
    after opsB3b V (no_index (Proc.devRef .tc r)) = V (Proc.devRef .tc r) :=
  after_of_writes_sub opsB3b V writesB3b h
set_option maxRecDepth 8192 in
theorem subB3b : (opsB3b : List (HloOp τ sig (Elt F))).Forall fun op => op.bufs ⊆ tcRefs τ sig := by
  unfold opsB3b
  exact ⟨binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

abbrev WB4 : List (Ref sig .tc) := [main_cst_23, main_v59, main_v60, main_cst_24, main_v61, main_v62, main_cst_25, main_v63, main_v64, main_cst_26, main_v65, main_v66, main_cst_27, main_v67, main_v68, main_cst_28, main_v69, main_v70, main_cst_29, main_v71, main_v72, main_cst_30, main_v73, main_v74, main_v75]
set_option maxRecDepth 8192 in
theorem writesB4 : (opsB4 : List (HloOp τ sig (Elt F))).Forall fun op => op.writes ⊆ (WB4.map (Proc.devRef (τ := τ) .tc)).toFinset := by
  unfold opsB4
  writes_in
/-- A buffer the stage does not write keeps its contents through it. -/
theorem keepB4 (V : Valuation τ sig (Elt F)) (r : Ref sig .tc) (h : r ∉ WB4) :
    after opsB4 V (no_index (Proc.devRef .tc r)) = V (Proc.devRef .tc r) :=
  after_of_writes_sub opsB4 V writesB4 h
set_option maxRecDepth 8192 in
theorem subB4 : (opsB4 : List (HloOp τ sig (Elt F))).Forall fun op => op.bufs ⊆ tcRefs τ sig := by
  unfold opsB4
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

theorem outS0 (V : Valuation τ sig (Elt F)) : after opsS V (no_index (Proc.devRef .tc main_v0)) = sl0 (V (Proc.devRef .tc main_arg4)) := by
  simp only [opsS]
  after_results_simp
  try dsimp only [Matrix.cons_val]
  try after_results_simp
  try rfl

theorem outS1 (V : Valuation τ sig (Elt F)) : after opsS V (no_index (Proc.devRef .tc main_v1)) = sl1 (V (Proc.devRef .tc main_arg4)) := by
  simp only [opsS]
  after_results_simp
  try dsimp only [Matrix.cons_val]
  try after_results_simp
  try rfl

theorem outS2 (V : Valuation τ sig (Elt F)) : after opsS V (no_index (Proc.devRef .tc main_v2)) = sl2 (V (Proc.devRef .tc main_arg4)) := by
  simp only [opsS]
  after_results_simp
  try dsimp only [Matrix.cons_val]
  try after_results_simp
  try rfl

theorem outS3 (V : Valuation τ sig (Elt F)) : after opsS V (no_index (Proc.devRef .tc main_v3)) = sl3 (V (Proc.devRef .tc main_arg4)) := by
  simp only [opsS]
  after_results_simp
  try dsimp only [Matrix.cons_val]
  try after_results_simp
  try rfl

theorem outS4 (V : Valuation τ sig (Elt F)) : after opsS V (no_index (Proc.devRef .tc main_v4)) = sl4 (V (Proc.devRef .tc main_arg4)) := by
  simp only [opsS]
  after_results_simp
  try dsimp only [Matrix.cons_val]
  try after_results_simp
  try rfl

theorem outS5 (V : Valuation τ sig (Elt F)) : after opsS V (no_index (Proc.devRef .tc main_v5)) = sl5 (V (Proc.devRef .tc main_arg4)) := by
  simp only [opsS]
  after_results_simp
  try dsimp only [Matrix.cons_val]
  try after_results_simp
  try rfl

theorem outS6 (V : Valuation τ sig (Elt F)) : after opsS V (no_index (Proc.devRef .tc main_v6)) = sl6 (V (Proc.devRef .tc main_arg4)) := by
  simp only [opsS]
  after_results_simp
  try dsimp only [Matrix.cons_val]
  try after_results_simp
  try rfl

theorem outS7 (V : Valuation τ sig (Elt F)) : after opsS V (no_index (Proc.devRef .tc main_v7)) = sl7 (V (Proc.devRef .tc main_arg4)) := by
  simp only [opsS]
  after_results_simp
  try dsimp only [Matrix.cons_val]
  try after_results_simp
  try rfl

set_option maxRecDepth 8192 in
/-- Strip 1: the eight signed blocks, stacked. -/
theorem outB1 (V : Valuation τ sig (Elt F)) : after opsB1 V (no_index (Proc.devRef .tc main_v24)) =
    cat0 (pos (V (Proc.devRef .tc main_v0))) (neg (V (Proc.devRef .tc main_v1))) (neg (V (Proc.devRef .tc main_v2))) (neg (V (Proc.devRef .tc main_v3))) (neg (V (Proc.devRef .tc main_v4))) (neg (V (Proc.devRef .tc main_v5))) (neg (V (Proc.devRef .tc main_v6))) (neg (V (Proc.devRef .tc main_v7))) := by
  simp only [opsB1]
  after_results_simp
  try dsimp only [Matrix.cons_val]
  try after_results_simp
  try rfl

set_option maxRecDepth 8192 in
/-- Strip 2: the eight signed blocks, stacked. -/
theorem outB2 (V : Valuation τ sig (Elt F)) : after opsB2 V (no_index (Proc.devRef .tc main_v41)) =
    cat0 (pos (V (Proc.devRef .tc main_v1))) (pos (V (Proc.devRef .tc main_v0))) (neg (V (Proc.devRef .tc main_v3))) (pos (V (Proc.devRef .tc main_v2))) (neg (V (Proc.devRef .tc main_v5))) (pos (V (Proc.devRef .tc main_v4))) (pos (V (Proc.devRef .tc main_v7))) (neg (V (Proc.devRef .tc main_v6))) := by
  simp only [opsB2]
  after_results_simp
  try dsimp only [Matrix.cons_val]
  try after_results_simp
  try rfl

set_option maxRecDepth 8192 in
/-- Strip 3: the eight signed blocks, stacked. -/
theorem outB3 (V : Valuation τ sig (Elt F)) : after opsB3b (after opsB3a V) (no_index (Proc.devRef .tc main_v58)) =
    cat0 (pos (V (Proc.devRef .tc main_v2))) (pos (V (Proc.devRef .tc main_v3))) (pos (V (Proc.devRef .tc main_v0))) (neg (V (Proc.devRef .tc main_v1))) (neg (V (Proc.devRef .tc main_v6))) (neg (V (Proc.devRef .tc main_v7))) (pos (V (Proc.devRef .tc main_v4))) (pos (V (Proc.devRef .tc main_v5))) := by
  simp only [opsB3a, opsB3b]
  after_results_simp
  try dsimp only [Matrix.cons_val]
  try after_results_simp
  try rfl

set_option maxRecDepth 8192 in
/-- Strip 4: the eight signed blocks, stacked. -/
theorem outB4 (V : Valuation τ sig (Elt F)) : after opsB4 V (no_index (Proc.devRef .tc main_v75)) =
    cat0 (pos (V (Proc.devRef .tc main_v3))) (neg (V (Proc.devRef .tc main_v2))) (pos (V (Proc.devRef .tc main_v1))) (pos (V (Proc.devRef .tc main_v0))) (neg (V (Proc.devRef .tc main_v7))) (pos (V (Proc.devRef .tc main_v6))) (neg (V (Proc.devRef .tc main_v5))) (pos (V (Proc.devRef .tc main_v4))) := by
  simp only [opsB4]
  after_results_simp
  try dsimp only [Matrix.cons_val]
  try after_results_simp
  try rfl

end Cert.ReferenceIdeal.RefRun

end
-- ==== Proof.RefRunVal2.lean ====
/- What the stages of the last four strips leave in the buffers: for each stage the buffers it writes, that every other buffer
   keeps its contents through it, and the contents of the buffers later stages read, as the stage's function of
   what it found. -/
import proofs.«125587_j10548439679296_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Each operation of a literal list writes a buffer of the literal list beside it. -/
local macro "writes_in" : tactic =>
  `(tactic| (simp only [List.Forall, nullary_writes, unary_writes, binary_writes, ternary_writes, nary_writes,
                Finset.singleton_subset_iff, List.mem_toFinset]
             repeat' apply And.intro
             all_goals exact List.mem_map_of_mem (by decide)))

abbrev WB5a : List (Ref sig .tc) := [main_cst_31, main_v76, main_v77, main_cst_32, main_v78, main_v79, main_cst_33, main_v80, main_v81, main_cst_34, main_v82, main_v83]
set_option maxRecDepth 8192 in
theorem writesB5a : (opsB5a : List (HloOp τ sig (Elt F))).Forall fun op => op.writes ⊆ (WB5a.map (Proc.devRef (τ := τ) .tc)).toFinset := by
  unfold opsB5a
  writes_in
/-- A buffer the stage does not write keeps its contents through it. -/
theorem keepB5a (V : Valuation τ sig (Elt F)) (r : Ref sig .tc) (h : r ∉ WB5a) :
    after opsB5a V (no_index (Proc.devRef .tc r)) = V (Proc.devRef .tc r) :=
  after_of_writes_sub opsB5a V writesB5a h
set_option maxRecDepth 8192 in
theorem subB5a : (opsB5a : List (HloOp τ sig (Elt F))).Forall fun op => op.bufs ⊆ tcRefs τ sig := by
  unfold opsB5a
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

abbrev WB5b : List (Ref sig .tc) := [main_cst_35, main_v84, main_v85, main_cst_36, main_v86, main_v87, main_cst_37, main_v88, main_v89, main_cst_38, main_v90, main_v91, main_v92]
set_option maxRecDepth 8192 in
theorem writesB5b : (opsB5b : List (HloOp τ sig (Elt F))).Forall fun op => op.writes ⊆ (WB5b.map (Proc.devRef (τ := τ) .tc)).toFinset := by
  unfold opsB5b
  writes_in
/-- A buffer the stage does not write keeps its contents through it. -/
theorem keepB5b (V : Valuation τ sig (Elt F)) (r : Ref sig .tc) (h : r ∉ WB5b) :
    after opsB5b V (no_index (Proc.devRef .tc r)) = V (Proc.devRef .tc r) :=
  after_of_writes_sub opsB5b V writesB5b h
set_option maxRecDepth 8192 in
theorem subB5b : (opsB5b : List (HloOp τ sig (Elt F))).Forall fun op => op.bufs ⊆ tcRefs τ sig := by
  unfold opsB5b
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

abbrev WB6 : List (Ref sig .tc) := [main_cst_39, main_v93, main_v94, main_cst_40, main_v95, main_v96, main_cst_41, main_v97, main_v98, main_cst_42, main_v99, main_v100, main_cst_43, main_v101, main_v102, main_cst_44, main_v103, main_v104, main_cst_45, main_v105, main_v106, main_cst_46, main_v107, main_v108, main_v109]
set_option maxRecDepth 8192 in
theorem writesB6 : (opsB6 : List (HloOp τ sig (Elt F))).Forall fun op => op.writes ⊆ (WB6.map (Proc.devRef (τ := τ) .tc)).toFinset := by
  unfold opsB6
  writes_in
/-- A buffer the stage does not write keeps its contents through it. -/
theorem keepB6 (V : Valuation τ sig (Elt F)) (r : Ref sig .tc) (h : r ∉ WB6) :
    after opsB6 V (no_index (Proc.devRef .tc r)) = V (Proc.devRef .tc r) :=
  after_of_writes_sub opsB6 V writesB6 h
set_option maxRecDepth 8192 in
theorem subB6 : (opsB6 : List (HloOp τ sig (Elt F))).Forall fun op => op.bufs ⊆ tcRefs τ sig := by
  unfold opsB6
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

abbrev WB7a : List (Ref sig .tc) := [main_cst_47, main_v110, main_v111, main_cst_48, main_v112, main_v113, main_cst_49, main_v114, main_v115, main_cst_50, main_v116, main_v117, main_cst_51, main_v118, main_v119, main_cst_52, main_v120, main_v121, main_cst_53, main_v122, main_v123, main_cst_54]
set_option maxRecDepth 8192 in
theorem writesB7a : (opsB7a : List (HloOp τ sig (Elt F))).Forall fun op => op.writes ⊆ (WB7a.map (Proc.devRef (τ := τ) .tc)).toFinset := by
  unfold opsB7a
  writes_in
/-- A buffer the stage does not write keeps its contents through it. -/
theorem keepB7a (V : Valuation τ sig (Elt F)) (r : Ref sig .tc) (h : r ∉ WB7a) :
    after opsB7a V (no_index (Proc.devRef .tc r)) = V (Proc.devRef .tc r) :=
  after_of_writes_sub opsB7a V writesB7a h
set_option maxRecDepth 8192 in
theorem subB7a : (opsB7a : List (HloOp τ sig (Elt F))).Forall fun op => op.bufs ⊆ tcRefs τ sig := by
  unfold opsB7a
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩

abbrev WB7b : List (Ref sig .tc) := [main_v124, main_v125, main_v126]
set_option maxRecDepth 8192 in
theorem writesB7b : (opsB7b : List (HloOp τ sig (Elt F))).Forall fun op => op.writes ⊆ (WB7b.map (Proc.devRef (τ := τ) .tc)).toFinset := by
  unfold opsB7b
  writes_in
/-- A buffer the stage does not write keeps its contents through it. -/
theorem keepB7b (V : Valuation τ sig (Elt F)) (r : Ref sig .tc) (h : r ∉ WB7b) :
    after opsB7b V (no_index (Proc.devRef .tc r)) = V (Proc.devRef .tc r) :=
  after_of_writes_sub opsB7b V writesB7b h
set_option maxRecDepth 8192 in
theorem subB7b : (opsB7b : List (HloOp τ sig (Elt F))).Forall fun op => op.bufs ⊆ tcRefs τ sig := by
  unfold opsB7b
  exact ⟨unary_bufs_sub .., binary_bufs_sub .., nary_bufs_sub ..⟩

abbrev WB8 : List (Ref sig .tc) := [main_cst_55, main_v127, main_v128, main_cst_56, main_v129, main_v130, main_cst_57, main_v131, main_v132, main_cst_58, main_v133, main_v134, main_cst_59, main_v135, main_v136, main_cst_60, main_v137, main_v138, main_cst_61, main_v139, main_v140, main_cst_62, main_v141, main_v142, main_v143]
set_option maxRecDepth 8192 in
theorem writesB8 : (opsB8 : List (HloOp τ sig (Elt F))).Forall fun op => op.writes ⊆ (WB8.map (Proc.devRef (τ := τ) .tc)).toFinset := by
  unfold opsB8
  writes_in
/-- A buffer the stage does not write keeps its contents through it. -/
theorem keepB8 (V : Valuation τ sig (Elt F)) (r : Ref sig .tc) (h : r ∉ WB8) :
    after opsB8 V (no_index (Proc.devRef .tc r)) = V (Proc.devRef .tc r) :=
  after_of_writes_sub opsB8 V writesB8 h
set_option maxRecDepth 8192 in
theorem subB8 : (opsB8 : List (HloOp τ sig (Elt F))).Forall fun op => op.bufs ⊆ tcRefs τ sig := by
  unfold opsB8
  exact ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub ..⟩

set_option maxRecDepth 8192 in
/-- Strip 5: the eight signed blocks, stacked. -/
theorem outB5 (V : Valuation τ sig (Elt F)) : after opsB5b (after opsB5a V) (no_index (Proc.devRef .tc main_v92)) =
    cat0 (pos (V (Proc.devRef .tc main_v4))) (pos (V (Proc.devRef .tc main_v5))) (pos (V (Proc.devRef .tc main_v6))) (pos (V (Proc.devRef .tc main_v7))) (pos (V (Proc.devRef .tc main_v0))) (neg (V (Proc.devRef .tc main_v1))) (neg (V (Proc.devRef .tc main_v2))) (neg (V (Proc.devRef .tc main_v3))) := by
  simp only [opsB5a, opsB5b]
  after_results_simp
  try dsimp only [Matrix.cons_val]
  try after_results_simp
  try rfl

set_option maxRecDepth 8192 in
/-- Strip 6: the eight signed blocks, stacked. -/
theorem outB6 (V : Valuation τ sig (Elt F)) : after opsB6 V (no_index (Proc.devRef .tc main_v109)) =
    cat0 (pos (V (Proc.devRef .tc main_v5))) (neg (V (Proc.devRef .tc main_v4))) (pos (V (Proc.devRef .tc main_v7))) (neg (V (Proc.devRef .tc main_v6))) (pos (V (Proc.devRef .tc main_v1))) (pos (V (Proc.devRef .tc main_v0))) (pos (V (Proc.devRef .tc main_v3))) (neg (V (Proc.devRef .tc main_v2))) := by
  simp only [opsB6]
  after_results_simp
  try dsimp only [Matrix.cons_val]
  try after_results_simp
  try rfl

set_option maxRecDepth 8192 in
/-- Strip 7: the eight signed blocks, stacked. -/
theorem outB7 (V : Valuation τ sig (Elt F)) : after opsB7b (after opsB7a V) (no_index (Proc.devRef .tc main_v126)) =
    cat0 (pos (V (Proc.devRef .tc main_v6))) (neg (V (Proc.devRef .tc main_v7))) (neg (V (Proc.devRef .tc main_v4))) (pos (V (Proc.devRef .tc main_v5))) (pos (V (Proc.devRef .tc main_v2))) (neg (V (Proc.devRef .tc main_v3))) (pos (V (Proc.devRef .tc main_v0))) (pos (V (Proc.devRef .tc main_v1))) := by
  simp only [opsB7a, opsB7b]
  after_results_simp
  try dsimp only [Matrix.cons_val]
  try after_results_simp
  try rfl

set_option maxRecDepth 8192 in
/-- Strip 8: the eight signed blocks, stacked. -/
theorem outB8 (V : Valuation τ sig (Elt F)) : after opsB8 V (no_index (Proc.devRef .tc main_v143)) =
    cat0 (pos (V (Proc.devRef .tc main_v7))) (pos (V (Proc.devRef .tc main_v6))) (neg (V (Proc.devRef .tc main_v5))) (neg (V (Proc.devRef .tc main_v4))) (pos (V (Proc.devRef .tc main_v3))) (pos (V (Proc.devRef .tc main_v2))) (neg (V (Proc.devRef .tc main_v1))) (pos (V (Proc.devRef .tc main_v0))) := by
  simp only [opsB8]
  after_results_simp
  try dsimp only [Matrix.cons_val]
  try after_results_simp
  try rfl

end Cert.ReferenceIdeal.RefRun

end
-- ==== Proof.RefRunVal3.lean ====
/- What the stages of the matrix, the product, the sparse product and the normalisation leave in the buffers: for each stage the buffers it writes, that every other buffer
   keeps its contents through it, and the contents of the buffers later stages read, as the stage's function of
   what it found. -/
import proofs.«125587_j10548439679296_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Each operation of a literal list writes a buffer of the literal list beside it. -/
local macro "writes_in" : tactic =>
  `(tactic| (simp only [List.Forall, nullary_writes, unary_writes, binary_writes, ternary_writes, nary_writes,
                Finset.singleton_subset_iff, List.mem_toFinset]
             repeat' apply And.intro
             all_goals exact List.mem_map_of_mem (by decide)))

abbrev WC : List (Ref sig .tc) := [main_v144]
set_option maxRecDepth 8192 in
theorem writesC : (opsC : List (HloOp τ sig (Elt F))).Forall fun op => op.writes ⊆ (WC.map (Proc.devRef (τ := τ) .tc)).toFinset := by
  unfold opsC
  writes_in
/-- A buffer the stage does not write keeps its contents through it. -/
theorem keepC (V : Valuation τ sig (Elt F)) (r : Ref sig .tc) (h : r ∉ WC) :
    after opsC V (no_index (Proc.devRef .tc r)) = V (Proc.devRef .tc r) :=
  after_of_writes_sub opsC V writesC h
set_option maxRecDepth 8192 in
theorem subC : (opsC : List (HloOp τ sig (Elt F))).Forall fun op => op.bufs ⊆ tcRefs τ sig := by
  unfold opsC
  exact nary_bufs_sub ..

abbrev WD : List (Ref sig .tc) := [main_v145]
set_option maxRecDepth 8192 in
theorem writesD : (opsD : List (HloOp τ sig (Elt F))).Forall fun op => op.writes ⊆ (WD.map (Proc.devRef (τ := τ) .tc)).toFinset := by
  unfold opsD
  writes_in
/-- A buffer the stage does not write keeps its contents through it. -/
theorem keepD (V : Valuation τ sig (Elt F)) (r : Ref sig .tc) (h : r ∉ WD) :
    after opsD V (no_index (Proc.devRef .tc r)) = V (Proc.devRef .tc r) :=
  after_of_writes_sub opsD V writesD h
set_option maxRecDepth 8192 in
theorem subD : (opsD : List (HloOp τ sig (Elt F))).Forall fun op => op.bufs ⊆ tcRefs τ sig := by
  unfold opsD
  exact binary_bufs_sub ..

abbrev WSp : List (Ref sig .tc) := [main_v146, main_c, main_v147, main_v148, main_c_63, main_v149, main_v150, main_v151, main_v152, main_v153, main_v154, main_v155, main_cst_64, main_v156, main_v157, main_v158]
set_option maxRecDepth 8192 in
theorem writesSp : (opsSp : List (HloOp τ sig (Elt F))).Forall fun op => op.writes ⊆ (WSp.map (Proc.devRef (τ := τ) .tc)).toFinset := by
  unfold opsSp
  writes_in
/-- A buffer the stage does not write keeps its contents through it. -/
theorem keepSp (V : Valuation τ sig (Elt F)) (r : Ref sig .tc) (h : r ∉ WSp) :
    after opsSp V (no_index (Proc.devRef .tc r)) = V (Proc.devRef .tc r) :=
  after_of_writes_sub opsSp V writesSp h
set_option maxRecDepth 8192 in
theorem subSp : (opsSp : List (HloOp τ sig (Elt F))).Forall fun op => op.bufs ⊆ tcRefs τ sig := by
  unfold opsSp
  exact ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

abbrev WBna : List (Ref sig .tc) := [main_cst_65, main_v159, main_cst_66, main_v160, main_v161, main_c_67, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v162, main_v163, main_v164, main_v165, main_cst_68, main_v166, main_v167, main_v168]
set_option maxRecDepth 8192 in
theorem writesBna : (opsBna : List (HloOp τ sig (Elt F))).Forall fun op => op.writes ⊆ (WBna.map (Proc.devRef (τ := τ) .tc)).toFinset := by
  unfold opsBna
  writes_in
/-- A buffer the stage does not write keeps its contents through it. -/
theorem keepBna (V : Valuation τ sig (Elt F)) (r : Ref sig .tc) (h : r ∉ WBna) :
    after opsBna V (no_index (Proc.devRef .tc r)) = V (Proc.devRef .tc r) :=
  after_of_writes_sub opsBna V writesBna h
set_option maxRecDepth 8192 in
theorem subBna : (opsBna : List (HloOp τ sig (Elt F))).Forall fun op => op.bufs ⊆ tcRefs τ sig := by
  unfold opsBna
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩

abbrev WBnb : List (Ref sig .tc) := [main_v169, main_v170, main_v171, main_v172, main_v173, main_v174, main_v175, main_v176, main_v177, main_v178]
set_option maxRecDepth 8192 in
theorem writesBnb : (opsBnb : List (HloOp τ sig (Elt F))).Forall fun op => op.writes ⊆ (WBnb.map (Proc.devRef (τ := τ) .tc)).toFinset := by
  unfold opsBnb
  writes_in
/-- A buffer the stage does not write keeps its contents through it. -/
theorem keepBnb (V : Valuation τ sig (Elt F)) (r : Ref sig .tc) (h : r ∉ WBnb) :
    after opsBnb V (no_index (Proc.devRef .tc r)) = V (Proc.devRef .tc r) :=
  after_of_writes_sub opsBnb V writesBnb h
set_option maxRecDepth 8192 in
theorem subBnb : (opsBnb : List (HloOp τ sig (Elt F))).Forall fun op => op.bufs ⊆ tcRefs τ sig := by
  unfold opsBnb
  exact ⟨unary_bufs_sub .., unary_bufs_sub .., binary_bufs_sub .., unary_bufs_sub .., unary_bufs_sub .., binary_bufs_sub .., unary_bufs_sub .., unary_bufs_sub .., binary_bufs_sub .., unary_bufs_sub ..⟩

set_option maxRecDepth 8192 in
theorem outC (V : Valuation τ sig (Elt F)) : after opsC V (no_index (Proc.devRef .tc main_v144)) =
    cat1 (V (Proc.devRef .tc main_v24)) (V (Proc.devRef .tc main_v41)) (V (Proc.devRef .tc main_v58)) (V (Proc.devRef .tc main_v75)) (V (Proc.devRef .tc main_v92)) (V (Proc.devRef .tc main_v109)) (V (Proc.devRef .tc main_v126)) (V (Proc.devRef .tc main_v143)) := by
  simp only [opsC]
  after_results_simp
  try dsimp only [Matrix.cons_val]
  try after_results_simp
  try rfl

theorem outD (V : Valuation τ sig (Elt F)) : after opsD V (no_index (Proc.devRef .tc main_v145)) =
    Host.dotGeneral dot_S50000x128_S128x128_S50000x128_1_0_0_1_n_n none (V (Proc.devRef .tc main_arg0)) (V (Proc.devRef .tc main_v144)) := by
  simp only [opsD]
  after_results_simp
  try dsimp only [Matrix.cons_val]
  try after_results_simp
  try rfl

set_option maxRecDepth 8192 in
theorem outSp (V : Valuation τ sig (Elt F)) : after opsSp V (no_index (Proc.devRef .tc main_v158)) =
    spmm (V (Proc.devRef .tc main_v145)) (V (Proc.devRef .tc main_arg1)) (V (Proc.devRef .tc main_arg2)) (V (Proc.devRef .tc main_arg3)) := by
  simp only [opsSp]
  after_results_simp
  try dsimp only [Matrix.cons_val]
  try after_results_simp
  try rfl

set_option maxRecDepth 8192 in
theorem outBn (V : Valuation τ sig (Elt F)) : after opsBnb (after opsBna V) (no_index (Proc.devRef .tc main_v178)) =
    bnTanh (V (Proc.devRef .tc main_v158)) (V (Proc.devRef .tc main_arg5)) (V (Proc.devRef .tc main_arg6)) := by
  simp only [opsBna, opsBnb]
  after_results_simp
  try dsimp only [Matrix.cons_val]
  try after_results_simp
  try rfl

end Cert.ReferenceIdeal.RefRun

end
-- ==== Proof.RefRun.lean ====
/- The reference program's run: every weakly fair execution terminates with the result buffer holding the
   composition of the three pure functions of the arguments' launch contents, and the arguments unchanged. -/
import proofs.«125587_j10548439679296_1_alg».proof.Proof.RefRunVal1
import proofs.«125587_j10548439679296_1_alg».proof.Proof.RefRunVal2
import proofs.«125587_j10548439679296_1_alg».proof.Proof.RefRunVal3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The whole run -/

/-- Two lists of operations run one after the other leave what the second leaves from what the first left. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app subS (forall_app subB1 (forall_app subB2 subB3a)))
    (forall_app (forall_app subB3b (forall_app subB4 subB5a))
      (forall_app (forall_app subB5b (forall_app subB6 subB7a))
        (forall_app (forall_app subB7b (forall_app subB8 (forall_app subC (forall_app subD (forall_app subSp subBna))))) subBnb)))

set_option maxRecDepth 8192 in
/-- The result buffer after the whole program: the three functions composed, of the arguments. -/
theorem out_eq (V : Valuation τ sig (Elt F)) : after ops V (Proc.devRef .tc main_v178) =
    out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp (disch := decide) only [ops, opsP0, opsP1, opsP2, opsP3, opsP4, after_app, outBn, outSp, outD, outC, outB1, outB2, outB3, outB4, outB5, outB6, outB7, outB8, outS0, outS1, outS2, outS3, outS4, outS5, outS6, outS7, keepS, keepB1, keepB2, keepB3a, keepB3b, keepB4, keepB5a, keepB5b, keepB6, keepB7a, keepB7b, keepB8, keepC, keepD, keepSp, keepBna, keepBnb]
  rfl

set_option maxRecDepth 8192 in
/-- No operation writes argument 0. -/
theorem arg0_eq (V : Valuation τ sig (Elt F)) : after ops V (Proc.devRef .tc main_arg0) = V (Proc.devRef .tc main_arg0) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 1. -/
theorem arg1_eq (V : Valuation τ sig (Elt F)) : after ops V (Proc.devRef .tc main_arg1) = V (Proc.devRef .tc main_arg1) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 2. -/
theorem arg2_eq (V : Valuation τ sig (Elt F)) : after ops V (Proc.devRef .tc main_arg2) = V (Proc.devRef .tc main_arg2) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 3. -/
theorem arg3_eq (V : Valuation τ sig (Elt F)) : after ops V (Proc.devRef .tc main_arg3) = V (Proc.devRef .tc main_arg3) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 4. -/
theorem arg4_eq (V : Valuation τ sig (Elt F)) : after ops V (Proc.devRef .tc main_arg4) = V (Proc.devRef .tc main_arg4) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 5. -/
theorem arg5_eq (V : Valuation τ sig (Elt F)) : after ops V (Proc.devRef .tc main_arg5) = V (Proc.devRef .tc main_arg5) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- No operation writes argument 6. -/
theorem arg6_eq (V : Valuation τ sig (Elt F)) : after ops V (Proc.devRef .tc main_arg6) = V (Proc.devRef .tc main_arg6) := by
  simp (disch := decide) only [ops, opsP0, opsP1, opsP2, opsP3, opsP4, after_app, keepS, keepB1, keepB2, keepB3a, keepB3b, keepB4, keepB5a, keepB5b, keepB6, keepB7a, keepB7b, keepB8, keepC, keepD, keepSp, keepBna, keepBnb]

set_option maxRecDepth 8192 in
/-- On every device, from any memory with zero counters: every weakly fair execution of the program
    terminates, the result buffer holding `out` of the arguments' launch contents and the arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v178) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v178).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.KHost.lean ====
/-
  What the three host stretches of the kernel program leave, at the exact instance, in the buffers the
  regions then read: after the first stretch the 128 by 128 Hamilton matrix built from the weight
  (the same slices, signed copies and concatenations the reference applies); after the second the
  aggregated features, the same gather / scale / scatter-add the reference applies to the product;
  after the third the column means, the reciprocal standard deviations and the scale and shift rows.
-/
import proofs.«125587_j10548439679296_1_alg».proof.Proof.Gen.KernelIdeal.Launch
import proofs.«125587_j10548439679296_1_alg».proof.Proof.Gen.KernelIdeal.Skeleton
import proofs.«125587_j10548439679296_1_alg».proof.Proof.Gen.KernelIdeal.Points
import proofs.«125587_j10548439679296_1_alg».proof.Proof.KRun
import proofs.«125587_j10548439679296_1_alg».proof.Proof.KFrame
import proofs.«125587_j10548439679296_1_alg».proof.Proof.RefRunDefs
import Idealize.ShloMosaic.Lib.StableHlo.Run
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HandHost

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo

section Nary8
variable {nD' : Nat} {τ' : Topo} {sig' : RefSig} {Val : EltTy → Type}
variable {x0 x1 x2 x3 x4 x5 x6 x7 y : Ref sig' .tc}

/-- A concatenation of eight operands: its result with each operand's contents at its own reference. -/
theorem nary8_result
    (f : ((k : Fin 8) → ((![x0, x1, x2, x3, x4, x5, x6, x7] : Fin 8 → Ref sig' .tc) k).ty.Contents Val) → y.ty.Contents Val) (hxs hy)
    (G : Valuation τ' sig' Val) :
    (StableHlo.nary (τ := τ') ![x0, x1, x2, x3, x4, x5, x6, x7] y f hxs hy).result G (Proc.devRef .tc y)
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (Fin.cons (G (Proc.devRef .tc x7)) (fun i => i.elim0))))))))) := by
  rw [StableHlo.nary_result]; congr 1; funext k; fin_cases k <;> rfl
theorem nary8_result'
    (f : ((k : Fin 8) → ((![x0, x1, x2, x3, x4, x5, x6, x7] : Fin 8 → Ref sig' .tc) k).ty.Contents Val) → y.ty.Contents Val) (hxs hy)
    (G : Valuation τ' sig' Val) :
    (StableHlo.nary (τ := τ') ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (Fin.cons (G (Proc.devRef .tc x7)) (fun i => i.elim0))))))))) :=
  nary8_result f hxs hy G
end Nary8

/-- The host stretch's results by one rewriting pass, concatenations of eight operands included. -/
macro "after_results8" : tactic =>
  `(tactic| (simp (disch := decide) only [StableHlo.after_cons, StableHlo.after_nil,
      StableHlo.nullary_result', StableHlo.unary_result', StableHlo.binary_result', StableHlo.ternary_result', StableHlo.reshape_result', nary8_result',
      StableHlo.nullary_result_ne', StableHlo.unary_result_ne', StableHlo.binary_result_ne', StableHlo.ternary_result_ne', StableHlo.reshape_result_ne',
      StableHlo.nary_result_ne']))

variable (m : (ℓ : Loc nD τ sig) → Buf (Elt Ideal) ℓ) (ρ : Dev nD → PrngReg)

/-- After the first stretch the matrix buffer holds the Hamilton matrix of the weight argument. -/
theorem W1_v144 (c : Dev nD) :
    W1 m ρ c (Proc.devRef .tc main_v144) = Cert.ReferenceIdeal.RefRun.ham (F := Ideal) (m ((c : Thread nD τ).loc main_arg4)) := by
  unfold W1
  after_results8
  rfl

/-! ## After the second stretch -/

/-- The aggregated features: the gather / scale / scatter-add of the product buffer and the three edge arrays. -/
theorem W3_v158 (c : Dev nD) :
    W3 m ρ c (Proc.devRef .tc main_v158)
      = Cert.ReferenceIdeal.RefRun.spmm (F := Ideal) (W2 m ρ c (Proc.devRef .tc main_v145)) (W2 m ρ c (Proc.devRef .tc main_arg1))
          (W2 m ρ c (Proc.devRef .tc main_arg2)) (W2 m ρ c (Proc.devRef .tc main_arg3)) := by
  unfold W3
  after_results8
  rfl

/-! ## After the third stretch -/

/-- A column total divided by the row count. -/
def meanRow (s : (⟨S1x128, .f32⟩ : BufTy).Contents (Elt Ideal)) : (⟨S1x128, .f32⟩ : BufTy).Contents (Elt Ideal) :=
  Host.divf s (broadcastInDim S1x128 ![] bcast_S_S1x128 (constant (F := Ideal) S_ .f32 0x47435000#32))
/-- One over the root of (mean of squares minus squared mean, plus the small constant). -/
def invRow (s q : (⟨S1x128, .f32⟩ : BufTy).Contents (Elt Ideal)) : (⟨S1x128, .f32⟩ : BufTy).Contents (Elt Ideal) :=
  Host.divf (broadcastInDim S1x128 ![] bcast_S_S1x128 (constant (F := Ideal) S_ .f32 0x3F800000#32))
    (Host.sqrt (addf (subf (Host.divf q (broadcastInDim S1x128 ![] bcast_S_S1x128 (constant (F := Ideal) S_ .f32 0x47435000#32)))
        (mulf (meanRow s) (meanRow s)))
      (broadcastInDim S1x128 ![] bcast_S_S1x128 (constant (F := Ideal) S_ .f32 0x3727C5AC#32))))
/-- A vector of 128 entries as one row. -/
def asRow (g : (⟨S128, .f32⟩ : BufTy).Contents (Elt Ideal)) : (⟨S1x128, .f32⟩ : BufTy).Contents (Elt Ideal) :=
  shapeCast S1x128 g shapeCasts_S128_S1x128

theorem W5_v161 (c : Dev nD) : W5 m ρ c (Proc.devRef .tc main_v161) = meanRow (W4 m ρ c (Proc.devRef .tc main_v159_0)) := by
  unfold W5
  after_results8
  rfl
theorem W5_v170 (c : Dev nD) :
    W5 m ρ c (Proc.devRef .tc main_v170) = invRow (W4 m ρ c (Proc.devRef .tc main_v159_0)) (W4 m ρ c (Proc.devRef .tc main_v159_1)) := by
  unfold W5
  after_results8
  rfl
theorem W5_v171 (c : Dev nD) : W5 m ρ c (Proc.devRef .tc main_v171) = asRow (W4 m ρ c (Proc.devRef .tc main_arg5)) := by
  unfold W5
  after_results8
  rfl
theorem W5_v172 (c : Dev nD) : W5 m ρ c (Proc.devRef .tc main_v172) = asRow (W4 m ρ c (Proc.devRef .tc main_arg6)) := by
  unfold W5
  after_results8
  rfl
theorem W5_main_v158 (c : Dev nD) : W5 m ρ c (Proc.devRef .tc main_v158) = W4 m ρ c (Proc.devRef .tc main_v158) := by
  unfold W5
  exact StableHlo.after_of_forall_not_mem (b := Proc.devRef .tc main_v158) _ _ (List.forall_iff_forall_mem.mp (by
    simp only [hostOps2, List.Forall, StableHlo.nullary_writes, StableHlo.unary_writes, StableHlo.binary_writes, StableHlo.ternary_writes,
      StableHlo.nary_writes, StableHlo.reshape_writes, Finset.mem_singleton]
    repeat' apply And.intro
    all_goals exact StableHlo.devRef_ne_of_ne (by decide)))

/-! ## The arguments at the intermediate boundaries -/
theorem W2_arg1 (c : Dev nD) : W2 m ρ c (Proc.devRef .tc main_arg1) = m ((c : Thread nD τ).loc main_arg1) :=
  (W2_of_ne m ρ c main_arg1 (by decide)).trans (W1_main_arg1 m ρ c)
theorem W2_arg2 (c : Dev nD) : W2 m ρ c (Proc.devRef .tc main_arg2) = m ((c : Thread nD τ).loc main_arg2) :=
  (W2_of_ne m ρ c main_arg2 (by decide)).trans (W1_main_arg2 m ρ c)
theorem W2_arg3 (c : Dev nD) : W2 m ρ c (Proc.devRef .tc main_arg3) = m ((c : Thread nD τ).loc main_arg3) :=
  (W2_of_ne m ρ c main_arg3 (by decide)).trans (W1_main_arg3 m ρ c)
theorem W1_arg0 (c : Dev nD) : W1 m ρ c (Proc.devRef .tc main_arg0) = m ((c : Thread nD τ).loc main_arg0) := W1_main_arg0 m ρ c
theorem W4_arg5 (c : Dev nD) : W4 m ρ c (Proc.devRef .tc main_arg5) = m ((c : Thread nD τ).loc main_arg5) :=
  (W4_of_ne m ρ c main_arg5 (by decide)).trans ((W3_main_arg5 m ρ c).trans ((W2_of_ne m ρ c main_arg5 (by decide)).trans (W1_main_arg5 m ρ c)))
theorem W4_arg6 (c : Dev nD) : W4 m ρ c (Proc.devRef .tc main_arg6) = m ((c : Thread nD τ).loc main_arg6) :=
  (W4_of_ne m ρ c main_arg6 (by decide)).trans ((W3_main_arg6 m ρ c).trans ((W2_of_ne m ρ c main_arg6 (by decide)).trans (W1_main_arg6 m ρ c)))
/-- The aggregated features pass through the second region untouched (they are its input). -/
theorem W4_v158 (c : Dev nD) : W4 m ρ c (Proc.devRef .tc main_v158) = W3 m ρ c (Proc.devRef .tc main_v158) :=
  (W4_arr m ρ c 0).trans (((dat1 (V3 m ρ) c).arrAt_in 0 rfl _).trans (A_eq1 (V3 m ρ) c 0))

end Cert.KernelIdeal.HandHost

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.KV0.lean ====
/-
  What the first region leaves in its result array, as ONE function of the arrays it reads, at the
  exact instance: entry (r, j) is the plain sum over n of x[r,n] * w[n,j] — the matrix unit
  accumulates the block's product into zero, and a change of float format is the identity. Point t
  writes rows 5000 t … 5000 t + 4999 from the same rows of x and the whole of w; the ten blocks tile
  the array.
-/
import proofs.«125587_j10548439679296_1_alg».proof.Proof.KRegion0
import proofs.«125587_j10548439679296_1_alg».proof.Proof.LibDenseBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- One entry of a product: the sum of the 128 products of a row's and a column's entries. -/
def dot128 (f g : Fin 128 → EReal) : EReal := ∑ n : Fin 128, f n * g n

/-- The dense product, entry by entry. -/
def dense (x : S50000x128.Idx → EReal) (w : S128x128.Idx → EReal) : S50000x128.Idx → EReal :=
  fun i => dot128 (fun n => x (ix2 (i 0) n)) (fun n => w (ix2 n (i 1)))

theorem hz0 : (![0, 0] : Fin 2 → Nat) = fun _ => 0 := funext fun a => by fin_cases a <;> rfl

/-- The body's arithmetic at an entry of the block. -/
theorem prod_at (x : Vec Ideal S5000x128 .f32) (w : Vec Ideal S128x128 .f32) (p : Fin 5000) (q : Fin 128) :
    k0_pay1 (F := Ideal) x w (ix2 p q) = dot128 (fun n => x (ix2 p n)) (fun n => w (ix2 n q)) := by
  unfold k0_pay1
  simp only [shapeCast_self]
  exact DenseBlock.matmul_zero_apply (K := 5000) (N := 128) (Q := 128) dot_S5000x128_S128x128_S5000x128_1_0_0_1_n_n.wf
    (truncf .bf16 x bitsLt_bf16_f32) (truncf .bf16 w bitsLt_bf16_f32) p q

/-- Where the windows' blocks sit at each of the ten points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the dense product of the arrays as the region finds them. -/
theorem flushed0_eq (c : Dev nD) (t : Fin cfg0.N) :
    (dat0 V c).flushed 2 t = ((cfg0.win 2).blk t).view.read (Elt Ideal) (dense (V c main_arg0) (V c main_v144)) := by
  show (cfg0.win 2).cut (grid0.coords t) ((dat0 V c).after 2 t) = _
  rw [after0_2]
  unfold prod0
  rw [View.canon_unit_zero hz0]
  simp only [View.ld_unit_zero (S := S5000x128) hz0, View.ld_unit_zero (S := S128x128) hz0]
  obtain ⟨e00, e01, e10, e11, e20, e21⟩ := idx0 t
  funext j
  obtain ⟨p, q, rfl⟩ : ∃ (p : Fin 5000) (q : Fin 128), j = ix2 p q := ⟨j 0, j 1, eq_ix2 j⟩
  refine (prod_at _ _ p q).trans ?_
  show dot128 (fun n => V c main_arg0 (((cfg0.win 0).blk t).view.emb (ix2 p n))) (fun n => V c main_v144 (((cfg0.win 1).blk t).view.emb (ix2 n q)))
      = dense (V c main_arg0) (V c main_v144) (((cfg0.win 2).blk t).view.emb (ix2 p q))
  unfold dense
  refine congrArg₂ dot128 (funext fun n => ?_) (funext fun n => ?_)
  · refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * n.val = n.val; omega
  · refine congrArg (V c main_v144) ?_
    funext a; apply Fin.ext
    match a with
    | ⟨0, _⟩ => show win0_1.index t (0 : Fin 2) * 128 + 1 * n.val = n.val; omega
    | ⟨1, _⟩ => show win0_1.index t (1 : Fin 2) * 128 + 1 * q.val = win0_2.index t (1 : Fin 2) * 128 + 1 * q.val; omega

/-- An index of the result array is in point `t`'s block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v145).slice (win0_2.rect t)).set ↔ _
  rw [View.set_slice_whole, Rect.mem_set_unit]
  exact Iff.rfl

/-- The ten row blocks tile the result array: row r is written at point r / 5000. -/
theorem cover0_all (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk0]
  obtain ⟨-, -, -, -, e20, e21⟩ := idx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; dsimp only; omega
  | ⟨1, _⟩ =>
    show win0_2.index _ (1 : Fin 2) * 128 ≤ (i 1).val ∧ (i 1).val < win0_2.index _ (1 : Fin 2) * 128 + 128
    rw [e21]; omega

/-- THE RESULT ARRAY after the region: the dense product of the arrays the region finds, everywhere. -/
theorem final0 (c : Dev nD) : (dat0 V c).arrAt 2 cfg0.N = dense (V c main_arg0) (V c main_v144) :=
  (dat0 V c).arrAt_eq_of_cover 2 _ (fun t _ => flushed0_eq V c t) cover0_all

end Cert.KernelIdeal.HandValue

end
-- ==== Proof.KV1.lean ====
/-
  What the second region leaves in its two result rows, at the exact instance: after the last of the
  ten points the first holds, per column, the running total 0 + b_0 + b_1 + … + b_9 of the blocks'
  column sums b_t = 0 + Σ_r x[5000 t + r, j], and the second the same for the squares. The pieces
  each run left in the accumulators are read back as the body's arithmetic: at the first point the
  stored zero row is read back and the block's sums added to it; later the sums are added to what
  the point before left.
-/
import proofs.«125587_j10548439679296_1_alg».proof.Proof.KRegion1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

section Pieces
variable (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)

/-- A later point leaves, in the first accumulator holding `s`, the body's sum payload of the rows and `s`. -/
theorem sum_later_eq (hc : ¬first1 i) (x : Vec F S5000x128 .f32) (s q : Vec F S1x128 .f32) :
    sum_later c i a1 h1 a2 h2 a3 h3 hc x s q = k1_pay4 x s := by
  unfold sum_later
  rw [View.read_writes_eq_canon _ _ _ (cover1_later_s c i a1 h1 a2 h2 a3 h3 hc x s q)]
  unfold run1_later
  dsimp only
  rw [View.canon_unit_zero hz1]
  simp only [View.readAt_eq_ld, h1.read_unread, h2.read_unread, h3.read_unread, View.ld_unit_zero (S := S5000x128) hz1,
    View.ld_unit_zero (S := S1x128) hz1]

/-- and in the second, holding `q`, the body's sum-of-squares payload of the rows and `q`. -/
theorem sq_later_eq (hc : ¬first1 i) (x : Vec F S5000x128 .f32) (s q : Vec F S1x128 .f32) :
    sq_later c i a1 h1 a2 h2 a3 h3 hc x s q = k1_pay5 x q := by
  unfold sq_later
  rw [View.read_writes_eq_canon _ _ _ (cover1_later_q c i a1 h1 a2 h2 a3 h3 hc x s q)]
  unfold run1_later
  dsimp only
  rw [View.canon_unit_zero hz1]
  simp only [View.readAt_eq_ld, h1.read_unread, h2.read_unread, h3.read_unread, View.ld_unit_zero (S := S5000x128) hz1,
    View.ld_unit_zero (S := S1x128) hz1]

/-- The first point leaves in the first accumulator the sum payload of the rows and the zero row it has just stored, -/
theorem sum_first_eq (hc : first1 i) (x : Vec F S5000x128 .f32) :
    sum_first c i a1 h1 a2 h2 a3 h3 hc x = k1_pay4 x (k1_pay1 (F := F)) := by
  unfold sum_first
  rw [View.read_writes_eq_canon _ _ _ (cover1_first_s c i a1 h1 a2 h2 a3 h3 hc x)]
  unfold run1_first
  dsimp only
  sl_unfold_words
  rw [View.canon_cons_unit_zero (S := S1x128) hz1, View.readCov_unit_zero (S := S1x128) _ hz1]
  simp only [View.readAt_eq_ld, h1.read_unread, View.ld_unit_zero (S := S5000x128) hz1, View.ld_unit_zero (S := S1x128) hz1]

/-- and in the second the sum-of-squares payload of the rows and the zero row. -/
theorem sq_first_eq (hc : first1 i) (x : Vec F S5000x128 .f32) :
    sq_first c i a1 h1 a2 h2 a3 h3 hc x = k1_pay5 x (k1_pay2 (F := F)) := by
  unfold sq_first
  rw [View.read_writes_eq_canon _ _ _ (cover1_first_q c i a1 h1 a2 h2 a3 h3 hc x)]
  unfold run1_first
  dsimp only
  sl_unfold_words
  rw [View.canon_cons_unit_zero (S := S1x128) hz1, View.readCov_unit_zero (S := S1x128) _ hz1]
  simp only [View.readAt_eq_ld, h1.read_unread, View.ld_unit_zero (S := S5000x128) hz1, View.ld_unit_zero (S := S1x128) hz1]

end Pieces

/-! ## The running totals in closed form -/

/-- The first accumulator after point `n`: the sum payload folded over the row blocks, from the stored zero row. -/
def chainS (c : Dev nD) : (n : ℕ) → n < cfg1.N → Vec F S1x128 .f32
  | 0, h => k1_pay4 (blk1 V c 0 ⟨0, h⟩) (k1_pay1 (F := F))
  | n + 1, h => k1_pay4 (blk1 V c 0 ⟨n + 1, h⟩) (chainS c n (Nat.lt_of_succ_lt h))
/-- The second accumulator after point `n`, likewise for the squares. -/
def chainQ (c : Dev nD) : (n : ℕ) → n < cfg1.N → Vec F S1x128 .f32
  | 0, h => k1_pay5 (blk1 V c 0 ⟨0, h⟩) (k1_pay2 (F := F))
  | n + 1, h => k1_pay5 (blk1 V c 0 ⟨n + 1, h⟩) (chainQ c n (Nat.lt_of_succ_lt h))

/-- What the accumulators hold after each point IS that pair of folds (by induction on the point). -/
theorem acc1_eq (c : Dev nD) : ∀ (n : ℕ) (h : n < cfg1.N), acc1 V c n h = (chainS V c n h, chainQ V c n h)
  | 0, h => (acc1_first V c ⟨0, h⟩ rfl).trans (by rw [sum_first_eq, sq_first_eq]; rfl)
  | n + 1, h => by
    rw [acc1_later V c ⟨n + 1, h⟩ (Nat.succ_ne_zero n), sum_later_eq, sq_later_eq]
    show (k1_pay4 _ (acc1 V c n _).1, k1_pay5 _ (acc1 V c n _).2) = _
    rw [acc1_eq c n]
    rfl

theorem nine_lt : 9 < cfg1.N := by rw [show cfg1.N = 10 from N_1]; decide

/-- The two result rows: the totals after the last point, as contents of the result arrays (each array is one block). -/
abbrev resS (c : Dev nD) : Buf (Elt F) ((c : Thread nD τ).loc main_v159_0) := chainS V c 9 nine_lt
abbrev resQ (c : Dev nD) : Buf (Elt F) ((c : Thread nD τ).loc main_v159_1) := chainQ V c 9 nine_lt

/-- The one write-back of the first row, after point 9, writes the total. -/
theorem flushed1_s (c : Dev nD) (t : Fin cfg1.N) (hf : (cfg1.win 1).flush t = true) :
    (dat1 V c).flushed 1 t = ((cfg1.win 1).blk t).view.read (Elt F) (resS V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, acc1_eq]
  have hz' : (fun a => win1_1.index t1_9 a * main_v159_0.ty.shape.size a) = fun _ => 0 := funext fun a => by fin_cases a <;> decide
  exact (Memref.read_access_unit_zero (Elt F) main_v159_0 hz' (fun a => by rw [congrFun hz' a]; simp) (resS V c)).symm
theorem flushed1_q (c : Dev nD) (t : Fin cfg1.N) (hf : (cfg1.win 2).flush t = true) :
    (dat1 V c).flushed 2 t = ((cfg1.win 2).blk t).view.read (Elt F) (resQ V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, acc1_eq]
  have hz' : (fun a => win1_2.index t1_9 a * main_v159_1.ty.shape.size a) = fun _ => 0 := funext fun a => by fin_cases a <;> decide
  exact (Memref.read_access_unit_zero (Elt F) main_v159_1 hz' (fun a => by rw [congrFun hz' a]; simp) (resQ V c)).symm

/-- So each result row ends holding its total (point 9's block is the whole row). -/
theorem final1_s (c : Dev nD) : (dat1 V c).arrAt 1 cfg1.N = resS V c :=
  (dat1 V c).arrAt_eq_of_cover 1 (resS V c) (flushed1_s V c) fun i =>
    ⟨t1_9, (flush1_1 t1_9).mpr rfl, by
      show i ∈ ((View.whole main_v159_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩
theorem final1_q (c : Dev nD) : (dat1 V c).arrAt 2 cfg1.N = resQ V c :=
  (dat1 V c).arrAt_eq_of_cover 2 (resQ V c) (flushed1_q V c) fun i =>
    ⟨t1_9, (flush1_2 t1_9).mpr rfl, by
      show i ∈ ((View.whole main_v159_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

end Cert.KernelIdeal.HandValue

end
-- ==== Proof.LibBlockSum.lean ====
import Idealize.ShloMosaic.PureOps.Ideal
import Idealize.ShloMosaic.PureOps.Ideal.Laws

/-!
# A long sum taken block by block

A sum over n = k · s terms may be taken in k blocks of s consecutive terms: each block is summed on
its own, and the block sums are added one after another to a running total that starts from a given
value z.  Addition being commutative and associative, the final total is z plus the sum of all n
terms.  Nothing here needs the terms to be finite: the statements hold in any commutative additive
monoid, the extended reals among them.

The blocks are indexed t = 0, …, k - 1 and term r of block t is term s · t + r of the whole.
-/

namespace Idealize.ShloMosaic.BlockSum

open scoped BigOperators

variable {M : Type*} [AddCommMonoid M]

/-- Term r of block t is a term of the whole: s · t + r < n when t < k, r < s and k · s = n. -/
theorem index_lt {k s n : ℕ} (hn : k * s = n) {t : ℕ} (ht : t < k) (r : Fin s) : s * t + r.val < n := by
  have h1 : s * t + s ≤ s * k := by
    calc s * t + s = s * (t + 1) := by ring
      _ ≤ s * k := Nat.mul_le_mul_left s ht
  have h2 : s * k = n := by rw [Nat.mul_comm]; exact hn
  have := r.isLt
  omega

/-- **The sum of the block sums is the whole sum.** -/
theorem sum_blocks {k s n : ℕ} (hn : k * s = n) (f : Fin n → M) :
    ∑ t : Fin k, ∑ r : Fin s, f ⟨s * t.val + r.val, index_lt hn t.isLt r⟩ = ∑ i : Fin n, f i := by
  subst hn
  rw [← Equiv.sum_comp finProdFinEquiv f, Fintype.sum_prod_type]
  refine Finset.sum_congr rfl fun t _ => Finset.sum_congr rfl fun r _ => congrArg f (Fin.ext ?_)
  simp [finProdFinEquiv, Nat.add_comm]

/-- A running total that starts at z + B 0 and adds B (t + 1) at step t + 1 is, after step t, the start
    value plus the sum of B 0, …, B t.  The recurrence is only asked below k. -/
theorem acc_eq_sum_range (k : ℕ) (B acc : ℕ → M) (z : M) (h0 : acc 0 = z + B 0)
    (hs : ∀ t, t + 1 < k → acc (t + 1) = acc t + B (t + 1)) :
    ∀ t, t < k → acc t = z + ∑ u ∈ Finset.range (t + 1), B u := by
  intro t
  induction t with
  | zero => intro _; rw [h0, Finset.sum_range_one]
  | succ t ih =>
    intro ht
    rw [hs t ht, ih (Nat.lt_of_succ_lt ht), Finset.sum_range_succ _ (t + 1), add_assoc]

/-- **A sum over k · s = n terms taken k blocks of s at a time.**  If B t is the sum of block t (for
    t < k), and the running total acc starts at z + B 0 and adds B (t + 1) at step t + 1, then after the
    last step the total is z plus the sum of all n terms. -/
theorem blockSum_eq {k s n : ℕ} (hn : k * s = n) (hk : 0 < k) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) :
    acc (k - 1) = z + ∑ i : Fin n, f i := by
  rw [acc_eq_sum_range k B acc z h0 hs (k - 1) (Nat.sub_lt hk Nat.one_pos), Nat.sub_add_cancel hk,
    ← Fin.sum_univ_eq_sum_range B k, ← sum_blocks hn f]
  exact congrArg (z + ·) (Finset.sum_congr rfl fun t _ => hB t.val t.isLt)

/-- The same for any intermediate step: after step t < k the total is z plus the sum of the first
    t + 1 blocks' terms, written as a double sum. -/
theorem blockSum_partial {k s n : ℕ} (hn : k * s = n) (f : Fin n → M) (B acc : ℕ → M) (z : M)
    (hB : ∀ t (ht : t < k), B t = ∑ r : Fin s, f ⟨s * t + r.val, index_lt hn ht r⟩)
    (h0 : acc 0 = z + B 0) (hs : ∀ t, t + 1 < k → acc (t + 1) = acc t + B (t + 1)) (t : ℕ) (ht : t < k) :
    acc t = z + ∑ u : Fin (t + 1), ∑ r : Fin s,
      f ⟨s * u.val + r.val, index_lt hn (Nat.lt_of_lt_of_le u.isLt ht) r⟩ := by
  rw [acc_eq_sum_range k B acc z h0 hs t ht, ← Fin.sum_univ_eq_sum_range B (t + 1)]
  exact congrArg (z + ·) (Finset.sum_congr rfl fun u _ => hB u.val (Nat.lt_of_lt_of_le u.isLt ht))

/-! ## Ten blocks of 5000 -/

/-- 50000 terms taken ten blocks of 5000 at a time, as a running total over ℕ. -/
theorem blockSum_10x5000 (f : Fin 50000 → M) (B acc : ℕ → M) (z : M)
    (hB : ∀ t (ht : t < 10), B t = ∑ r : Fin 5000, f ⟨5000 * t + r.val, index_lt (k := 10) (by norm_num) ht r⟩)
    (h0 : acc 0 = z + B 0) (hs : ∀ t, t + 1 < 10 → acc (t + 1) = acc t + B (t + 1)) :
    acc 9 = z + ∑ i : Fin 50000, f i :=
  blockSum_eq (k := 10) (s := 5000) (by norm_num) (by norm_num) f B acc z hB h0 hs

/-- 50000 terms taken ten blocks of 5000 at a time, the ten additions written out: the total that
    starts from z and adds the ten block sums B 0, …, B 9 in order is z plus the sum of all terms. -/
theorem blockSum_10x5000_unrolled (f : Fin 50000 → M) (B : Fin 10 → M) (z : M)
    (hB : ∀ t : Fin 10, B t = ∑ r : Fin 5000, f ⟨5000 * t.val + r.val, index_lt (k := 10) (by norm_num) t.isLt r⟩) :
    z + B 0 + B 1 + B 2 + B 3 + B 4 + B 5 + B 6 + B 7 + B 8 + B 9 = z + ∑ i : Fin 50000, f i := by
  rw [← sum_blocks (k := 10) (s := 5000) (by norm_num) f]
  simp only [← hB]
  simp only [Fin.sum_univ_succ, Fin.sum_univ_zero, add_zero, add_assoc]
  rfl

/-- At the extended reals with z the zero word's value: the total is 0 + the whole sum, and so the
    whole sum. -/
theorem blockSum_10x5000_ereal (f : Fin 50000 → EReal) (B acc : ℕ → EReal)
    (hB : ∀ t (ht : t < 10), B t = ∑ r : Fin 5000, f ⟨5000 * t + r.val, index_lt (k := 10) (by norm_num) ht r⟩)
    (h0 : acc 0 = (0 : EReal) + B 0) (hs : ∀ t, t + 1 < 10 → acc (t + 1) = acc t + B (t + 1)) :
    acc 9 = (0 : EReal) + ∑ i : Fin 50000, f i :=
  blockSum_10x5000 f B acc 0 hB h0 hs

end Idealize.ShloMosaic.BlockSum
-- ==== Proof.KV1b.lean ====
/-
  The two result rows of the second region, entry by entry, at the exact instance: column j of the
  first is 0 + Σ_i x[i, j] over all 50000 rows, and of the second 0 + Σ_i x[i, j] * x[i, j]. Each
  point adds its block's 5000-term column sum to the running total; ten blocks of 5000 regroup into
  one sum over 50000 (addition of extended reals is commutative and associative).
-/
import proofs.«125587_j10548439679296_1_alg».proof.Proof.KV1
import proofs.«125587_j10548439679296_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Column `j`'s sum over the 50000 rows of an array, and over the 5000 rows of a block; the same for squares. -/
def colSum (X : S50000x128.Idx → EReal) (j : Fin 128) : EReal := ∑ i : Fin 50000, X (ix2 i j)
def colSq (X : S50000x128.Idx → EReal) (j : Fin 128) : EReal := ∑ i : Fin 50000, X (ix2 i j) * X (ix2 i j)
def blkSum (x : S5000x128.Idx → EReal) (j : Fin 128) : EReal := ∑ k : Fin 5000, x (ix2 k j)
def blkSq (x : S5000x128.Idx → EReal) (j : Fin 128) : EReal := ∑ k : Fin 5000, x (ix2 k j) * x (ix2 k j)

/-- The source index over column `j` with row `k` inserted. -/
theorem lift_col (j : Fin 128) (k : Fin 5000) :
    (reduces_S5000x128_S128 : S5000x128.Reduces [0] S128).lift (ix1 j) k = ix2 k j := by
  funext a; apply Fin.ext
  match a with
  | ⟨0, _⟩ => rfl
  | ⟨1, _⟩ => rfl

/-- A block's lane reduction over its rows, at column `j`: the plain sum of the 5000 entries. -/
theorem colsum_at (x : FVec Ideal S5000x128 .f32) (hacc : (0x00000000#32 : BitVec 32) = 0x00000000#32) (j : Fin 128) :
    multiReduction .add [0] S128 x 0x00000000#32 reduces_S5000x128_S128 (.inl rfl) hacc (ix1 j) = blkSum x j := by
  refine (Ideal.multiReduction_add_single x 0x00000000#32 reduces_S5000x128_S128 (.inl rfl) hacc (ix1 j)).trans ?_
  exact Finset.sum_congr rfl fun k _ => congrArg x (lift_col j k)

/-- The sum payload at column `j`: what the accumulator held plus the block's column sum. -/
theorem pay4_at (x : Vec Ideal S5000x128 .f32) (s : Vec Ideal S1x128 .f32) (j : Fin 128) :
    k1_pay4 (F := Ideal) x s (ix2 (0 : Fin 1) j) = s (ix2 (0 : Fin 1) j) + blkSum x j := by
  unfold k1_pay4 k1_pay3
  simp only [shapeCast_self]
  show s (ix2 (0 : Fin 1) j) + shapeCast S1x128 (multiReduction (F := Ideal) .add [0] S128 x 0x00000000#32 reduces_S5000x128_S128 (.inl rfl) rfl) shapeCasts_S128_S1x128 (ix2 (0 : Fin 1) j) = _
  rw [shapeCast_a_1a_apply]
  exact congrArg (s (ix2 (0 : Fin 1) j) + ·) (colsum_at x rfl j)

/-- The sum-of-squares payload at column `j`. -/
theorem pay5_at (x : Vec Ideal S5000x128 .f32) (q : Vec Ideal S1x128 .f32) (j : Fin 128) :
    k1_pay5 (F := Ideal) x q (ix2 (0 : Fin 1) j) = q (ix2 (0 : Fin 1) j) + blkSq x j := by
  unfold k1_pay5 k1_pay3
  simp only [shapeCast_self]
  show q (ix2 (0 : Fin 1) j) + shapeCast S1x128 (multiReduction (F := Ideal) .add [0] S128 (mulf x x) 0x00000000#32 reduces_S5000x128_S128 (.inl rfl) rfl) shapeCasts_S128_S1x128 (ix2 (0 : Fin 1) j) = _
  rw [shapeCast_a_1a_apply]
  exact congrArg (q (ix2 (0 : Fin 1) j) + ·) (colsum_at (mulf x x) rfl j)

/-- The stored zero rows are zero. -/
theorem pay1_at (j : Fin 128) : k1_pay1 (F := Ideal) (ix2 (0 : Fin 1) j) = 0 := Ideal.ofBits_zero_f32
theorem pay2_at' (j : Fin 128) : k1_pay2 (F := Ideal) (ix2 (0 : Fin 1) j) = 0 := Ideal.ofBits_zero_f32

/-- Where the rows window's block sits at each point. -/
theorem idx1 : ∀ t : Fin cfg1.N, win1_0.index t (0 : Fin 2) = t.val ∧ win1_0.index t (1 : Fin 2) = 0 :=
  (by decide +kernel : ∀ t : Fin grid1.N, _)

/-- Row `r` of block `t` is row 5000 t + r of the array. -/
theorem blk1_at (c : Dev nD) (t : ℕ) (h : t < cfg1.N) (r : Fin 5000) (j : Fin 128) (hb : 5000 * t + r.val < 50000) :
    blk1 V c 0 ⟨t, h⟩ (ix2 r j) = V c main_v158 (ix2 (⟨5000 * t + r.val, hb⟩ : Fin 50000) j) := by
  obtain ⟨e0, e1⟩ := idx1 ⟨t, h⟩
  show V c main_v158 (((cfg1.win 0).blk ⟨t, h⟩).view.emb (ix2 r j)) = _
  refine congrArg (V c main_v158) ?_
  funext a; apply Fin.ext
  match a with
  | ⟨0, _⟩ => show win1_0.index ⟨t, h⟩ (0 : Fin 2) * 5000 + 1 * r.val = 5000 * t + r.val; rw [e0]; dsimp only; omega
  | ⟨1, _⟩ => show win1_0.index ⟨t, h⟩ (1 : Fin 2) * 128 + 1 * j.val = j.val; rw [e1]; omega

/-- THE COLUMN SUMS: the first result row at column `j` is 0 + the column's sum over all rows of the array. -/
theorem resS_at (c : Dev nD) (j : Fin 128) :
    resS V c (ix2 (0 : Fin 1) j) = (0 : EReal) + colSum (V c main_v158) j := by
  have hN : cfg1.N = 10 := N_1
  let f : Fin 50000 → EReal := fun i => V c main_v158 (ix2 i j)
  let B : ℕ → EReal := fun t => if ht : t < 10 then ∑ r : Fin 5000, f ⟨5000 * t + r.val, BlockSum.index_lt (k := 10) (by norm_num) ht r⟩ else 0
  let acc : ℕ → EReal := fun n => if h : n < cfg1.N then chainS V c n h (ix2 (0 : Fin 1) j) else 0
  have hB : ∀ t (ht : t < 10), B t = ∑ r : Fin 5000, f ⟨5000 * t + r.val, BlockSum.index_lt (k := 10) (by norm_num) ht r⟩ :=
    fun t ht => dif_pos ht
  have hblock : ∀ t (h : t < cfg1.N), blkSum (blk1 V c 0 ⟨t, h⟩) j = B t := fun t h => by
    rw [hB t (by omega)]
    exact Finset.sum_congr rfl fun r _ => blk1_at V c t h r j _
  have h0 : acc 0 = (0 : EReal) + B 0 := by
    show (if h : 0 < cfg1.N then chainS V c 0 h (ix2 (0 : Fin 1) j) else 0) = _
    rw [dif_pos (by omega)]
    show k1_pay4 (F := Ideal) _ _ (ix2 (0 : Fin 1) j) = _
    rw [pay4_at, pay1_at, hblock]
  have hs : ∀ t, t + 1 < 10 → acc (t + 1) = acc t + B (t + 1) := fun t ht => by
    show (if h : t + 1 < cfg1.N then chainS V c (t + 1) h (ix2 (0 : Fin 1) j) else 0) = (if h : t < cfg1.N then chainS V c t h (ix2 (0 : Fin 1) j) else 0) + _
    rw [dif_pos (by omega), dif_pos (by omega)]
    show k1_pay4 (F := Ideal) _ _ (ix2 (0 : Fin 1) j) = _
    rw [pay4_at, hblock]
  have key := BlockSum.blockSum_10x5000_ereal f B acc hB h0 hs
  show chainS V c 9 nine_lt (ix2 (0 : Fin 1) j) = (0 : EReal) + ∑ i : Fin 50000, f i
  rw [← key]
  show _ = (if h : 9 < cfg1.N then chainS V c 9 h (ix2 (0 : Fin 1) j) else 0)
  rw [dif_pos nine_lt]

/-- THE COLUMN SUMS OF SQUARES: the second result row at column `j`. -/
theorem resQ_at (c : Dev nD) (j : Fin 128) :
    resQ V c (ix2 (0 : Fin 1) j) = (0 : EReal) + colSq (V c main_v158) j := by
  have hN : cfg1.N = 10 := N_1
  let X : S50000x128.Idx → EReal := V c main_v158
  let f : Fin 50000 → EReal := fun i => X (ix2 i j) * X (ix2 i j)
  let B : ℕ → EReal := fun t => if ht : t < 10 then ∑ r : Fin 5000, f ⟨5000 * t + r.val, BlockSum.index_lt (k := 10) (by norm_num) ht r⟩ else 0
  let acc : ℕ → EReal := fun n => if h : n < cfg1.N then chainQ V c n h (ix2 (0 : Fin 1) j) else 0
  have hB : ∀ t (ht : t < 10), B t = ∑ r : Fin 5000, f ⟨5000 * t + r.val, BlockSum.index_lt (k := 10) (by norm_num) ht r⟩ :=
    fun t ht => dif_pos ht
  have hblock : ∀ t (h : t < cfg1.N), blkSq (blk1 V c 0 ⟨t, h⟩) j = B t := fun t h => by
    rw [hB t (by omega)]
    refine Finset.sum_congr rfl fun r _ => ?_
    have e := blk1_at V c t h r j (BlockSum.index_lt (k := 10) (by norm_num) (by omega) r)
    show (fun x : EReal => x * x) (blk1 V c 0 ⟨t, h⟩ (ix2 r j)) = (fun x : EReal => x * x) (V c main_v158 (ix2 _ j))
    rw [e]
  have h0 : acc 0 = (0 : EReal) + B 0 := by
    show (if h : 0 < cfg1.N then chainQ V c 0 h (ix2 (0 : Fin 1) j) else 0) = _
    rw [dif_pos (by omega)]
    show k1_pay5 (F := Ideal) _ _ (ix2 (0 : Fin 1) j) = _
    rw [pay5_at, pay2_at', hblock]
  have hs : ∀ t, t + 1 < 10 → acc (t + 1) = acc t + B (t + 1) := fun t ht => by
    show (if h : t + 1 < cfg1.N then chainQ V c (t + 1) h (ix2 (0 : Fin 1) j) else 0) = (if h : t < cfg1.N then chainQ V c t h (ix2 (0 : Fin 1) j) else 0) + _
    rw [dif_pos (by omega), dif_pos (by omega)]
    show k1_pay5 (F := Ideal) _ _ (ix2 (0 : Fin 1) j) = _
    rw [pay5_at, hblock]
  have key := BlockSum.blockSum_10x5000_ereal f B acc hB h0 hs
  show chainQ V c 9 nine_lt (ix2 (0 : Fin 1) j) = (0 : EReal) + ∑ i : Fin 50000, f i
  rw [← key]
  show _ = (if h : 9 < cfg1.N then chainQ V c 9 h (ix2 (0 : Fin 1) j) else 0)
  rw [dif_pos nine_lt]

end Cert.KernelIdeal.HandValue

end
-- ==== Proof.KV2.lean ====
/-
  What the third region leaves in its result array, as ONE function of the arrays it reads, at the
  exact instance: entry (r, j) is tanh(((x[r,j] - mean[0,j]) * inv[0,j]) * gamma[0,j] + beta[0,j]).
  Point t writes rows 5000 t … 5000 t + 4999, each from the same rows of x and the four resident rows;
  the ten blocks tile the array.
-/
import proofs.«125587_j10548439679296_1_alg».proof.Proof.KRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Normalise and squash one entry. -/
def squash1 (x mu inv ga be : EReal) : EReal := Ideal.tanh (((x - mu) * inv) * ga + be)

/-- Normalise and squash, entry by entry. -/
def squash (x : S50000x128.Idx → EReal) (mu inv ga be : S1x128.Idx → EReal) : S50000x128.Idx → EReal :=
  fun i => squash1 (x i) (mu (ix2 (0 : Fin 1) (i 1))) (inv (ix2 (0 : Fin 1) (i 1))) (ga (ix2 (0 : Fin 1) (i 1))) (be (ix2 (0 : Fin 1) (i 1)))

theorem hz : (![0, 0] : Fin 2 → Nat) = fun _ => 0 := funext fun a => by fin_cases a <;> rfl

/-- The body's arithmetic at an entry of the block. -/
theorem pay2_at (x : Vec Ideal S5000x128 .f32) (mu inv ga be : Vec Ideal S1x128 .f32) (p : Fin 5000) (q : Fin 128) :
    k2_pay1 (F := Ideal) x mu inv ga be (ix2 p q)
      = squash1 (x (ix2 p q)) (mu (ix2 (0 : Fin 1) q)) (inv (ix2 (0 : Fin 1) q)) (ga (ix2 (0 : Fin 1) q)) (be (ix2 (0 : Fin 1) q)) := by
  unfold k2_pay1 squash1
  simp only [shapeCast_self]
  show Ideal.tanh (((x (ix2 p q) - broadcastTo S5000x128 mu broadcasts_S1x128_S5000x128 (ix2 p q))
      * broadcastTo S5000x128 inv broadcasts_S1x128_S5000x128 (ix2 p q))
      * broadcastTo S5000x128 ga broadcasts_S1x128_S5000x128 (ix2 p q)
      + broadcastTo S5000x128 be broadcasts_S1x128_S5000x128 (ix2 p q)) = _
  rw [broadcastTo_1b_ab_apply mu, broadcastTo_1b_ab_apply inv, broadcastTo_1b_ab_apply ga, broadcastTo_1b_ab_apply be]

/-- Where the windows' blocks sit at each of the ten points: the rows window and the result window at row block t,
    each resident row at its one block. -/
theorem idx2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- WHAT POINT `t` WRITES BACK is block `t` of `squash` of the arrays as the region finds them. -/
theorem flushed2_eq (c : Dev nD) (t : Fin cfg2.N) :
    (dat2 V c).flushed 5 t = ((cfg2.win 5).blk t).view.read (Elt Ideal)
      (squash (V c main_v158) (V c main_v161) (V c main_v170) (V c main_v171) (V c main_v172)) := by
  show (cfg2.win 5).cut (grid2.coords t) ((dat2 V c).after 5 t) = _
  rw [after2_5]
  unfold norm2
  rw [View.canon_unit_zero hz]
  simp only [View.ld_unit_zero (S := S5000x128) hz, View.ld_unit_zero (S := S1x128) hz]
  obtain ⟨e00, e01, e50, e51, e10, e11, e20, e21, e30, e31, e40, e41⟩ := idx2 t
  funext j
  obtain ⟨p, q, rfl⟩ : ∃ (p : Fin 5000) (q : Fin 128), j = ix2 p q := ⟨j 0, j 1, eq_ix2 j⟩
  refine (pay2_at _ _ _ _ _ p q).trans ?_
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * q.val = win2_5.index t (1 : Fin 2) * 128 + 1 * q.val; omega
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  show squash1 (V c main_v158 (((cfg2.win 0).blk t).view.emb (ix2 p q))) (V c main_v161 (((cfg2.win 1).blk t).view.emb (ix2 (0 : Fin 1) q)))
        (V c main_v170 (((cfg2.win 2).blk t).view.emb (ix2 (0 : Fin 1) q))) (V c main_v171 (((cfg2.win 3).blk t).view.emb (ix2 (0 : Fin 1) q)))
        (V c main_v172 (((cfg2.win 4).blk t).view.emb (ix2 (0 : Fin 1) q)))
      = squash (V c main_v158) (V c main_v161) (V c main_v170) (V c main_v171) (V c main_v172) (((cfg2.win 5).blk t).view.emb (ix2 p q))
  rw [h0, h1, h2, h3, h4]
  rfl

/-- An index of the result array is in point `t`'s block iff each coordinate is in the block's range. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v173).slice (win2_5.rect t)).set ↔ _
  rw [View.set_slice_whole, Rect.mem_set_unit]
  exact Iff.rfl

/-- The ten row blocks tile the result array: row r is written at point r / 5000. -/
theorem cover2_all (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk2]
  obtain ⟨-, -, e50, e51, -⟩ := idx2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; dsimp only; omega
  | ⟨1, _⟩ =>
    show win2_5.index _ (1 : Fin 2) * 128 ≤ (i 1).val ∧ (i 1).val < win2_5.index _ (1 : Fin 2) * 128 + 128
    rw [e51]; omega

/-- THE RESULT ARRAY after the region: `squash` of the arrays the region finds, everywhere. -/
theorem final2 (c : Dev nD) :
    (dat2 V c).arrAt 5 cfg2.N = squash (V c main_v158) (V c main_v161) (V c main_v170) (V c main_v171) (V c main_v172) :=
  (dat2 V c).arrAt_eq_of_cover 5 _ (fun t _ => flushed2_eq V c t) cover2_all

end Cert.KernelIdeal.HandValue

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«125587_j10548439679296_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.KOut.lean ====
/-
  The kernel program's result array at the exact instance, put together: it is the normalise-and-squash
  of the aggregated features X (the reference's own gather / scale / scatter-add of the dense product of
  the input with the Hamilton matrix) with the column means and reciprocal deviations computed from X's
  column sums and sums of squares — and, entry by entry, plain arithmetic on the extended reals.
-/
import proofs.«125587_j10548439679296_1_alg».proof.Proof.KHost
import proofs.«125587_j10548439679296_1_alg».proof.Proof.KV0
import proofs.«125587_j10548439679296_1_alg».proof.Proof.KV1b
import proofs.«125587_j10548439679296_1_alg».proof.Proof.KV2
import proofs.«125587_j10548439679296_1_alg».proof.Proof.LibDenseHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Cert.KernelIdeal.HandHost
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The aggregated features, from the argument arrays. -/
def agg (c : Dev nD) : (⟨S50000x128, .f32⟩ : BufTy).Contents (Elt Ideal) :=
  Cert.ReferenceIdeal.RefRun.spmm (F := Ideal)
    (dense (m ((c : Thread nD τ).loc main_arg0)) (Cert.ReferenceIdeal.RefRun.ham (F := Ideal) (m ((c : Thread nD τ).loc main_arg4))))
    (m ((c : Thread nD τ).loc main_arg1)) (m ((c : Thread nD τ).loc main_arg2)) (m ((c : Thread nD τ).loc main_arg3))

/-- After the first region the product buffer holds the dense product of the input with the Hamilton matrix. -/
theorem W2_v145 (c : Dev nD) :
    W2 m ρ c (Proc.devRef .tc main_v145)
      = dense (m ((c : Thread nD τ).loc main_arg0)) (Cert.ReferenceIdeal.RefRun.ham (F := Ideal) (m ((c : Thread nD τ).loc main_arg4))) :=
  (W2_arr m ρ c 2).trans ((final0 (V1 m ρ) c).trans (congrArg₂ dense (W1_arg0 m ρ c) (W1_v144 m ρ c)))

/-- After the second stretch the features buffer holds the aggregated features. -/
theorem W3_agg (c : Dev nD) : W3 m ρ c (Proc.devRef .tc main_v158) = agg m c := by
  rw [W3_v158, W2_v145, W2_arg1, W2_arg2, W2_arg3]
  rfl

/-- The column totals the second region leaves. -/
theorem W4_sums (c : Dev nD) : W4 m ρ c (Proc.devRef .tc main_v159_0) = resS (V3 m ρ) c :=
  (W4_arr m ρ c 1).trans (final1_s (V3 m ρ) c)
theorem W4_sqs (c : Dev nD) : W4 m ρ c (Proc.devRef .tc main_v159_1) = resQ (V3 m ρ) c :=
  (W4_arr m ρ c 2).trans (final1_q (V3 m ρ) c)

/-- THE RESULT ARRAY as one term. -/
theorem W6_v173 (c : Dev nD) :
    W6 m ρ c (Proc.devRef .tc main_v173)
      = squash (agg m c) (meanRow (resS (V3 m ρ) c)) (invRow (resS (V3 m ρ) c) (resQ (V3 m ρ) c))
          (asRow (m ((c : Thread nD τ).loc main_arg5))) (asRow (m ((c : Thread nD τ).loc main_arg6))) := by
  refine (W6_arr m ρ c 5).trans ((final2 (V5 m ρ) c).trans ?_)
  show squash (W5 m ρ c (Proc.devRef .tc main_v158)) (W5 m ρ c (Proc.devRef .tc main_v161)) (W5 m ρ c (Proc.devRef .tc main_v170))
      (W5 m ρ c (Proc.devRef .tc main_v171)) (W5 m ρ c (Proc.devRef .tc main_v172)) = _
  rw [W5_main_v158, W4_v158, W3_agg, W5_v161, W5_v170, W5_v171, W5_v172, W4_sums, W4_sqs, W4_arg5, W4_arg6]

/-- The column sums of the aggregated features, -/
theorem sums_at (c : Dev nD) (j : Fin 128) :
    resS (V3 m ρ) c (ix2 (0 : Fin 1) j) = (0 : EReal) + colSum (agg m c) j := by
  rw [resS_at]
  show (0 : EReal) + colSum (W3 m ρ c (Proc.devRef .tc main_v158)) j = _
  rw [W3_agg]
/-- and of their squares. -/
theorem sqs_at (c : Dev nD) (j : Fin 128) :
    resQ (V3 m ρ) c (ix2 (0 : Fin 1) j) = (0 : EReal) + colSq (agg m c) j := by
  rw [resQ_at]
  show (0 : EReal) + colSq (W3 m ρ c (Proc.devRef .tc main_v158)) j = _
  rw [W3_agg]

/-- The statistics rows, entry by entry. -/
theorem meanRow_at (s : (⟨S1x128, .f32⟩ : BufTy).Contents (Elt Ideal)) (j : Fin 128) :
    meanRow s (ix2 (0 : Fin 1) j) = Ideal.div (s (ix2 (0 : Fin 1) j)) (Ideal.ofBits .f32 0x47435000#32) := rfl
theorem invRow_at (s q : (⟨S1x128, .f32⟩ : BufTy).Contents (Elt Ideal)) (j : Fin 128) :
    invRow s q (ix2 (0 : Fin 1) j)
      = Ideal.div (Ideal.ofBits .f32 0x3F800000#32)
          (Ideal.sqrt (Ideal.div (q (ix2 (0 : Fin 1) j)) (Ideal.ofBits .f32 0x47435000#32)
              - Ideal.div (s (ix2 (0 : Fin 1) j)) (Ideal.ofBits .f32 0x47435000#32) * Ideal.div (s (ix2 (0 : Fin 1) j)) (Ideal.ofBits .f32 0x47435000#32)
            + Ideal.ofBits .f32 0x3727C5AC#32)) := rfl
theorem asRow_at (g : (⟨S128, .f32⟩ : BufTy).Contents (Elt Ideal)) (j : Fin 128) : asRow g (ix2 (0 : Fin 1) j) = g (ix1 j) :=
  shapeCast_a_1a_apply g shapeCasts_S128_S1x128 0 j

/-- One entry of the kernel's result from the entry of X, the column's sum S1 and sum of squares S2, the scale and
    the shift: tanh(((x - S1/n) * (1 / sqrt(S2/n - (S1/n)² + ε))) * γ + β), n the float 50000. -/
def kernelEntry (x S1 S2 g b : EReal) : EReal :=
  Ideal.tanh ((x - Ideal.div S1 (Ideal.ofBits .f32 0x47435000#32))
      * Ideal.div (Ideal.ofBits .f32 0x3F800000#32)
          (Ideal.sqrt (Ideal.div S2 (Ideal.ofBits .f32 0x47435000#32)
              - Ideal.div S1 (Ideal.ofBits .f32 0x47435000#32) * Ideal.div S1 (Ideal.ofBits .f32 0x47435000#32)
            + Ideal.ofBits .f32 0x3727C5AC#32))
      * g + b)

/-- THE RESULT ARRAY entry by entry. -/
theorem out_at (c : Dev nD) (r : Fin 50000) (j : Fin 128) :
    W6 m ρ c (Proc.devRef .tc main_v173) (ix2 r j)
      = kernelEntry (agg m c (ix2 r j)) (colSum (agg m c) j) (colSq (agg m c) j)
          (m ((c : Thread nD τ).loc main_arg5) (ix1 j)) (m ((c : Thread nD τ).loc main_arg6) (ix1 j)) := by
  rw [W6_v173]
  show squash1 (agg m c (ix2 r j)) (meanRow (resS (V3 m ρ) c) (ix2 (0 : Fin 1) j)) (invRow (resS (V3 m ρ) c) (resQ (V3 m ρ) c) (ix2 (0 : Fin 1) j))
      (asRow (m ((c : Thread nD τ).loc main_arg5)) (ix2 (0 : Fin 1) j)) (asRow (m ((c : Thread nD τ).loc main_arg6)) (ix2 (0 : Fin 1) j)) = _
  rw [meanRow_at, invRow_at, asRow_at, asRow_at, sums_at, sqs_at, zero_add, zero_add]
  rfl

end Cert.KernelIdeal.HandValue

end
-- ==== Proof.LibSparseFinite.lean ====
import Idealize.ShloMosaic.PureOps.ShapeOps
import Idealize.ShloMosaic.PureOps.Contract
import Idealize.ShloMosaic.PureOps.Ideal

/-!
# Real entries through a gather, an accumulating scatter, sums and products

At the extended reals [-∞, +∞] an entry is called real when it is (the reading of) a real number,
that is, neither infinity.  A sparse matrix product "gather the rows an index list names, scale
them, add them into the rows another index list names" keeps every entry real when its inputs are:

* a gather only copies entries of its operand (at a position the index array names, clamped into the
  operand), so whatever holds of every entry of the operand holds of every entry of the gather;
* an accumulating scatter returns, at each position, the operand's entry plus the sum of the updates
  whose target is that position (whatever the indices: they may repeat, and may point outside the
  operand, in which case the update contributes nothing); so a property that holds of 0, is closed
  under addition, and holds of every entry of the operand and every update, holds of every entry of
  the result;
* sums, differences, products, finite sums and finite sums of products of reals are real.
-/

noncomputable section

namespace Idealize.ShloMosaic.SparseFinite

open Idealize.ShloMosaic
open scoped BigOperators

/-! ## Reals among the extended reals are closed under the ring operations -/

/-- Zero is real. -/
theorem real_zero : ∃ r : ℝ, (0 : EReal) = (r : EReal) := ⟨0, EReal.coe_zero.symm⟩

/-- The sum of two reals is real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The negative of a real is real. -/
theorem real_neg {a : EReal} (ha : ∃ r : ℝ, a = (r : EReal)) : ∃ r : ℝ, -a = (r : EReal) := by
  obtain ⟨p, rfl⟩ := ha; exact ⟨-p, (EReal.coe_neg p).symm⟩

/-- A finite sum of reals is real. -/
theorem real_sum {ι : Type*} (s : Finset ι) (x : ι → EReal) (hx : ∀ i ∈ s, ∃ r : ℝ, x i = (r : EReal)) :
    ∃ r : ℝ, ∑ i ∈ s, x i = (r : EReal) :=
  Finset.sum_induction x (fun a => ∃ r : ℝ, a = (r : EReal)) (fun _ _ => real_add) real_zero hx

/-- A finite sum of products of reals (one entry of a matrix product) is real. -/
theorem real_dot {ι : Type*} (s : Finset ι) (a b : ι → EReal) (ha : ∀ i, ∃ r : ℝ, a i = (r : EReal))
    (hb : ∀ i, ∃ r : ℝ, b i = (r : EReal)) : ∃ r : ℝ, ∑ i ∈ s, a i * b i = (r : EReal) :=
  real_sum s _ fun i _ => real_mul (ha i) (hb i)

/-! ## A gather copies entries of its operand -/

section Gather

variable {α : Type} {s si t : Shape} {w : Nat}

/-- Every entry of a gather is the operand's entry at the position the gather's dimension numbers and
    index array name for it. -/
theorem gather_apply (d : GatherDims s si t) (x : s.Idx → α) (idx : IVec si w) (j : t.Idx) :
    Host.gather d x idx j = x (d.operandIdx j idx) := rfl

/-- So every entry of a gather is an entry of the operand, whatever the indices. -/
theorem gather_mem (d : GatherDims s si t) (x : s.Idx → α) (idx : IVec si w) (j : t.Idx) :
    ∃ i : s.Idx, Host.gather d x idx j = x i := ⟨_, rfl⟩

/-- A property of every entry of the operand is a property of every entry of the gather. -/
theorem gather_pred (d : GatherDims s si t) (x : s.Idx → α) (idx : IVec si w) (P : α → Prop)
    (hx : ∀ i, P (x i)) (j : t.Idx) : P (Host.gather d x idx j) := hx _

/-- A gather of an array of reals is an array of reals. -/
theorem gather_real {φ : FTy} (d : GatherDims s si t) (x : FVec Ideal s φ) (idx : IVec si w)
    (hx : ∀ i, ∃ r : ℝ, x i = (r : EReal)) (j : t.Idx) : ∃ r : ℝ, Host.gather d x idx j = (r : EReal) :=
  hx _

end Gather

/-! ## An accumulating scatter adds updates into operand entries -/

section ScatterAdd

variable {s si u : Shape} {w : Nat} {φ : FTy}

/-- At the extended reals the accumulating scatter is, at each position, the operand's entry plus the
    exact sum of the updates whose target is that position. -/
theorem scatterAdd_apply (d : ScatterDims s si u) (x : FVec Ideal s φ) (idx : IVec si w) (upd : FVec Ideal u φ)
    (i : s.Idx) : Host.scatterAdd d x idx upd i = Ideal.hostScatterAdd d x idx upd i := rfl

/-- A property that holds of 0, is closed under addition, and holds of every entry of the operand and
    of every update, holds of every entry of the accumulating scatter, whatever the indices. -/
theorem scatterAdd_pred (d : ScatterDims s si u) (x : FVec Ideal s φ) (idx : IVec si w) (upd : FVec Ideal u φ)
    (P : EReal → Prop) (h0 : P 0) (hadd : ∀ a b, P a → P b → P (a + b)) (hx : ∀ i, P (x i))
    (hupd : ∀ j, P (upd j)) (i : s.Idx) : P (Host.scatterAdd d x idx upd i) := by
  rw [scatterAdd_apply]
  unfold Ideal.hostScatterAdd
  exact hadd _ _ (hx i) (Finset.sum_induction upd P hadd h0 fun j _ => hupd j)

/-- An accumulating scatter of real updates into an operand of reals is an array of reals. -/
theorem scatterAdd_real (d : ScatterDims s si u) (x : FVec Ideal s φ) (idx : IVec si w) (upd : FVec Ideal u φ)
    (hx : ∀ i, ∃ r : ℝ, x i = (r : EReal)) (hupd : ∀ j, ∃ r : ℝ, upd j = (r : EReal)) (i : s.Idx) :
    ∃ r : ℝ, Host.scatterAdd d x idx upd i = (r : EReal) :=
  scatterAdd_pred d x idx upd (fun a => ∃ r : ℝ, a = (r : EReal)) real_zero (fun _ _ => real_add) hx hupd i

end ScatterAdd

end Idealize.ShloMosaic.SparseFinite
-- ==== Proof.LibAllReal.lean ====
import Idealize.ShloMosaic.PureOps.ShapeOps
import Idealize.ShloMosaic.PureOps.Contract
import Idealize.ShloMosaic.PureOps.Ideal
import Idealize.ShloMosaic.PureOps.Ideal.Laws
import Idealize.ShloMosaic.Lib.ValueIdx
import Idealize.ShloMosaic.Lib.ValueLayout

/-!
# Arrays of extended reals all of whose entries are real numbers

At the extended reals [-∞, +∞] an entry is called real when it is (the reading of) a real number,
that is, neither infinity.  An array is *all real* when every one of its entries is.  This file
holds the definition and the test by which an entry is recognised as real: its absolute value
lies strictly below +∞.
-/

noncomputable section

namespace Idealize.ShloMosaic.AllReal

open Idealize.ShloMosaic
open scoped BigOperators

/-- An array of extended reals is all real when each entry is the reading of a real number. -/
def _root_.Idealize.ShloMosaic.AllReal {s : Shape} (v : s.Idx → EReal) : Prop := ∀ i, ∃ r : ℝ, v i = (r : EReal)

/-- An extended real whose absolute value `max x (-x)` lies strictly below +∞ is a real number:
    it is not +∞ (then the maximum is +∞) and not -∞ (then its negation is +∞). -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

end Idealize.ShloMosaic.AllReal

end
-- ==== Proof.LibAllRealDot.lean ====
import Idealize.ShloMosaic.PureOps.Contract
import Idealize.ShloMosaic.PureOps.Ideal
import Idealize.ShloMosaic.PureOps.Ideal.Laws
import proofs.«125587_j10548439679296_1_alg».proof.Proof.LibAllReal

/-!
# A matrix product of arrays of real numbers is an array of real numbers

At the extended reals the host's `dot_general` is, at each output position, the finite sum over
the contracted index of the products of an entry of the left operand and an entry of the right one
(whatever the contraction record: any number of contracted or batch axes).  A product of two reals
is real and a finite sum of reals is real, so the product of two all-real arrays is all real.  The
same holds of the kernel's matrix product onto an all-real accumulator.
-/

noncomputable section

namespace Idealize.ShloMosaic.AllReal

open Idealize.ShloMosaic
open scoped BigOperators

/-- A finite sum of extended reals each of which is a real number is a real number (induction on
    the index set: the empty sum is 0, and the sum of two reals is real). -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨p, hp⟩ := hf a (Finset.mem_insert_self a s)
    obtain ⟨q, hq⟩ := ih fun i hi => hf i (Finset.mem_insert_of_mem hi)
    exact ⟨p + q, by rw [Finset.sum_insert ha, hp, hq, EReal.coe_add]⟩

/-- A finite sum of products of two families of real numbers is a real number. -/
theorem sum_mul_real {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  sum_real s _ fun i _ => by
    obtain ⟨p, hp⟩ := hf i
    obtain ⟨q, hq⟩ := hg i
    exact ⟨p * q, by rw [hp, hq, EReal.coe_mul]⟩

/-- The host's matrix product (`dot_general`, any contraction record, any precision) of two all-real
    arrays is all real: each entry is a finite sum of products of an entry of each operand. -/
theorem dotGeneral {sl sr so : Shape} {φ₁ φ₂ : FTy} (d : DotDims sl sr so) (prec : Option ContractPrecision)
    (a : FVec Ideal sl φ₁) (b : FVec Ideal sr φ₂) (ha : AllReal a) (hb : AllReal b) :
    AllReal (Host.dotGeneral d prec a b) := fun j => by
  show ∃ r : ℝ, FloatOps.dotGeneral d prec .single a b j = (r : EReal)
  rw [Ideal.dotGeneral_apply]
  exact sum_mul_real _ _ _ (fun k => ha _) (fun k => hb _)

/-- The same at any schedule key of the host's product. -/
theorem dotGeneralAt (sched : HostSchedule) {sl sr so : Shape} {φ₁ φ₂ : FTy} (d : DotDims sl sr so)
    (prec : Option ContractPrecision) (a : FVec Ideal sl φ₁) (b : FVec Ideal sr φ₂) (ha : AllReal a) (hb : AllReal b) :
    AllReal (Host.dotGeneralAt sched d prec a b) := fun j => by
  show ∃ r : ℝ, FloatOps.dotGeneral d prec sched a b j = (r : EReal)
  rw [Ideal.dotGeneral_apply]
  exact sum_mul_real _ _ _ (fun k => ha _) (fun k => hb _)

/-- The kernel's matrix product onto an accumulator: all real when both operands and the
    accumulator are (the accumulator's entry plus the finite sum of products). -/
theorem matmul {sl sr so : Shape} {φ₁ φ₂ : FTy} (d : DotDims sl sr so) (prec : Option ContractPrecision)
    (a : FVec Ideal sl φ₁) (b : FVec Ideal sr φ₂) (acc : FVec Ideal so .f32) (ha : AllReal a) (hb : AllReal b)
    (hacc : AllReal acc) : AllReal (Idealize.ShloMosaic.matmul d prec a b acc) := fun j => by
  show ∃ r : ℝ, FloatOps.matmul d prec a b acc j = (r : EReal)
  rw [Ideal.matmul_apply]
  obtain ⟨p, hp⟩ := hacc j
  obtain ⟨q, hq⟩ := sum_mul_real Finset.univ (fun k => a (d.lhsIdx j k)) (fun k => b (d.rhsIdx j k))
    (fun k => ha _) (fun k => hb _)
  exact ⟨p + q, by rw [hp, hq, EReal.coe_add]⟩

end Idealize.ShloMosaic.AllReal

end
-- ==== Proof.LibAllRealLayout.lean ====
import proofs.«125587_j10548439679296_1_alg».proof.Proof.LibAllReal

/-!
# All-real arrays through the operations that move, scale and build entries

An array of extended reals is all real when every entry is (the reading of) a real number.  The
property is kept by every operation whose result's entries are entries of its operands — a strided
slice, a broadcast along new or unit axes, a concatenation of a list of arrays —, by the entrywise
product and sum (products and sums of reals are real), and it holds of a constant array whose word
denotes a real number (here 1, -1 and 0 in single precision).
-/

noncomputable section

namespace Idealize.ShloMosaic.AllReal

open Idealize.ShloMosaic

/-! ## Operations that only move entries: any property of the entries is kept -/

section Move

variable {α : Type} {s t : Shape}

/-- Every entry of a strided slice is an entry of the array sliced. -/
theorem extractStridedSlice_pred (off : Fin s.rank → Nat) (x : s.Idx → α) (h : s.Slices off t) (P : α → Prop)
    (hx : ∀ i, P (x i)) (j : t.Idx) : P (extractStridedSlice t off x h j) := hx _

/-- Every entry of a broadcast is an entry of the array broadcast. -/
theorem broadcastInDim_pred (dims : Fin s.rank → Fin t.rank) (h : s.BroadcastsInDim t dims) (x : s.Idx → α)
    (P : α → Prop) (hx : ∀ i, P (x i)) (j : t.Idx) : P (broadcastInDim t dims h x j) := hx _

/-- Every entry of a concatenation is an entry of one of the arrays concatenated. -/
theorem concatenate_pred (a : Fin t.rank) (xs : List ((s : Shape) × (s.Idx → α)))
    (h : Shape.Concatenates (xs.map (·.1)) t a) (P : α → Prop) (hall : ∀ p ∈ xs, ∀ i, P (p.2 i)) (j : t.Idx) :
    P (concatenate t a xs h j) := by
  unfold concatenate
  exact hall _ (List.getElem_mem _) _

end Move

/-! ## All-real arrays -/

section Real

variable {s t : Shape}

/-- A strided slice of an all-real array is all real. -/
theorem extractStridedSlice_allReal {φ : FTy} (off : Fin s.rank → Nat) (x : FVec Ideal s φ) (h : s.Slices off t)
    (hx : AllReal x) : AllReal (extractStridedSlice t off x h) :=
  fun j => extractStridedSlice_pred off x h (fun a => ∃ r : ℝ, a = (r : EReal)) hx j

/-- A broadcast of an all-real array is all real. -/
theorem broadcastInDim_allReal {φ : FTy} (dims : Fin s.rank → Fin t.rank) (h : s.BroadcastsInDim t dims)
    (x : FVec Ideal s φ) (hx : AllReal x) : AllReal (broadcastInDim t dims h x) :=
  fun j => broadcastInDim_pred dims h x (fun a => ∃ r : ℝ, a = (r : EReal)) hx j

/-- A concatenation of all-real arrays is all real. -/
theorem concatenate_allReal (a : Fin t.rank) (xs : List ((s : Shape) × (s.Idx → EReal)))
    (h : Shape.Concatenates (xs.map (·.1)) t a) (hall : ∀ p ∈ xs, AllReal p.2) :
    AllReal (concatenate t a xs h) :=
  fun j => concatenate_pred a xs h (fun a => ∃ r : ℝ, a = (r : EReal)) (fun p hp i => hall p hp i) j

/-- The entrywise product of two all-real arrays is all real. -/
theorem mulf_allReal {φ : FTy} (x y : FVec Ideal s φ) (hx : AllReal x) (hy : AllReal y) : AllReal (mulf x y) := by
  intro i
  obtain ⟨p, hp⟩ := hx i
  obtain ⟨q, hq⟩ := hy i
  exact ⟨p * q, by show x i * y i = _; rw [hp, hq, EReal.coe_mul]⟩

/-- The entrywise sum of two all-real arrays is all real. -/
theorem addf_allReal {φ : FTy} (x y : FVec Ideal s φ) (hx : AllReal x) (hy : AllReal y) : AllReal (addf x y) := by
  intro i
  obtain ⟨p, hp⟩ := hx i
  obtain ⟨q, hq⟩ := hy i
  exact ⟨p + q, by show x i + y i = _; rw [hp, hq, EReal.coe_add]⟩

/-- A constant array is all real when its word denotes a real number. -/
theorem constant_of {φ : FTy} (b : BitVec φ.bits) (hb : ∃ r : ℝ, Ideal.ofBits φ b = (r : EReal)) :
    AllReal (constant (F := Ideal) s φ b) := fun _ => hb

/-- The single-precision word of 1 denotes the real 1. -/
theorem ofBits_one : Ideal.ofBits .f32 0x3F800000#32 = ((1 : ℝ) : EReal) := by
  simp [Ideal.ofBits, Ideal.ieee, -EReal.coe_mul]; norm_num
/-- The single-precision word of -1 denotes the real -1. -/
theorem ofBits_negOne : Ideal.ofBits .f32 0xBF800000#32 = ((-1 : ℝ) : EReal) := by
  simp [Ideal.ofBits, Ideal.ieee, -EReal.coe_mul]; norm_num
/-- The single-precision word of 0 denotes the real 0. -/
theorem ofBits_zero : Ideal.ofBits .f32 0x00000000#32 = ((0 : ℝ) : EReal) := by
  simp [Ideal.ofBits, Ideal.ieee]

/-- The constant array of 1 is all real. -/
theorem constant_one : AllReal (constant (F := Ideal) s .f32 0x3F800000#32) := constant_of _ ⟨1, ofBits_one⟩
/-- The constant array of -1 is all real. -/
theorem constant_negOne : AllReal (constant (F := Ideal) s .f32 0xBF800000#32) := constant_of _ ⟨-1, ofBits_negOne⟩
/-- The constant array of 0 is all real. -/
theorem constant_zero : AllReal (constant (F := Ideal) s .f32 0x00000000#32) := constant_of _ ⟨0, ofBits_zero⟩

end Real

end Idealize.ShloMosaic.AllReal

end
-- ==== Proof.HamReal.lean ====
/- The 128×128 matrix built from an all-real 16×128 table of weights is all real: its entries are entries
   of the table times plus or minus one. -/
import proofs.«125587_j10548439679296_1_alg».proof.Proof.RefRunDefs
import proofs.«125587_j10548439679296_1_alg».proof.Proof.LibAllRealLayout

noncomputable section

namespace Cert.ReferenceIdeal.RefRun

open Cert.ReferenceIdeal Cert.ReferenceIdeal.Gen Idealize.ShloMosaic Idealize.ShloMosaic.AllReal

/-- A 16×16 block of an all-real table is all real (each of the eight column blocks). -/
theorem sl_allReal (w : (⟨S16x128, .f32⟩ : BufTy).Contents (Elt Ideal)) (hw : AllReal (s := S16x128) w) :
    AllReal (s := S16x16) (sl0 w) ∧ AllReal (s := S16x16) (sl1 w) ∧ AllReal (s := S16x16) (sl2 w)
      ∧ AllReal (s := S16x16) (sl3 w) ∧ AllReal (s := S16x16) (sl4 w) ∧ AllReal (s := S16x16) (sl5 w)
      ∧ AllReal (s := S16x16) (sl6 w) ∧ AllReal (s := S16x16) (sl7 w) :=
  ⟨extractStridedSlice_allReal (φ := .f32) _ _ _ hw, extractStridedSlice_allReal (φ := .f32) _ _ _ hw, extractStridedSlice_allReal (φ := .f32) _ _ _ hw,
   extractStridedSlice_allReal (φ := .f32) _ _ _ hw, extractStridedSlice_allReal (φ := .f32) _ _ _ hw, extractStridedSlice_allReal (φ := .f32) _ _ _ hw,
   extractStridedSlice_allReal (φ := .f32) _ _ _ hw, extractStridedSlice_allReal (φ := .f32) _ _ _ hw⟩

/-- An all-real block times the constant one is all real. -/
theorem pos_allReal (x : (⟨S16x16, .f32⟩ : BufTy).Contents (Elt Ideal)) (hx : AllReal (s := S16x16) x) :
    AllReal (s := S16x16) (pos x) :=
  mulf_allReal (φ := .f32) _ _ (broadcastInDim_allReal (φ := .f32) _ _ _ constant_one) hx

/-- An all-real block times the constant minus one is all real. -/
theorem neg_allReal (x : (⟨S16x16, .f32⟩ : BufTy).Contents (Elt Ideal)) (hx : AllReal (s := S16x16) x) :
    AllReal (s := S16x16) (neg x) :=
  mulf_allReal (φ := .f32) _ _ (broadcastInDim_allReal (φ := .f32) _ _ _ constant_negOne) hx

/-- Eight all-real blocks stacked along the rows are all real. -/
theorem cat0_allReal (u0 u1 u2 u3 u4 u5 u6 u7 : (⟨S16x16, .f32⟩ : BufTy).Contents (Elt Ideal))
    (h0 : AllReal (s := S16x16) u0) (h1 : AllReal (s := S16x16) u1) (h2 : AllReal (s := S16x16) u2)
    (h3 : AllReal (s := S16x16) u3) (h4 : AllReal (s := S16x16) u4) (h5 : AllReal (s := S16x16) u5)
    (h6 : AllReal (s := S16x16) u6) (h7 : AllReal (s := S16x16) u7) :
    AllReal (s := S128x16) (cat0 u0 u1 u2 u3 u4 u5 u6 u7) := by
  refine concatenate_allReal _ _ _ fun p hp => ?_
  simp only [List.mem_cons, List.not_mem_nil, or_false] at hp
  rcases hp with rfl | rfl | rfl | rfl | rfl | rfl | rfl | rfl <;> assumption

/-- Eight all-real strips side by side are all real. -/
theorem cat1_allReal (u0 u1 u2 u3 u4 u5 u6 u7 : (⟨S128x16, .f32⟩ : BufTy).Contents (Elt Ideal))
    (h0 : AllReal (s := S128x16) u0) (h1 : AllReal (s := S128x16) u1) (h2 : AllReal (s := S128x16) u2)
    (h3 : AllReal (s := S128x16) u3) (h4 : AllReal (s := S128x16) u4) (h5 : AllReal (s := S128x16) u5)
    (h6 : AllReal (s := S128x16) u6) (h7 : AllReal (s := S128x16) u7) :
    AllReal (s := S128x128) (cat1 u0 u1 u2 u3 u4 u5 u6 u7) := by
  refine concatenate_allReal _ _ _ fun p hp => ?_
  simp only [List.mem_cons, List.not_mem_nil, or_false] at hp
  rcases hp with rfl | rfl | rfl | rfl | rfl | rfl | rfl | rfl <;> assumption

/-- The 128×128 matrix of signed blocks of an all-real table is all real. -/
theorem ham_allReal (w : (⟨S16x128, .f32⟩ : BufTy).Contents (Elt Ideal)) (hw : AllReal (s := S16x128) w) :
    AllReal (s := S128x128) (ham w) := by
  obtain ⟨s0, s1, s2, s3, s4, s5, s6, s7⟩ := sl_allReal w hw
  have p0 := pos_allReal _ s0; have p1 := pos_allReal _ s1; have p2 := pos_allReal _ s2; have p3 := pos_allReal _ s3
  have p4 := pos_allReal _ s4; have p5 := pos_allReal _ s5; have p6 := pos_allReal _ s6; have p7 := pos_allReal _ s7
  have n0 := neg_allReal _ s0; have n1 := neg_allReal _ s1; have n2 := neg_allReal _ s2; have n3 := neg_allReal _ s3
  have n4 := neg_allReal _ s4; have n5 := neg_allReal _ s5; have n6 := neg_allReal _ s6; have n7 := neg_allReal _ s7
  unfold ham
  refine cat1_allReal _ _ _ _ _ _ _ _ ?_ ?_ ?_ ?_ ?_ ?_ ?_ ?_ <;>
    exact cat0_allReal _ _ _ _ _ _ _ _ (by assumption) (by assumption) (by assumption) (by assumption)
      (by assumption) (by assumption) (by assumption) (by assumption)

end Cert.ReferenceIdeal.RefRun

end
-- ==== Proof.SpmmReal.lean ====
import proofs.«125587_j10548439679296_1_alg».proof.Proof.RefRunDefs
import proofs.«125587_j10548439679296_1_alg».proof.Proof.LibSparseFinite
import proofs.«125587_j10548439679296_1_alg».proof.Proof.LibAllRealDot
import proofs.«125587_j10548439679296_1_alg».proof.Proof.LibAllRealLayout
import proofs.«125587_j10548439679296_1_alg».proof.Proof.HamReal

/-!
# The aggregated features are real numbers

The array that is normalised column by column is a sparse product applied to a dense product:

* the dense product multiplies the 50000×128 features by the 128×128 matrix built from the table
  of weights; each of its entries is a finite sum of products of a feature and a matrix entry, the
  matrix entries being plus or minus entries of the table;
* the sparse product starts from the zero array and adds, for each of the 800000 listed edges, the
  edge's value times the row of its operand that the edge's column index names into the row its row
  index names.  Each entry of the result is therefore 0 plus a finite sum of terms "an edge value
  times an entry of the operand", whatever the two index lists hold (an index that points outside
  the array contributes nothing; the read of a row is clamped into the array).

So when the features, the edge values and the table of weights hold real numbers only, so does the
aggregated array: reals are closed under products and finite sums.
-/

noncomputable section

namespace Cert.Proof.SpmmReal

open Cert.ReferenceIdeal Cert.ReferenceIdeal.Gen Cert.ReferenceIdeal.RefRun Idealize.ShloMosaic

/-- The sparse product of an all-real array by all-real edge values is all real, whatever the row
    and column indices of the edges: it is the zero array plus, at each position, a finite sum of
    products of an edge value and a gathered entry of the operand. -/
theorem spmm_real (s : (⟨S50000x128, .f32⟩ : BufTy).Contents (Elt Ideal))
    (row col : (⟨S800000, .i32⟩ : BufTy).Contents (Elt Ideal))
    (val : (⟨S800000, .f32⟩ : BufTy).Contents (Elt Ideal))
    (hs : AllReal (s := S50000x128) s) (hval : AllReal (s := S800000) val) :
    AllReal (s := S50000x128) (spmm (F := Ideal) s row col val) := by
  intro i
  unfold spmm
  refine SparseFinite.scatterAdd_real _ _ _ _ ?_ ?_ i
  · -- the operand of the accumulation: the zero array
    exact AllReal.broadcastInDim_allReal (φ := .f32) _ _ _ AllReal.constant_zero
  · -- each update: an edge value (copied along the row) times a gathered entry of the operand
    exact AllReal.mulf_allReal (φ := .f32) _ _
      (AllReal.broadcastInDim_allReal (φ := .f32) _ _ _ (AllReal.broadcastInDim_allReal (φ := .f32) _ _ _ hval))
      (fun j => SparseFinite.gather_real _ _ _ hs j)

/-- The aggregated features — the sparse product of the dense product of the features by the
    128×128 matrix of the table of weights — are all real when the features, the edge values and the
    table are. -/
theorem agg_real (a0 : (⟨S50000x128, .f32⟩ : BufTy).Contents (Elt Ideal))
    (a1 a2 : (⟨S800000, .i32⟩ : BufTy).Contents (Elt Ideal))
    (a3 : (⟨S800000, .f32⟩ : BufTy).Contents (Elt Ideal))
    (a4 : (⟨S16x128, .f32⟩ : BufTy).Contents (Elt Ideal))
    (h0 : AllReal (s := S50000x128) a0) (h3 : AllReal (s := S800000) a3) (h4 : AllReal (s := S16x128) a4) :
    AllReal (s := S50000x128)
      (spmm (F := Ideal) (Host.dotGeneral (F := Ideal) (φ₁ := .f32) (φ₂ := .f32) dot_S50000x128_S128x128_S50000x128_1_0_0_1_n_n none a0 (ham (F := Ideal) a4)) a1 a2 a3) :=
  spmm_real _ a1 a2 a3
    (AllReal.dotGeneral (φ₁ := .f32) (φ₂ := .f32) dot_S50000x128_S128x128_S50000x128_1_0_0_1_n_n none a0 (ham (F := Ideal) a4) h0
      (ham_allReal a4 h4))
    h3

end Cert.Proof.SpmmReal

end
-- ==== Proof.PreReal.lean ====
import proofs.«125587_j10548439679296_1_alg».proof.Pre_finite_inputs
import proofs.«125587_j10548439679296_1_alg».proof.Defs
import Idealize.ShloMosaic.Lib.ReduceAll
import proofs.«125587_j10548439679296_1_alg».proof.Proof.LibAllReal

/-!
# The precondition read back: every float argument is an array of real numbers

The precondition is the conjunction, over the five float arguments x, of "every entry of |x| is
strictly below +∞", each conjunct printed as a reduction by `and` (from the constant 1) of the
array of comparison bits, and the claim that the conjunction is 1.

* A conjunction of bits is 1 exactly when each bit is.
* A reduction by `and` over all axes that came out 1 met a 1 at every entry.
* The word 0x7F800000 (sign 0, exponent all ones, fraction 0) denotes +∞.
* At the extended reals |x| is max x (-x); it lies strictly below +∞ exactly when x is neither
  +∞ (then the maximum is +∞) nor -∞ (then -x is +∞): that is, when x is a real number.
-/

noncomputable section

namespace Cert.Proof.PreReal

open Idealize.ShloMosaic
open Cert.Pre_finite_inputs

/-- The shape with no axes has exactly one index. -/
instance : Subsingleton S_.Idx := ⟨fun a b => funext fun d => d.elim0⟩

/-- The single-precision word with sign 0, all exponent bits set and fraction 0 denotes +∞. -/
theorem inf_word : Ideal.ofBits .f32 0x7F800000#32 = (⊤ : EReal) := by
  simp [Ideal.ofBits, Ideal.ieee]

/-- The bit of a truth value is 1 exactly when the truth value is true. -/
theorem ofBool_eq_one (b : Bool) : BitVec.ofBool b = 1#1 ↔ b = true := by cases b <;> decide

/-- One entry: if the comparison |x| < +∞ answers 1 at the extended reals, x is a real number. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  apply AllReal.real_of_abs_lt_top
  have h' : Ideal.cmp .olt (max x (-x)) (Ideal.ofBits .f32 0x7F800000#32) = 1#1 := h
  rw [inf_word] at h'
  unfold Ideal.cmp at h'
  rw [ofBool_eq_one] at h'
  simpa using h'

variable [Cert.Pre_finite_inputs.Facts]

/-- THE PRECONDITION DECODED: if the printed predicate (all |x| < +∞ for each of the five float
    arguments, conjoined) is 1 at the extended reals, every entry of each float argument is a real
    number.  The two integer arguments do not occur in the predicate. -/
theorem real_of_pre (a0 : FVec Ideal S50000x128 .f32) (a1 a2 : IVec S800000 32) (a3 : FVec Ideal S800000 .f32)
    (a4 : FVec Ideal S16x128 .f32) (a5 a6 : FVec Ideal S128 .f32)
    (h : Cert.Pre_finite_inputs.fn (F := Ideal) a0 a1 a2 a3 a4 a5 a6 = fun _ => 1#1) :
    AllReal a0 ∧ AllReal a3 ∧ AllReal a4 ∧ AllReal a5 ∧ AllReal a6 := by
  have e := congrFun h ValueIdx.ix0
  unfold Cert.Pre_finite_inputs.fn Cert.Pre_finite_inputs.fn_part1 at e
  dsimp only at e
  -- the conjunction of the five reductions is 1: each reduction is 1
  simp only [andi, IntOp.andi_eq_one] at e
  obtain ⟨⟨⟨⟨h0, h3⟩, h4⟩, h5⟩, h6⟩ := e
  -- a reduction by `and` over every axis that is 1 met a 1 at every entry; read that entry's comparison
  refine ⟨fun i => ?_, fun i => ?_, fun i => ?_, fun i => ?_, fun i => ?_⟩
  · exact real_of_cmp (a0 i) (Host.reduce_andi_all _ _ _ _ _ h0 i)
  · exact real_of_cmp (a3 i) (Host.reduce_andi_all _ _ _ _ _ h3 i)
  · exact real_of_cmp (a4 i) (Host.reduce_andi_all _ _ _ _ _ h4 i)
  · exact real_of_cmp (a5 i) (Host.reduce_andi_all _ _ _ _ _ h5 i)
  · exact real_of_cmp (a6 i) (Host.reduce_andi_all _ _ _ _ _ h6 i)

/-- The same for the launch memory of the kernel at the extended reals: under its precondition, on
    every device, each of its five float argument arrays has only real entries. -/
theorem real_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := S50000x128) (m ((c.tc : Thread Cert.KernelIdeal.nD Cert.KernelIdeal.τ).loc Cert.KernelIdeal.main_arg0))
    ∧ AllReal (s := S800000) (m ((c.tc : Thread Cert.KernelIdeal.nD Cert.KernelIdeal.τ).loc Cert.KernelIdeal.main_arg3))
    ∧ AllReal (s := S16x128) (m ((c.tc : Thread Cert.KernelIdeal.nD Cert.KernelIdeal.τ).loc Cert.KernelIdeal.main_arg4))
    ∧ AllReal (s := S128) (m ((c.tc : Thread Cert.KernelIdeal.nD Cert.KernelIdeal.τ).loc Cert.KernelIdeal.main_arg5))
    ∧ AllReal (s := S128) (m ((c.tc : Thread Cert.KernelIdeal.nD Cert.KernelIdeal.τ).loc Cert.KernelIdeal.main_arg6)) :=
  real_of_pre _ _ _ _ _ _ _ (h c)

end Cert.Proof.PreReal

end
-- ==== Proof.LibNormLaw.lean ====
import Idealize.ShloMosaic.PureOps.Ideal
import Idealize.ShloMosaic.PureOps.Ideal.Laws

/-!
# Normalising a column by its mean and variance, at the extended reals

A column of real numbers x i (i ranging over a finite set of N rows) is normalised by its mean
m = (∑ x) / N and its (biased) variance v, the normalised entry being (x i₀ - m) / √(v + ε), and a
monotone squashing (tanh) of an affine image of that entry is returned.  The variance may be computed
as the mean of the squares minus the square of the mean, (∑ x²) / N - m², or as the mean of the squared
deviations, (∑ (x - m)²) / (N - 0); and the division by the root may be carried out as a product
with the reciprocal 1 / √(v + ε).  On the REAL numbers these are textbook identities.  On the extended
reals [-∞, +∞] distributivity and cancellation fail at the infinities, so the identities are proved
here under the hypothesis that every entry of the column is real: then every intermediate quantity is
real (this is exported too), the computation can be carried out in ℝ, and the two forms agree.

All quotients are the extended reals' division Ideal.div, all roots Ideal.sqrt.
-/

noncomputable section

namespace Idealize.ShloMosaic.NormLaw

open Idealize.ShloMosaic
open scoped BigOperators

/-! ## Reading real sums, quotients and roots in the extended reals -/

/-- The sum of finitely many reals, read in the extended reals, is the sum of the readings. -/
theorem coe_sum {ι : Type*} (s : Finset ι) (r : ι → ℝ) :
    ((∑ i ∈ s, r i : ℝ) : EReal) = ∑ i ∈ s, ((r i : ℝ) : EReal) := by
  classical
  induction s using Finset.induction_on with
  | empty => simp
  | insert a s ha ih => rw [Finset.sum_insert ha, Finset.sum_insert ha, EReal.coe_add, ih]

/-- A finite sum of extended reals each of which is real is real. -/
theorem sum_real {ι : Type*} (s : Finset ι) (x : ι → EReal) (hx : ∀ i, ∃ r : ℝ, x i = (r : EReal)) :
    ∃ r : ℝ, ∑ i ∈ s, x i = (r : EReal) := by
  choose r hr using hx
  exact ⟨∑ i ∈ s, r i, by rw [coe_sum]; exact Finset.sum_congr rfl fun i _ => hr i⟩

/-- The quotient of a real by a nonzero real, in the extended reals, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The root of a nonnegative real, in the extended reals, is the real root. -/
theorem sqrt_coe_of_nonneg {r : ℝ} (hr : 0 ≤ r) : Ideal.sqrt (r : EReal) = ((Real.sqrt r : ℝ) : EReal) := by
  rw [Ideal.sqrt_coe, if_neg (not_lt.mpr hr)]

/-! ## The variance, two ways (real numbers) -/

/-- On the reals: the mean of the squares minus the square of the mean is the mean of the squared
    deviations from the mean.  N is the number of terms and is not zero. -/
theorem var_eq_real {ι : Type*} [Fintype ι] (r : ι → ℝ) {N : ℝ} (hN : N ≠ 0)
    (hcard : (Fintype.card ι : ℝ) = N) :
    (∑ i, r i * r i) / N - (∑ i, r i) / N * ((∑ i, r i) / N)
      = (∑ i, (r i - (∑ i, r i) / N) * (r i - (∑ i, r i) / N)) / (N - 0) := by
  have h : ∑ i, (r i - (∑ i, r i) / N) * (r i - (∑ i, r i) / N)
      = (∑ i, r i * r i) - 2 * ((∑ i, r i) / N) * (∑ i, r i) + N * (((∑ i, r i) / N) * ((∑ i, r i) / N)) := by
    have : ∀ i, (r i - (∑ i, r i) / N) * (r i - (∑ i, r i) / N)
        = r i * r i - 2 * ((∑ i, r i) / N) * r i + ((∑ i, r i) / N) * ((∑ i, r i) / N) := fun i => by ring
    simp only [this, Finset.sum_add_distrib, Finset.sum_sub_distrib, ← Finset.mul_sum, Finset.sum_const,
      Finset.card_univ, nsmul_eq_mul, hcard]
    ring
  rw [h, sub_zero]
  field_simp
  ring

/-- On the reals the mean of the squared deviations is not negative (N > 0). -/
theorem var_nonneg_real {ι : Type*} [Fintype ι] (r : ι → ℝ) (m : ℝ) {N : ℝ} (hN : 0 < N) :
    0 ≤ (∑ i, (r i - m) * (r i - m)) / (N - 0) := by
  rw [sub_zero]
  exact div_nonneg (Finset.sum_nonneg fun i _ => mul_self_nonneg _) hN.le

/-! ## The column's quantities, over real witnesses -/

section Column

variable {ι : Type*} [Fintype ι]

/-- The mean of a real column, in the extended reals, is the real mean. -/
theorem mean_coe (r : ι → ℝ) {N : ℝ} (hN : N ≠ 0) :
    Ideal.div (∑ i, ((r i : ℝ) : EReal)) (N : EReal) = (((∑ i, r i) / N : ℝ) : EReal) := by
  rw [← coe_sum, div_coe_coe _ hN]

/-- The variance of a real column as "mean of squares minus square of mean", in the extended reals,
    is the same expression in the reals. -/
theorem var_sq_coe (r : ι → ℝ) {N : ℝ} (hN : N ≠ 0) :
    Ideal.div (∑ i, ((r i : ℝ) : EReal) * ((r i : ℝ) : EReal)) (N : EReal)
        - Ideal.div (∑ i, ((r i : ℝ) : EReal)) (N : EReal) * Ideal.div (∑ i, ((r i : ℝ) : EReal)) (N : EReal)
      = (((∑ i, r i * r i) / N - (∑ i, r i) / N * ((∑ i, r i) / N) : ℝ) : EReal) := by
  rw [mean_coe r hN]
  simp only [← EReal.coe_mul]
  rw [← coe_sum, div_coe_coe _ hN, ← EReal.coe_sub]

/-- The variance of a real column as "mean of squared deviations", in the extended reals, is the
    same expression in the reals.  The divisor is N - 0 (a count less zero degrees of freedom). -/
theorem var_dev_coe (r : ι → ℝ) {N : ℝ} (hN : N ≠ 0) :
    Ideal.div (∑ i, (((r i : ℝ) : EReal) - Ideal.div (∑ i, ((r i : ℝ) : EReal)) (N : EReal))
          * (((r i : ℝ) : EReal) - Ideal.div (∑ i, ((r i : ℝ) : EReal)) (N : EReal))) ((N : EReal) - 0)
      = (((∑ i, (r i - (∑ i, r i) / N) * (r i - (∑ i, r i) / N)) / (N - 0) : ℝ) : EReal) := by
  rw [mean_coe r hN]
  simp only [← EReal.coe_sub, ← EReal.coe_mul]
  rw [← coe_sum, sub_zero, sub_zero, div_coe_coe _ hN]

end Column

/-! ## The laws, for a column of extended reals every entry of which is real -/

section Laws

variable {ι : Type*} [Fintype ι]

/-- **The variance, two ways.**  For a column x whose entries are all real, with n the (real, nonzero)
    number N of its rows and z = 0: the mean of the squares minus the square of the mean equals the mean
    (over n - z) of the squared deviations from the mean.  Every quotient is Ideal.div. -/
theorem var_eq (x : ι → EReal) (hx : ∀ i, ∃ r : ℝ, x i = (r : EReal)) {N : ℝ} (hN : N ≠ 0)
    (hcard : (Fintype.card ι : ℝ) = N) (n z : EReal) (hn : n = (N : EReal)) (hz : z = 0) :
    Ideal.div (∑ i, x i * x i) n - Ideal.div (∑ i, x i) n * Ideal.div (∑ i, x i) n
      = Ideal.div (∑ i, (x i - Ideal.div (∑ i, x i) n) * (x i - Ideal.div (∑ i, x i) n)) (n - z) := by
  choose r hr using hx
  obtain rfl : x = fun i => ((r i : ℝ) : EReal) := funext hr
  subst hn hz
  rw [var_sq_coe r hN, var_dev_coe r hN, var_eq_real r hN hcard]

/-- The mean of a column with real entries is real. -/
theorem mean_real (x : ι → EReal) (hx : ∀ i, ∃ r : ℝ, x i = (r : EReal)) {N : ℝ} (hN : N ≠ 0)
    (n : EReal) (hn : n = (N : EReal)) : ∃ m : ℝ, Ideal.div (∑ i, x i) n = (m : EReal) := by
  choose r hr using hx
  obtain rfl : x = fun i => ((r i : ℝ) : EReal) := funext hr
  subst hn
  exact ⟨_, mean_coe r hN⟩

/-- The variance of a column with real entries, as mean of squares minus square of mean, is a real
    number that is not negative (N the number of rows, positive). -/
theorem var_sq_real (x : ι → EReal) (hx : ∀ i, ∃ r : ℝ, x i = (r : EReal)) {N : ℝ} (hN : 0 < N)
    (hcard : (Fintype.card ι : ℝ) = N) (n : EReal) (hn : n = (N : EReal)) :
    ∃ v : ℝ, 0 ≤ v ∧
      Ideal.div (∑ i, x i * x i) n - Ideal.div (∑ i, x i) n * Ideal.div (∑ i, x i) n = (v : EReal) := by
  choose r hr using hx
  obtain rfl : x = fun i => ((r i : ℝ) : EReal) := funext hr
  subst hn
  refine ⟨_, ?_, var_sq_coe r hN.ne'⟩
  rw [var_eq_real r hN.ne' hcard]
  exact var_nonneg_real r _ hN

/-- The variance of a column with real entries, as mean of squared deviations, is a real number that
    is not negative. -/
theorem var_dev_real (x : ι → EReal) (hx : ∀ i, ∃ r : ℝ, x i = (r : EReal)) {N : ℝ} (hN : 0 < N)
    (n z : EReal) (hn : n = (N : EReal)) (hz : z = 0) :
    ∃ v : ℝ, 0 ≤ v ∧
      Ideal.div (∑ i, (x i - Ideal.div (∑ i, x i) n) * (x i - Ideal.div (∑ i, x i) n)) (n - z) = (v : EReal) := by
  choose r hr using hx
  obtain rfl : x = fun i => ((r i : ℝ) : EReal) := funext hr
  subst hn hz
  exact ⟨_, var_nonneg_real r _ hN, var_dev_coe r hN.ne'⟩

end Laws

/-! ## The root and the reciprocal of the root -/

/-- The root of a nonnegative real plus a positive real is a positive real. -/
theorem sqrt_add_real {v eps : EReal} (hv : ∃ r : ℝ, 0 ≤ r ∧ v = (r : EReal))
    (heps : ∃ e : ℝ, 0 < e ∧ eps = (e : EReal)) :
    ∃ s : ℝ, 0 < s ∧ Ideal.sqrt (v + eps) = (s : EReal) := by
  obtain ⟨r, hr, rfl⟩ := hv
  obtain ⟨e, he, rfl⟩ := heps
  refine ⟨Real.sqrt (r + e), Real.sqrt_pos.mpr (by linarith), ?_⟩
  rw [← EReal.coe_add, sqrt_coe_of_nonneg (by linarith)]

/-- The reciprocal of that root is a positive real. -/
theorem inv_sqrt_add_real {one v eps : EReal} (hone : one = 1) (hv : ∃ r : ℝ, 0 ≤ r ∧ v = (r : EReal))
    (heps : ∃ e : ℝ, 0 < e ∧ eps = (e : EReal)) :
    ∃ t : ℝ, 0 < t ∧ Ideal.div one (Ideal.sqrt (v + eps)) = (t : EReal) := by
  obtain ⟨s, hs0, hs⟩ := sqrt_add_real hv heps
  exact ⟨1 / s, one_div_pos.mpr hs0, by rw [hs, hone, Ideal.div_coe hs0.ne', one_mul]⟩

/-- **Dividing by the root is multiplying by its reciprocal**, whatever extended real X is divided:
    X * (one / √(v + ε)) = X / √(v + ε) for one = 1, v a real ≥ 0 and ε a real > 0. -/
theorem norm_eq (X : EReal) {one v eps : EReal} (hone : one = 1) (hv : ∃ r : ℝ, 0 ≤ r ∧ v = (r : EReal))
    (heps : ∃ e : ℝ, 0 < e ∧ eps = (e : EReal)) :
    X * Ideal.div one (Ideal.sqrt (v + eps)) = Ideal.div X (Ideal.sqrt (v + eps)) := by
  obtain ⟨s, hs0, hs⟩ := sqrt_add_real hv heps
  rw [hs, hone, Ideal.div_coe hs0.ne', Ideal.div_coe hs0.ne', one_mul]

/-- The two squashed results agree once the two variances do: for any numerator X, scale g and shift b,
    tanh (X * (one / √(vk + ε)) * g + b) = tanh (X / √(vr + ε) * g + b) when vk = vr is a real ≥ 0. -/
theorem squash_eq (X g b : EReal) {one vk vr eps : EReal} (hone : one = 1) (hvv : vk = vr)
    (hv : ∃ r : ℝ, 0 ≤ r ∧ vr = (r : EReal)) (heps : ∃ e : ℝ, 0 < e ∧ eps = (e : EReal)) :
    Ideal.tanh (X * Ideal.div one (Ideal.sqrt (vk + eps)) * g + b)
      = Ideal.tanh (Ideal.div X (Ideal.sqrt (vr + eps)) * g + b) := by
  subst hvv
  rw [norm_eq X hone hv heps]

/-- **The normalised, squashed column, two ways.**  For a column x with real entries, n its number of
    rows N > 0, z = 0, one = 1, ε a positive real, and any scale g, shift b and row i₀: normalising by the
    reciprocal root of "mean of squares minus square of mean" and normalising by the root of "mean of
    squared deviations" give the same value. -/
theorem bn_eq {ι : Type*} [Fintype ι] (x : ι → EReal) (hx : ∀ i, ∃ r : ℝ, x i = (r : EReal)) {N : ℝ}
    (hN : 0 < N) (hcard : (Fintype.card ι : ℝ) = N) (n z one eps : EReal) (hn : n = (N : EReal))
    (hz : z = 0) (hone : one = 1) (heps : ∃ e : ℝ, 0 < e ∧ eps = (e : EReal)) (g b : EReal) (i₀ : ι) :
    Ideal.tanh ((x i₀ - Ideal.div (∑ i, x i) n)
          * Ideal.div one (Ideal.sqrt
              (Ideal.div (∑ i, x i * x i) n - Ideal.div (∑ i, x i) n * Ideal.div (∑ i, x i) n + eps))
          * g + b)
      = Ideal.tanh (Ideal.div (x i₀ - Ideal.div (∑ i, x i) n)
          (Ideal.sqrt
              (Ideal.div (∑ i, (x i - Ideal.div (∑ i, x i) n) * (x i - Ideal.div (∑ i, x i) n)) (n - z) + eps))
          * g + b) :=
  squash_eq _ g b hone (var_eq x hx hN.ne' hcard n z hn hz) (var_dev_real x hx hN n z hn hz) heps

/-- The comparison "count less zero is above zero" is true: the word 1. -/
theorem cmp_ogt_count {N : ℝ} (hN : 0 < N) (n z zero : EReal) (hn : n = (N : EReal)) (hz : z = 0)
    (hzero : zero = 0) : Ideal.cmp .ogt (n - z) zero = 1#1 := by
  subst hn hz hzero
  simp [Ideal.cmp, hN]

/-! ## Kernel-side and host-side operations are one function here -/

/-- The host's tanh and a kernel's tanh are the same function of an extended real. -/
theorem hostTanh_eq_tanh {φ : FTy} (x : Ideal φ) :
    FloatOps.hostUnary .tanh x = FloatOps.tanh x ∧ FloatOps.tanh x = Ideal.tanh x := ⟨rfl, rfl⟩

/-- The host's root and a kernel's root are the same function of an extended real. -/
theorem hostSqrt_eq_sqrt {φ : FTy} (x : Ideal φ) :
    FloatOps.hostUnary .sqrt x = FloatOps.sqrt x ∧ FloatOps.sqrt x = Ideal.sqrt x := ⟨rfl, rfl⟩

/-- The host's quotient and a kernel's quotient are the same function of two extended reals. -/
theorem hostDivf_eq_divf {φ : FTy} (x y : Ideal φ) :
    FloatOps.hostDivf x y = FloatOps.divf x y ∧ FloatOps.divf x y = Ideal.div x y := ⟨rfl, rfl⟩

/-! ## The constants of a 50000-row column in single precision -/

/-- The pattern of 50000.0 denotes the real 50000. -/
theorem ofBits_50000 : Ideal.ofBits .f32 0x47435000#32 = ((50000 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The single-precision number nearest 1e-5 denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The integer word 0 converted to a float denotes 0. -/
theorem sitofp_zero {φ : FTy} : FloatOps.sitofp (F := Ideal) φ (0#32) = (0 : EReal) := by
  show (((0#32 : BitVec 32).toInt : ℝ) : EReal) = 0
  simp

/-- The number of rows of a 50000-row column, as a real. -/
theorem card_50000 : (Fintype.card (Fin 50000) : ℝ) = 50000 := by simp

end Idealize.ShloMosaic.NormLaw
-- ==== Proof.RefRead.lean ====
/- The batch normalisation followed by the hyperbolic tangent, read at one entry as extended-real arithmetic:
   the column's mean and variance as plain sums over the fifty thousand rows. -/
import proofs.«125587_j10548439679296_1_alg».proof.Proof.RefRunDefs
import proofs.«125587_j10548439679296_1_alg».proof.Proof.LibNormLaw
import Idealize.ShloMosaic.Lib.ValueIdx
import Idealize.ShloMosaic.Lib.ValueLayout
import Idealize.ShloMosaic.PureOps.Ideal.Laws

noncomputable section

namespace Cert.ReferenceIdeal.RefRun

open Cert.ReferenceIdeal Cert.ReferenceIdeal.Gen Idealize.ShloMosaic Idealize.ShloMosaic.ValueIdx
open scoped BigOperators

/-! ## Two broadcasts read at an entry -/

/-- One row laid over fifty thousand, read at row `i`, column `j`: the row at column `j`. -/
theorem bcast01_apply {α : Type} (u : S1x128.Idx → α) (i : Fin 50000) (j : Fin 128) :
    broadcastInDim S50000x128 ![0, 1] bcast_S1x128_S50000x128_0_1 u (ix2 i j) = u (ix2 (0 : Fin 1) j) :=
  broadcastInDim_apply _ _ _ (ix2 i j) (ix2 (0 : Fin 1) j) (by intro a; fin_cases a <;> rfl)

/-- A vector of 128 as one row, read at column `j`: the vector at `j`. -/
theorem bcast1_apply {α : Type} (v : S128.Idx → α) (j : Fin 128) :
    broadcastInDim S1x128 ![1] bcast_S128_S1x128_1 v (ix2 (0 : Fin 1) j) = v (ix1 j) :=
  broadcastInDim_apply _ _ _ (ix2 (0 : Fin 1) j) (ix1 j) (by intro a; fin_cases a <;> rfl)

/-! ## The column sums -/

/-- The sum down column `j`. -/
def colSumR (X : S50000x128.Idx → EReal) (j : Fin 128) : EReal := ∑ i' : Fin 50000, X (ix2 i' j)

/-- The reduction over the rows from the initial value zero, read at column `j`: the sum down the column. -/
theorem colSum_apply (X : S50000x128.Idx → EReal) (j : Fin 128) :
    Host.reduceAdd (F := Ideal) (φ := .f32) X (constant (F := Ideal) S_ .f32 0x00000000#32) reducesTo_S50000x128_S128_d0 h_S_ (ix1 j)
      = colSumR X j := by
  have hR : S50000x128.Reduces [0] S128 := by decide
  refine (Ideal.hostReduceAdd_single reducesTo_S50000x128_S128_d0 hR X (Ideal.ofBits .f32 0x00000000#32) (ix1 j)).trans ?_
  rw [Ideal.ofBits_zero_f32, zero_add]
  refine Finset.sum_congr rfl fun k _ => congrArg X ?_
  funext c; fin_cases c <;> rfl

/-- Two arrays that agree down column `j` have the same sum there. -/
theorem colSumR_congr (X Y : S50000x128.Idx → EReal) (j : Fin 128) (h : ∀ i' : Fin 50000, X (ix2 i' j) = Y (ix2 i' j)) :
    colSumR X j = colSumR Y j := Finset.sum_congr rfl fun k _ => h k

/-! ## Mean, deviation, variance -/

/-- Column `j`'s mean: its sum over the count. -/
def meanR (X : S50000x128.Idx → EReal) (j : Fin 128) : EReal := Ideal.div (colSumR X j) (Ideal.ofBits .f32 0x47435000#32)

/-- Column `j`'s variance: the sum of the squared deviations from its mean, over the count less zero. -/
def varR (X : S50000x128.Idx → EReal) (j : Fin 128) : EReal :=
  Ideal.div (∑ i' : Fin 50000, (X (ix2 i' j) - meanR X j) * (X (ix2 i' j) - meanR X j))
    (Ideal.ofBits .f32 0x47435000#32 - FloatOps.sitofp (F := Ideal) .f32 0#32)

theorem colMean_apply (X : S50000x128.Idx → EReal) (j : Fin 128) : colMean (F := Ideal) X (ix1 j) = meanR X j := by
  show Ideal.div (Host.reduceAdd (F := Ideal) (φ := .f32) X (constant (F := Ideal) S_ .f32 0x00000000#32) reducesTo_S50000x128_S128_d0 h_S_ (ix1 j)) (Ideal.ofBits .f32 0x47435000#32) = _
  rw [colSum_apply]; rfl

theorem colDev_apply (X : S50000x128.Idx → EReal) (i : Fin 50000) (j : Fin 128) :
    colDev (F := Ideal) X (ix2 i j) = X (ix2 i j) - meanR X j := by
  show X (ix2 i j) - broadcastInDim S50000x128 ![0, 1] bcast_S1x128_S50000x128_0_1
      (Host.divf (broadcastInDim S1x128 ![1] bcast_S128_S1x128_1
          (Host.reduceAdd (F := Ideal) (φ := .f32) X (constant (F := Ideal) S_ .f32 0x00000000#32) reducesTo_S50000x128_S128_d0 h_S_))
        (broadcastInDim S1x128 ![] bcast_S_S1x128 (constant (F := Ideal) S_ .f32 0x47435000#32))) (ix2 i j) = _
  rw [bcast01_apply]
  show X (ix2 i j) - Ideal.div (broadcastInDim S1x128 ![1] bcast_S128_S1x128_1
          (Host.reduceAdd (F := Ideal) (φ := .f32) X (constant (F := Ideal) S_ .f32 0x00000000#32) reducesTo_S50000x128_S128_d0 h_S_) (ix2 (0 : Fin 1) j))
        (Ideal.ofBits .f32 0x47435000#32) = _
  rw [bcast1_apply, colSum_apply]; rfl

theorem colVar_apply (X : S50000x128.Idx → EReal) (j : Fin 128) : colVar (F := Ideal) X (ix1 j) = varR X j := by
  show Scalar.select (Ideal.cmp .ogt (Ideal.ofBits .f32 0x47435000#32 - FloatOps.sitofp (F := Ideal) .f32 0#32) (Ideal.ofBits .f32 0x00000000#32))
      (Ideal.div (Host.reduceAdd (F := Ideal) (φ := .f32) (mulf (colDev (F := Ideal) X) (colDev (F := Ideal) X)) (constant (F := Ideal) S_ .f32 0x00000000#32) reducesTo_S50000x128_S128_d0 h_S_ (ix1 j))
        (Ideal.ofBits .f32 0x47435000#32 - FloatOps.sitofp (F := Ideal) .f32 0#32))
      (Ideal.ofBits .f32 0x7FC00000#32) = _
  rw [NormLaw.cmp_ogt_count (N := 50000) (by norm_num) _ _ _ NormLaw.ofBits_50000 NormLaw.sitofp_zero Ideal.ofBits_zero_f32,
    select_one, colSum_apply]
  rw [colSumR_congr (mulf (F := Ideal) (φ := .f32) (colDev (F := Ideal) X) (colDev (F := Ideal) X))
    (fun idx => (X idx - meanR X j) * (X idx - meanR X j)) j (fun k => by
      show colDev (F := Ideal) X (ix2 k j) * colDev (F := Ideal) X (ix2 k j) = _
      rw [colDev_apply])]
  rfl

/-! ## The normalisation at an entry -/

/-- Entry `(i, j)` of the result: the entry less its column's mean, over the root of the column's variance plus
    the small constant, times `gamma j`, plus `beta j`, through the hyperbolic tangent. -/
theorem bnTanh_apply (X : S50000x128.Idx → EReal) (G B : S128.Idx → EReal) (i : Fin 50000) (j : Fin 128) :
    bnTanh (F := Ideal) X G B (ix2 i j)
      = Ideal.tanh (Ideal.div (X (ix2 i j) - meanR X j) (Ideal.sqrt (varR X j + Ideal.ofBits .f32 0x3727C5AC#32)) * G (ix1 j) + B (ix1 j)) := by
  show Ideal.tanh (Ideal.div
        (X (ix2 i j) - broadcastInDim S50000x128 ![0, 1] bcast_S1x128_S50000x128_0_1 (broadcastInDim S1x128 ![1] bcast_S128_S1x128_1 (colMean (F := Ideal) X)) (ix2 i j))
        (broadcastInDim S50000x128 ![0, 1] bcast_S1x128_S50000x128_0_1 (broadcastInDim S1x128 ![1] bcast_S128_S1x128_1
          (Host.sqrt (addf (colVar (F := Ideal) X) (broadcastInDim S128 ![] bcast_S_S128 (constant (F := Ideal) S_ .f32 0x3727C5AC#32))))) (ix2 i j))
      * broadcastInDim S50000x128 ![0, 1] bcast_S1x128_S50000x128_0_1 (broadcastInDim S1x128 ![1] bcast_S128_S1x128_1 G) (ix2 i j)
      + broadcastInDim S50000x128 ![0, 1] bcast_S1x128_S50000x128_0_1 (broadcastInDim S1x128 ![1] bcast_S128_S1x128_1 B) (ix2 i j)) = _
  rw [bcast01_apply, bcast01_apply, bcast01_apply, bcast01_apply, bcast1_apply, bcast1_apply, bcast1_apply, bcast1_apply, colMean_apply]
  show Ideal.tanh (Ideal.div (X (ix2 i j) - meanR X j) (Ideal.sqrt (colVar (F := Ideal) X (ix1 j) + Ideal.ofBits .f32 0x3727C5AC#32)) * G (ix1 j) + B (ix1 j)) = _
  rw [colVar_apply]

end Cert.ReferenceIdeal.RefRun

end
-- ==== Proof.Bridge.lean ====
/-
  The two programs compute one function. Both build the same 128 by 128 Hamilton matrix from the
  weight and aggregate the same way (gather, scale, scatter-add) the product of the input with it;
  the kernel forms that product ten row blocks at a time, the reference in one contraction: entry by
  entry both are the same sum of 128 products. Call the aggregated array X. The kernel normalises
  with the mean S1/n and the variance S2/n - (S1/n)², multiplying by 1/sqrt(variance + ε); the
  reference with the same mean and the variance Σ(x - mean)²/n, dividing by sqrt(variance + ε). When
  every entry of X is a real number the two variances are equal and nonnegative, the root is a
  positive real, and multiplying by its reciprocal is dividing by it; X is real because the float
  arguments are (the precondition) and reals are closed under the products and finite sums that
  build it.
-/
import proofs.«125587_j10548439679296_1_alg».proof.Proof.KOut
import proofs.«125587_j10548439679296_1_alg».proof.Proof.SpmmReal
import proofs.«125587_j10548439679296_1_alg».proof.Proof.PreReal
import proofs.«125587_j10548439679296_1_alg».proof.Proof.LibNormLaw
import proofs.«125587_j10548439679296_1_alg».proof.Proof.LibDenseHost
import proofs.«125587_j10548439679296_1_alg».proof.Proof.RefRead
set_option maxRecDepth 16384

noncomputable section

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.HandValue

variable [Cert.Pre_finite_inputs.Facts]
variable (m : (ℓ : Loc nD τ sig) → Buf (Elt Ideal) ℓ) (ρ : Dev nD → PrngReg)

/-- The reference's one contraction is the dense product entry by entry. -/
theorem dot_eq_dense (a : (⟨Cert.ReferenceIdeal.S50000x128, .f32⟩ : BufTy).Contents (Elt Ideal))
    (H : (⟨Cert.ReferenceIdeal.S128x128, .f32⟩ : BufTy).Contents (Elt Ideal)) :
    Host.dotGeneral (F := Ideal) (φ₁ := .f32) (φ₂ := .f32) Cert.ReferenceIdeal.dot_S50000x128_S128x128_S50000x128_1_0_0_1_n_n none a H = dense a H := by
  funext i
  obtain ⟨k, q, rfl⟩ : ∃ (k : Fin 50000) (q : Fin 128), i = ix2 k q := ⟨i 0, i 1, eq_ix2 i⟩
  exact DenseBlock.dotGeneral_apply_ix2 (K := 50000) (N := 128) (Q := 128)
    Cert.ReferenceIdeal.dot_S50000x128_S128x128_S50000x128_1_0_0_1_n_n.wf _ a H k q

/-- So the reference aggregates the same array. -/
theorem agg_eq (c : Dev nD) :
    Cert.ReferenceIdeal.RefRun.spmm (F := Ideal)
      (Host.dotGeneral (F := Ideal) (φ₁ := .f32) (φ₂ := .f32) Cert.ReferenceIdeal.dot_S50000x128_S128x128_S50000x128_1_0_0_1_n_n none (m ((c : Thread nD τ).loc main_arg0))
        (Cert.ReferenceIdeal.RefRun.ham (F := Ideal) (m ((c : Thread nD τ).loc main_arg4))))
      (m ((c : Thread nD τ).loc main_arg1)) (m ((c : Thread nD τ).loc main_arg2)) (m ((c : Thread nD τ).loc main_arg3)) = agg m c := by
  unfold agg
  rw [dot_eq_dense]

/-- Under the precondition every entry of the aggregated array is a real number. -/
theorem agg_real (hpre : Cert.Pre_KernelIdeal m) (c : Dev nD) (i : S50000x128.Idx) : ∃ x : ℝ, agg m c i = (x : EReal) := by
  obtain ⟨h0, h3, h4, -, -⟩ := Cert.Proof.PreReal.real_of_Pre_KernelIdeal m hpre c
  have h := Cert.Proof.SpmmReal.agg_real (m ((c : Thread nD τ).loc main_arg0)) (m ((c : Thread nD τ).loc main_arg1))
    (m ((c : Thread nD τ).loc main_arg2)) (m ((c : Thread nD τ).loc main_arg3)) (m ((c : Thread nD τ).loc main_arg4)) h0 h3 h4 i
  rw [agg_eq m c] at h
  exact h

/-- THE VALUE CLAIM's heart: the kernel program's result array is the reference's function of the arguments. -/
theorem out_eq (hpre : Cert.Pre_KernelIdeal m) (c : Dev nD) :
    W6 m ρ c (Proc.devRef .tc main_v173)
      = Cert.ReferenceIdeal.RefRun.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  funext i
  obtain ⟨r, j, rfl⟩ : ∃ (r : Fin 50000) (j : Fin 128), i = ix2 r j := ⟨i 0, i 1, eq_ix2 i⟩
  rw [out_at]
  unfold Cert.ReferenceIdeal.RefRun.out
  rw [agg_eq m c]
  refine Eq.trans ?_ (Cert.ReferenceIdeal.RefRun.bnTanh_apply (agg m c) (m ((c : Thread nD τ).loc main_arg5))
    (m ((c : Thread nD τ).loc main_arg6)) r j).symm
  exact NormLaw.bn_eq (fun i => agg m c (ix2 i j)) (fun i => agg_real m hpre c (ix2 i j)) (N := 50000) (by norm_num) NormLaw.card_50000
    (Ideal.ofBits .f32 0x47435000#32) (FloatOps.sitofp (F := Ideal) .f32 0#32) (Ideal.ofBits .f32 0x3F800000#32)
    (Ideal.ofBits .f32 0x3727C5AC#32) NormLaw.ofBits_50000 NormLaw.sitofp_zero NormLaw.ofBits_one NormLaw.ofBits_eps _ _ r

end Cert.Proof.Bridge

end
-- ==== Proof.lean ====
/-
  The certificate of an octonion graph layer: a TPU program against its array-library reference.

  Both programs take node features x (50000 by 128), 800000 weighted edges (row, col, val), a 16 by 128
  weight, and a scale and a shift (128 each). Both expand the weight to the 128 by 128 Hamilton matrix H
  of octonion multiplication (eight 16-column slices, signed and stacked eight times), form the product
  x · H, aggregate it along the edges (row r of the result is the sum over the edges into r of val times
  the product's row col), normalise each of the 128 columns to mean zero and variance one over the
  50000 rows with the small constant added to the variance, scale, shift, and take tanh.

  The TPU program computes x · H in a kernel region over ten blocks of 5000 rows, leaves the edge
  aggregation to host operations, accumulates the column sums and sums of squares in a second region
  over the same ten blocks (two rows reset at the first block and written back after the last),
  derives mean = S1/n and inv = 1/sqrt(S2/n - mean² + ε) on the host, and normalises in a third region,
  again ten blocks. Every region runs its body once per block; between regions the buffers hold what
  the host operations and the blocks' write-backs leave, so the program terminates, faults nowhere,
  and never writes an argument (the frame claims, at the word level and over the extended reals).

  Over the extended reals the two results agree entry by entry (the value claim): the blockwise
  product is the contraction, the ten partial column sums regroup into one sum, and for a column of
  real numbers S2/n - (S1/n)² = Σ(x - S1/n)²/n ≥ 0, so the root of variance + ε is a positive real and
  multiplying by its reciprocal is dividing by it. The aggregated array is real because the float
  arguments are finite (the precondition) and it is built from them by products and finite sums.
  The idealization of the kernel rewrote nothing, so that claim is trivial.
-/
import proofs.«125587_j10548439679296_1_alg».proof.Defs
import proofs.«125587_j10548439679296_1_alg».proof.Proof.Gen.Kernel
import proofs.«125587_j10548439679296_1_alg».proof.Proof.Gen.Kernel.Skeleton
import proofs.«125587_j10548439679296_1_alg».proof.Proof.Gen.Kernel.Launch
import proofs.«125587_j10548439679296_1_alg».proof.Proof.Gen.Kernel.Regions
import proofs.«125587_j10548439679296_1_alg».proof.Proof.Gen.Kernel.Points
import proofs.«125587_j10548439679296_1_alg».proof.Proof.Gen.KernelIdeal
import proofs.«125587_j10548439679296_1_alg».proof.Proof.Gen.KernelIdeal.Skeleton
import proofs.«125587_j10548439679296_1_alg».proof.Proof.Gen.KernelIdeal.Launch
import proofs.«125587_j10548439679296_1_alg».proof.Proof.Gen.KernelIdeal.Regions
import proofs.«125587_j10548439679296_1_alg».proof.Proof.Gen.KernelIdeal.Points
import proofs.«125587_j10548439679296_1_alg».proof.Proof.Gen.ReferenceIdeal
import proofs.«125587_j10548439679296_1_alg».proof.Proof.Gen.Pre_finite_inputs
import proofs.«125587_j10548439679296_1_alg».proof.Proof.BFrame
import proofs.«125587_j10548439679296_1_alg».proof.Proof.KFrame
import proofs.«125587_j10548439679296_1_alg».proof.Proof.RefRun
import proofs.«125587_j10548439679296_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the same result array: the kernel program's
    last boundary contents at its result buffer, which is the reference's function of the arguments. -/
theorem algebraic : Cert.algebraic_KernelIdeal_ReferenceIdeal := by
  intro m ρ m' ρ' hpre hagree
  refine ⟨fun c => Cert.KernelIdeal.Hand.W6 m ρ c (Proc.devRef .tc Cert.KernelIdeal.main_v173), ?_, ?_⟩
  · exact (θ_run Cert.KernelIdeal.defs _ _).mono (fun r h c =>
      ⟨h c _ (Cert.KernelIdeal.Hand.mem_uc Cert.KernelIdeal.main_v173 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c)⟩)
      (Cert.KernelIdeal.Hand.run_all m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.Proof.Bridge.out_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
